-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x8 : Shape := ⟨2, ![50000, 8]⟩
abbrev S8x128 : Shape := ⟨2, ![8, 128]⟩
abbrev S128 : Shape := ⟨1, ![128]⟩
abbrev S128x128 : Shape := ⟨2, ![128, 128]⟩
abbrev S256x128 : Shape := ⟨2, ![256, 128]⟩
abbrev S128x2 : Shape := ⟨2, ![128, 2]⟩
abbrev S2 : Shape := ⟨1, ![2]⟩
abbrev S2x800000 : Shape := ⟨2, ![2, 800000]⟩
abbrev S_ : Shape := ⟨0, ![]⟩

class Facts : Prop where
  bcast_S_S50000x8 : S_.BroadcastsInDim S50000x8 (![] : Fin 0 → Fin S50000x8.rank)
  reducesTo_S50000x8_S_d0_1 : S50000x8.ReducesTo [0, 1] S_
  h_S_ : 0 < S_.numel
  bcast_S_S8x128 : S_.BroadcastsInDim S8x128 (![] : Fin 0 → Fin S8x128.rank)
  reducesTo_S8x128_S_d0_1 : S8x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S128x2 .f32) (main_arg8 : FVec F S2 .f32) (main_v33 : IVec S_ 1) : IVec S_ 1 :=
  let main_v34 : FVec F S128x2 .f32 := Host.absf main_arg7
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg4 : FVec F S128 .f32) (main_arg5 : FVec F S256x128 .f32) (main_arg6 : FVec F S128 .f32) (main_arg7 : FVec F S128x2 .f32) (main_arg8 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S50000x8 .f32) (main_arg1 : FVec F S8x128 .f32) (main_arg2 : FVec F S128 .f32) (main_arg3 : FVec F S128x128 .f32) (main_arg4 : FVec F S128 .f32) (main_arg5 : FVec F S256x128 .f32) (main_arg6 : FVec F S128 .f32) (main_arg7 : FVec F S128x2 .f32) (main_arg8 : FVec F S2 .f32) (main_arg9 : IVec S2x800000 32) : IVec S_ 1 :=
  let main_v0 : FVec F S50000x8 .f32 := Host.absf main_arg0
  let main_cst : FVec F S_ .f32 := constant S_ .f32 0x7F800000#32
  let main_v1 : FVec F S50000x8 .f32 := broadcastInDim S50000x8 ![] bcast_S_S50000x8 main_cst
  let main_v2 : IVec S50000x8 1 := cmpf .olt main_v0 main_v1
  let main_c : IVec S_ 1 := constantI S_ 1 1#1
  let main_v3 : IVec S_ 1 := (fun x v => Host.reduce IntOp.andi x v reducesTo_S50000x8_S_d0_1 h_S_) main_v2 main_c
  let main_v4 : FVec F S8x128 .f32 := Host.absf main_arg1
  let main_cst_0 : FVec F S_ .f32 := constant S_ .f32 0x7F800000#32
  let main_v5 : FVec F S8x128 .f32 := broadcastInDim S8x128 ![] bcast_S_S8x128 main_cst_0
  let main_v6 : IVec S8x128 1 := cmpf .olt main_v4 main_v5
  let main_c_1 : IVec S_ 1 := constantI S_ 1 1#1
  let main_v7 : IVec S_ 1 := (fun x v => Host.reduce IntOp.andi x v reducesTo_S8x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S50000x8 : Shape := ⟨2, ![50000, 8]⟩
abbrev S8x128 : Shape := ⟨2, ![8, 128]⟩
abbrev S128 : Shape := ⟨1, ![128]⟩
abbrev S128x128 : Shape := ⟨2, ![128, 128]⟩
abbrev S256x128 : Shape := ⟨2, ![256, 128]⟩
abbrev S128x2 : Shape := ⟨2, ![128, 2]⟩
abbrev S2 : Shape := ⟨1, ![2]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x128 : Shape := ⟨2, ![50000, 128]⟩
abbrev S2000x8 : Shape := ⟨2, ![2000, 8]⟩
abbrev S2000x1 : Shape := ⟨2, ![2000, 1]⟩
abbrev S2000x128 : Shape := ⟨2, ![2000, 128]⟩
abbrev S800000x128 : Shape := ⟨2, ![800000, 128]⟩
abbrev S1x128 : Shape := ⟨2, ![1, 128]⟩
abbrev S1x2 : Shape := ⟨2, ![1, 2]⟩
abbrev S800000x2 : Shape := ⟨2, ![800000, 2]⟩
abbrev S8000x128 : Shape := ⟨2, ![8000, 128]⟩
abbrev S8000x2 : Shape := ⟨2, ![8000, 2]⟩

abbrev nBuf : Space → Nat
  | .hbm => 98
  | .vmem => 47
  | .smem => 0
  | _ => 0

abbrev bufTy : (tb : Table) → Fin (tcTables nBuf tb) → BufTy
  | .hbm, ⟨0, _⟩ => ⟨S50000x8, .f32⟩
  | .hbm, ⟨1, _⟩ => ⟨S8x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S2x800000, .i32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .bf16⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .bf16⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S50000x1, .f32⟩
  | .hbm, ⟨49, _⟩ => ⟨S1x128, .f32⟩
  | .hbm, ⟨50, _⟩ => ⟨S50000x128, .f32⟩
  | .hbm, ⟨51, _⟩ => ⟨S50000x1, .f32⟩
  | .hbm, ⟨52, _⟩ => ⟨S50000x128, .f32⟩
  | .hbm, ⟨53, _⟩ => ⟨S50000x128, .bf16⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .bf16⟩
  | .hbm, ⟨63, _⟩ => ⟨S800000x128, .f32⟩
  | .hbm, ⟨64, _⟩ => ⟨S_, .f32⟩
  | .hbm, ⟨65, _⟩ => ⟨S50000x128, .f32⟩
  | .hbm, ⟨66, _⟩ => ⟨S800000x1, .i32⟩
  | .hbm, ⟨67, _⟩ => ⟨S50000x128, .f32⟩
  | .hbm, ⟨68, _⟩ => ⟨S50000x1, .f32⟩
  | .hbm, ⟨69, _⟩ => ⟨S1x128, .f32⟩
  | .hbm, ⟨70, _⟩ => ⟨S50000x128, .f32⟩
  | .hbm, ⟨71, _⟩ => ⟨S50000x128, .bf16⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x128, .bf16⟩
  | .hbm, ⟨81, _⟩ => ⟨S_, .i32⟩
  | .hbm, ⟨82, _⟩ => ⟨S800000, .i32⟩
  | .hbm, ⟨83, _⟩ => ⟨S800000, .i1⟩
  | .hbm, ⟨84, _⟩ => ⟨S_, .i32⟩
  | .hbm, ⟨85, _⟩ => ⟨S800000, .i32⟩
  | .hbm, ⟨86, _⟩ => ⟨S800000, .i32⟩
  | .hbm, ⟨87, _⟩ => ⟨S800000, .i32⟩
  | .hbm, ⟨88, _⟩ => ⟨S800000x1, .i32⟩
  | .hbm, ⟨89, _⟩ => ⟨S800000x128, .bf16⟩
  | .hbm, ⟨90, _⟩ => ⟨S128x128, .f32⟩
  | .hbm, ⟨91, _⟩ => ⟨S128x128, .bf16⟩
  | .hbm, ⟨92, _⟩ => ⟨S128x128, .f32⟩
  | .hbm, ⟨93, _⟩ => ⟨S128x128, .bf16⟩
  | .hbm, ⟨94, _⟩ => ⟨S128x2, .bf16⟩
  | .hbm, ⟨95, _⟩ => ⟨S1x128, .f32⟩
  | .hbm, ⟨96, _⟩ => ⟨S1x2, .f32⟩
  | .hbm, ⟨97, _⟩ => ⟨S800000x2, .f32⟩
  | .local _ .vmem, ⟨0, _⟩ => ⟨S2000x8, .f32⟩
  | .local _ .vmem, ⟨1, _⟩ => ⟨S2000x8, .f32⟩
  | .local _ .vmem, ⟨2, _⟩ => ⟨S8x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .bf16⟩
  | .local _ .vmem, ⟨8, _⟩ => ⟨S2000x128, .bf16⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S2000x1, .f32⟩
  | .local _ .vmem, ⟨22, _⟩ => ⟨S2000x1, .f32⟩
  | .local _ .vmem, ⟨23, _⟩ => ⟨S2000x128, .f32⟩
  | .local _ .vmem, ⟨24, _⟩ => ⟨S2000x128, .f32⟩
  | .local _ .vmem, ⟨25, _⟩ => ⟨S2000x128, .bf16⟩
  | .local _ .vmem, ⟨26, _⟩ => ⟨S2000x128, .bf16⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x1, .f32⟩
  | .local _ .vmem, ⟨32, _⟩ => ⟨S2000x1, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S8000x128, .bf16⟩
  | .local _ .vmem, ⟨37, _⟩ => ⟨S8000x128, .bf16⟩
  | .local _ .vmem, ⟨38, _⟩ => ⟨S8000x128, .bf16⟩
  | .local _ .vmem, ⟨39, _⟩ => ⟨S8000x128, .bf16⟩
  | .local _ .vmem, ⟨40, _⟩ => ⟨S128x128, .bf16⟩
  | .local _ .vmem, ⟨41, _⟩ => ⟨S128x128, .bf16⟩
  | .local _ .vmem, ⟨42, _⟩ => ⟨S1x128, .f32⟩
  | .local _ .vmem, ⟨43, _⟩ => ⟨S128x2, .bf16⟩
  | .local _ .vmem, ⟨44, _⟩ => ⟨S1x2, .f32⟩
  | .local _ .vmem, ⟨45, _⟩ => ⟨S8000x2, .f32⟩
  | .local _ .vmem, ⟨46, _⟩ => ⟨S8000x2, .f32⟩
  | _, _ => ⟨S50000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_v14 : Ref sig .tc := ⟨.hbm, 31, rfl⟩
abbrev main_v15_0 : Ref sig .tc := ⟨.hbm, 32, rfl⟩
abbrev main_v15_1 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31_0 : Ref sig .tc := ⟨.hbm, 52, rfl⟩
abbrev main_v31_1 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_9 : Ref sig .tc := ⟨.hbm, 72, rfl⟩
abbrev main_v47 : Ref sig .tc := ⟨.hbm, 73, rfl⟩
abbrev main_v48 : Ref sig .tc := ⟨.hbm, 74, rfl⟩
abbrev main_c_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_11 : Ref sig .tc := ⟨.hbm, 81, rfl⟩
abbrev main_v54 : Ref sig .tc := ⟨.hbm, 82, rfl⟩
abbrev main_v55 : Ref sig .tc := ⟨.hbm, 83, rfl⟩
abbrev main_c_12 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg7_0 : Ref sig .tc := ⟨.vmem, 45, rfl⟩
abbrev cc4_stg7_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem4_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem7_0 : DmaSem sig := 45
abbrev cc4_sem7_1 : DmaSem sig := 46

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x2 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x2 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S8000x2 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S2000x8_S2000x8_0_0 : ∀ a, (![0, 0] : Fin 2 → Nat) a + S2000x8.size a ≤ S2000x8.size a
  h_S2000x8 : 0 < S2000x8.numel
  bitsLt_bf16_f32 : FTy.bits .bf16 < FTy.bits .f32
  inb_S8x128_S8x128_0_0 : ∀ a, (![0, 0] : Fin 2 → Nat) a + S8x128.size a ≤ S8x128.size a
  h_S8x128 : 0 < S8x128.numel
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  slices_S256x128_S128x128_0_0 : S256x128.Slices ![0, 0] S128x128
  slices_S256x128_S128x128_128_0 : S256x128.Slices ![128, 0] S128x128
  shapeCasts_S2_S1x2 : S2.ShapeCasts S1x2
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  shapeCasts_S128x128_S128x128 : S128x128.ShapeCasts S128x128
  broadcasts_S1x128_S8000x128 : S1x128.Broadcasts S8000x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8000x2 : S1x2.Broadcasts S8000x2
  inb_S8000x2_S8000x2_0_0 : ∀ a, (![0, 0] : Fin 2 → Nat) a + S8000x2.size a ≤ S8000x2.size a
  h_S8000x2 : 0 < S8000x2.numel
  scatter_S50000_S800000x1_S800000_n_0_0_1_wf : ScatterDims.WF S50000 S800000x1 S800000 [] [0] [0] 1
  dot_S2000x8_S8x128_S2000x128_1_0_0_1_n_n_wf : DotDims.WF S2000x8 S8x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S8000x128_S128x128_S8000x128_1_0_0_1_n_n_wf : DotDims.WF S8000x128 S128x128 S8000x128 [1] [0] [0] [1] [] []
  dot_S8000x128_S128x2_S8000x2_1_0_0_1_n_n_wf : DotDims.WF S8000x128 S128x2 S8000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x8.size a ≤ S50000x8.size a
  hwx0_0 : ∀ i : grid0.Coords, EltTy.bits .f32 = 32 ∨ (Rect.block (s := S50000x8) S2000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x128.size a
  hwx0_1 : ∀ i : grid0.Coords, EltTy.bits .f32 = 32 ∨ (Rect.block (s := S8x128) S8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .bf16 = 32 ∨ (Rect.block (s := S50000x128) S2000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .bf16 = 32 ∨ (Rect.block (s := S50000x128) S2000x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S800000x128.size a
  hwx4_0 : ∀ i : grid4.Coords, EltTy.bits .bf16 = 32 ∨ (Rect.block (s := S800000x128) S8000x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x128.size a ≤ S800000x128.size a
  hwx4_1 : ∀ i : grid4.Coords, EltTy.bits .bf16 = 32 ∨ (Rect.block (s := S800000x128) S8000x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .bf16 = 32 ∨ (Rect.block (s := S128x128) S128x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .bf16 = 32 ∨ (Rect.block (s := S128x128) S128x128.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x2.size a ≤ S128x2.size a
  hwx4_5 : ∀ i : grid4.Coords, EltTy.bits .bf16 = 32 ∨ (Rect.block (s := S128x2) S128x2.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x2.size a ≤ S1x2.size a
  hwx4_6 : ∀ i : grid4.Coords, EltTy.bits .f32 = 32 ∨ (Rect.block (s := S1x2) S1x2.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S8000x2.size a ≤ S800000x2.size a
  hwx4_7 : ∀ i : grid4.Coords, EltTy.bits .f32 = 32 ∨ (Rect.block (s := S800000x2) S8000x2.size (cc4_transform_7 i) (hinb4_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x8_S8x128_S2000x128_1_0_0_1_n_n : DotDims S2000x8 S8x128 S2000x128 where
  lhsContracting := [1]
  rhsContracting := [0]
  lhsNonContracting := [0]
  rhsNonContracting := [1]
  lhsBatch := []
  rhsBatch := []
  wf := dot_S2000x8_S8x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x2_S8000x2_1_0_0_1_n_n : DotDims S8000x128 S128x2 S8000x2 where
  lhsContracting := [1]
  rhsContracting := [0]
  lhsNonContracting := [0]
  rhsNonContracting := [1]
  lhsBatch := []
  rhsBatch := []
  wf := dot_S8000x128_S128x2_S8000x2_1_0_0_1_n_n_wf

abbrev win0_0 : Pipeline.Window sig grid0 :=
  Pipeline.Window.ofSpec (Memref.whole main_arg0) S2000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15_1) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v26) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15_0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v29) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31_0) S2000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v31_1) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v42) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31_0) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v43) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v44) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v45) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v53) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v60) S8000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v62) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v64) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v66) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v65) S128x2.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v67) S1x2.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v68) S8000x2.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S50000x8 : Shape := ⟨2, ![50000, 8]⟩
abbrev S8x128 : Shape := ⟨2, ![8, 128]⟩
abbrev S128 : Shape := ⟨1, ![128]⟩
abbrev S128x128 : Shape := ⟨2, ![128, 128]⟩
abbrev S256x128 : Shape := ⟨2, ![256, 128]⟩
abbrev S128x2 : Shape := ⟨2, ![128, 2]⟩
abbrev S2 : Shape := ⟨1, ![2]⟩
abbrev S2x800000 : Shape := ⟨2, ![2, 800000]⟩
abbrev S1x800000 : Shape := ⟨2, ![1, 800000]⟩
abbrev S800000 : Shape := ⟨1, ![800000]⟩
abbrev S50000x128 : Shape := ⟨2, ![50000, 128]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S800000x1 : Shape := ⟨2, ![800000, 1]⟩
abbrev S800000x128 : Shape := ⟨2, ![800000, 128]⟩
abbrev S800000x256 : Shape := ⟨2, ![800000, 256]⟩
abbrev S800000x2 : Shape := ⟨2, ![800000, 2]⟩
abbrev S1x2 : Shape := ⟨2, ![1, 2]⟩

abbrev nBuf : Space → Nat
  | .hbm => 165
  | .vmem => 0
  | .smem => 0
  | _ => 0

abbrev hbmTy0_0 (i : Nat) : BufTy := match i % 128 with
  | 0 => ⟨S50000x8, .f32⟩
  | 1 => ⟨S8x128, .f32⟩
  | 2 => ⟨S128, .f32⟩
  | 3 => ⟨S128x128, .f32⟩
  | 4 => ⟨S128, .f32⟩
  | 5 => ⟨S256x128, .f32⟩
  | 6 => ⟨S128, .f32⟩
  | 7 => ⟨S128x2, .f32⟩
  | 8 => ⟨S2, .f32⟩
  | 9 => ⟨S2x800000, .i32⟩
  | 10 => ⟨S1x800000, .i32⟩
  | 11 => ⟨S800000, .i32⟩
  | 12 => ⟨S1x800000, .i32⟩
  | 13 => ⟨S800000, .i32⟩
  | 14 => ⟨S50000x128, .f32⟩
  | 15 => ⟨S50000, .i32⟩
  | 16 => ⟨S850000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x128, .f32⟩
  | 60 => ⟨S850000x1, .f32⟩
  | 61 => ⟨S850000x128, .f32⟩
  | 62 => ⟨S850000x128, .f32⟩
  | 63 => ⟨S_, .f32⟩
  | 64 => ⟨S50000x128, .f32⟩
  | 65 => ⟨S850000x1, .i32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S50000x128, .f32⟩
  | 74 => ⟨S50000, .i32⟩
  | 75 => ⟨S850000, .i32⟩
  | 76 => ⟨S850000, .i32⟩
  | 77 => ⟨S_, .f32⟩
  | 78 => ⟨S850000, .f32⟩
  | 79 => ⟨S_, .f32⟩
  | 80 => ⟨S50000, .f32⟩
  | 81 => ⟨S850000x1, .i32⟩
  | 82 => ⟨S50000, .f32⟩
  | 83 => ⟨S_, .f32⟩
  | 84 => ⟨S50000, .f32⟩
  | 85 => ⟨S50000, .i1⟩
  | 86 => ⟨S50000, .f32⟩
  | 87 => ⟨S_, .f32⟩
  | 88 => ⟨S_, .f32⟩
  | 89 => ⟨S50000, .f32⟩
  | 90 => ⟨S50000, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S850000, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x128, .f32⟩
  | 119 => ⟨S850000x1, .f32⟩
  | 120 => ⟨S850000x128, .f32⟩
  | 121 => ⟨S850000x128, .f32⟩
  | 122 => ⟨S_, .f32⟩
  | 123 => ⟨S50000x128, .f32⟩
  | 124 => ⟨S850000x1, .i32⟩
  | 125 => ⟨S50000x128, .f32⟩
  | 126 => ⟨S1x128, .f32⟩
  | 127 => ⟨S50000x128, .f32⟩
  | _ => ⟨S50000x8, .f32⟩

abbrev hbmTy0_1 (i : Nat) : BufTy := match i % 128 with
  | 0 => ⟨S50000x128, .f32⟩
  | 1 => ⟨S_, .f32⟩
  | 2 => ⟨S50000x128, .f32⟩
  | 3 => ⟨S50000x128, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x128, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S800000x256, .f32⟩
  | 23 => ⟨S800000x128, .f32⟩
  | 24 => ⟨S1x128, .f32⟩
  | 25 => ⟨S800000x128, .f32⟩
  | 26 => ⟨S800000x128, .f32⟩
  | 27 => ⟨S_, .f32⟩
  | 28 => ⟨S800000x128, .f32⟩
  | 29 => ⟨S800000x128, .f32⟩
  | 30 => ⟨S800000x2, .f32⟩
  | 31 => ⟨S1x2, .f32⟩
  | 32 => ⟨S800000x2, .f32⟩
  | 33 => ⟨S800000x2, .f32⟩
  | 34 => ⟨S_, .f32⟩
  | 35 => ⟨S800000x2, .f32⟩
  | 36 => ⟨S800000x2, .f32⟩
  | _ => ⟨S50000x8, .f32⟩

abbrev hbmTy (i : Nat) : BufTy := match i / 128 with
  | 0 => hbmTy0_0 i
  | 1 => hbmTy0_1 i
  | _ => ⟨S50000x8, .f32⟩

abbrev bufTy : (tb : Table) → Fin (tcTables nBuf tb) → BufTy
  | .hbm, ⟨i, _⟩ => hbmTy i
  | _, _ => ⟨S50000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v59 : Ref sig .tc := ⟨.hbm, 90, rfl⟩
abbrev main_c_13 : Ref sig .tc := ⟨.hbm, 91, rfl⟩
abbrev main_v60 : Ref sig .tc := ⟨.hbm, 92, rfl⟩
abbrev main_v61 : Ref sig .tc := ⟨.hbm, 93, rfl⟩
abbrev main_c_14 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c_15 : Ref sig .tc := ⟨.hbm, 100, rfl⟩
abbrev main_v67 : Ref sig .tc := ⟨.hbm, 101, rfl⟩
abbrev main_v68 : Ref sig .tc := ⟨.hbm, 102, rfl⟩
abbrev main_c_16 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_17 : Ref sig .tc := ⟨.hbm, 110, rfl⟩
abbrev main_v75 : Ref sig .tc := ⟨.hbm, 111, rfl⟩
abbrev main_v76 : Ref sig .tc := ⟨.hbm, 112, rfl⟩
abbrev main_c_18 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_19 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_call3_cst : Ref sig .tc := ⟨.hbm, 129, rfl⟩
abbrev main_call3_v0 : Ref sig .tc := ⟨.hbm, 130, rfl⟩
abbrev main_v91 : Ref sig .tc := ⟨.hbm, 131, rfl⟩
abbrev main_c_20 : Ref sig .tc := ⟨.hbm, 132, rfl⟩
abbrev main_v92 : Ref sig .tc := ⟨.hbm, 133, rfl⟩
abbrev main_v93 : Ref sig .tc := ⟨.hbm, 134, rfl⟩
abbrev main_c_21 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_c_22 : Ref sig .tc := ⟨.hbm, 141, rfl⟩
abbrev main_v99 : Ref sig .tc := ⟨.hbm, 142, rfl⟩
abbrev main_v100 : Ref sig .tc := ⟨.hbm, 143, rfl⟩
abbrev main_c_23 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_call4_cst : Ref sig .tc := ⟨.hbm, 155, rfl⟩
abbrev main_call4_v0 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_call5_cst : Ref sig .tc := ⟨.hbm, 162, rfl⟩
abbrev main_call5_v0 : Ref sig .tc := ⟨.hbm, 163, rfl⟩
abbrev main_v116 : Ref sig .tc := ⟨.hbm, 164, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S2_S1x2_1 : S2.BroadcastsInDim S1x2 (![1] : Fin 1 → Fin S1x2.rank)
  bcast_S1x2_S800000x2_0_1 : S1x2.BroadcastsInDim S800000x2 (![0, 1] : Fin 2 → Fin S800000x2.rank)
  bcast_S_S800000x2 : S_.BroadcastsInDim S800000x2 (![] : Fin 0 → Fin S800000x2.rank)
  dot_S50000x8_S8x128_S50000x128_1_0_0_1_n_n_wf : DotDims.WF S50000x8 S8x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x2_S800000x2_1_0_0_1_n_n_wf : DotDims.WF S800000x128 S128x2 S800000x2 [1] [0] [0] [1] [] []

variable [Facts₀]

def dot_S50000x8_S8x128_S50000x128_1_0_0_1_n_n : DotDims S50000x8 S8x128 S50000x128 where
  lhsContracting := [1]
  rhsContracting := [0]
  lhsNonContracting := [0]
  rhsNonContracting := [1]
  lhsBatch := []
  rhsBatch := []
  wf := dot_S50000x8_S8x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x2_S800000x2_1_0_0_1_n_n : DotDims S800000x128 S128x2 S800000x2 where
  lhsContracting := [1]
  rhsContracting := [0]
  lhsNonContracting := [0]
  rhsNonContracting := [1]
  lhsBatch := []
  rhsBatch := []
  wf := dot_S800000x128_S128x2_S800000x2_1_0_0_1_n_n_wf

class Facts : Prop extends Facts₀ where

variable [Facts]
-- ==== Proof.KernelRun.lean ====
/-
  The idealized kernel's run with its result named.

  @main is twelve segments: host stretches and five pipelined regions. The launch theorem for such a chain gives, for
  every weakly fair execution, termination without a fault in a state whose every unscoped buffer holds the last
  boundary's contents `W12`: the fold of the host stretches' results and the regions' write-backs from the launch memory.
  Reading that state at the result buffer and at the ten argument buffers gives the run below: the result is `W12` at
  the result buffer, the arguments are as launched.
-/
import proofs.«173198_j90718299226435_2_alg».proof.Proof.Gen.KernelIdeal.Frame

set_option maxRecDepth 16384

noncomputable section

namespace Cert.KernelIdeal.ResultRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v68) = W12 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v68 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)

end Cert.KernelIdeal.ResultRun

end
-- ==== Proof.ChainKeep.lean ====
/-
  Buffers that pass untouched through later segments of the kernel program.

  The boundary contents `W0 … W12` are a fold: each host stretch adds its results, each region replaces its output
  arrays. A buffer that a segment does not write holds after it what it held before. This module records the instances
  the value proof reads: the two endpoint-word vectors and the degree factor (computed before the first region, read by
  every later stretch), the arguments where a region or a later stretch reads them, and each region's outputs at the
  region or stretch that consumes them.
-/
import proofs.«173198_j90718299226435_2_alg».proof.Proof.Gen.KernelIdeal.Frame
import Idealize.ShloMosaic.PureOps.Ideal

noncomputable section

namespace Cert.KernelIdeal.Chain

open Idealize.ShloMosaic Idealize.ShloMosaic.TcCoe Idealize.SL.Sem Idealize.ShloMosaic.StableHlo
open Cert.KernelIdeal Cert.KernelIdeal.Gen

/-- A host stretch leaves a buffer none of its operations writes as it found it. -/
macro "host_untouched" "[" ops:ident "]" : tactic => `(tactic|
  (refine StableHlo.after_of_forall_not_mem _ _ (List.forall_iff_forall_mem.mp ?_)
   simp only [$ops:ident, List.flatten_cons, List.flatten_nil, List.append_nil, List.cons_append, List.nil_append, List.Forall,
     StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

variable (m : (ℓ : Loc nD τ sig) → Buf (Elt Ideal) ℓ) (ρ : Dev nD → PrngReg) (c : Dev nD)

/-! ### The endpoint words and the degree factor, named where they are computed -/

/-- The source words and the target words as the first stretch leaves them. -/
abbrev srcA := W1 m ρ c (Proc.devRef .tc main_v1)
abbrev dstA := W1 m ρ c (Proc.devRef .tc main_v3)
/-- The degree factor as the second stretch leaves it. -/
abbrev dinvA := W2 m ρ c (Proc.devRef .tc main_v13)

/-! ### From the launch to the first region -/

theorem W3_arg0 : W3 m ρ c (Proc.devRef .tc main_arg0) = m ((c : Thread nD τ).loc main_arg0) :=
  (show W3 m ρ c _ = W2 m ρ c _ by host_untouched [hostOps0_2]).trans <|
  (show W2 m ρ c _ = W1 m ρ c _ by host_untouched [hostOps0_1]).trans <|
  (show W1 m ρ c _ = W0 m ρ c _ by host_untouched [hostOps0])
theorem W3_arg1 : W3 m ρ c (Proc.devRef .tc main_arg1) = m ((c : Thread nD τ).loc main_arg1) :=
  (show W3 m ρ c _ = W2 m ρ c _ by host_untouched [hostOps0_2]).trans <|
  (show W2 m ρ c _ = W1 m ρ c _ by host_untouched [hostOps0_1]).trans <|
  (show W1 m ρ c _ = W0 m ρ c _ by host_untouched [hostOps0])
theorem W3_arg2 : W3 m ρ c (Proc.devRef .tc main_arg2) = m ((c : Thread nD τ).loc main_arg2) :=
  (show W3 m ρ c _ = W2 m ρ c _ by host_untouched [hostOps0_2]).trans <|
  (show W2 m ρ c _ = W1 m ρ c _ by host_untouched [hostOps0_1]).trans <|
  (show W1 m ρ c _ = W0 m ρ c _ by host_untouched [hostOps0])
theorem W3_arg3 : W3 m ρ c (Proc.devRef .tc main_arg3) = m ((c : Thread nD τ).loc main_arg3) :=
  (show W3 m ρ c _ = W2 m ρ c _ by host_untouched [hostOps0_2]).trans <|
  (show W2 m ρ c _ = W1 m ρ c _ by host_untouched [hostOps0_1]).trans <|
  (show W1 m ρ c _ = W0 m ρ c _ by host_untouched [hostOps0])
theorem W3_arg4 : W3 m ρ c (Proc.devRef .tc main_arg4) = m ((c : Thread nD τ).loc main_arg4) :=
  (show W3 m ρ c _ = W2 m ρ c _ by host_untouched [hostOps0_2]).trans <|
  (show W2 m ρ c _ = W1 m ρ c _ by host_untouched [hostOps0_1]).trans <|
  (show W1 m ρ c _ = W0 m ρ c _ by host_untouched [hostOps0])
theorem W3_arg5 : W3 m ρ c (Proc.devRef .tc main_arg5) = m ((c : Thread nD τ).loc main_arg5) :=
  (show W3 m ρ c _ = W2 m ρ c _ by host_untouched [hostOps0_2]).trans <|
  (show W2 m ρ c _ = W1 m ρ c _ by host_untouched [hostOps0_1]).trans <|
  (show W1 m ρ c _ = W0 m ρ c _ by host_untouched [hostOps0])
theorem W3_arg6 : W3 m ρ c (Proc.devRef .tc main_arg6) = m ((c : Thread nD τ).loc main_arg6) :=
  (show W3 m ρ c _ = W2 m ρ c _ by host_untouched [hostOps0_2]).trans <|
  (show W2 m ρ c _ = W1 m ρ c _ by host_untouched [hostOps0_1]).trans <|
  (show W1 m ρ c _ = W0 m ρ c _ by host_untouched [hostOps0])
theorem W3_arg7 : W3 m ρ c (Proc.devRef .tc main_arg7) = m ((c : Thread nD τ).loc main_arg7) :=
  (show W3 m ρ c _ = W2 m ρ c _ by host_untouched [hostOps0_2]).trans <|
  (show W2 m ρ c _ = W1 m ρ c _ by host_untouched [hostOps0_1]).trans <|
  (show W1 m ρ c _ = W0 m ρ c _ by host_untouched [hostOps0])
theorem W3_arg8 : W3 m ρ c (Proc.devRef .tc main_arg8) = m ((c : Thread nD τ).loc main_arg8) :=
  (show W3 m ρ c _ = W2 m ρ c _ by host_untouched [hostOps0_2]).trans <|
  (show W2 m ρ c _ = W1 m ρ c _ by host_untouched [hostOps0_1]).trans <|
  (show W1 m ρ c _ = W0 m ρ c _ by host_untouched [hostOps0])

theorem W3_v1 : W3 m ρ c (Proc.devRef .tc main_v1) = srcA m ρ c :=
  (show W3 m ρ c _ = W2 m ρ c _ by host_untouched [hostOps0_2]).trans
    (show W2 m ρ c _ = W1 m ρ c _ by host_untouched [hostOps0_1])
theorem W3_v3 : W3 m ρ c (Proc.devRef .tc main_v3) = dstA m ρ c :=
  (show W3 m ρ c _ = W2 m ρ c _ by host_untouched [hostOps0_2]).trans
    (show W2 m ρ c _ = W1 m ρ c _ by host_untouched [hostOps0_1])
theorem W3_v13 : W3 m ρ c (Proc.devRef .tc main_v13) = dinvA m ρ c :=
  show W3 m ρ c _ = W2 m ρ c _ by host_untouched [hostOps0_2]

/-! ### Across the first region (it writes only its two outputs) -/

theorem W4_v1 : W4 m ρ c (Proc.devRef .tc main_v1) = srcA m ρ c := (W4_of_ne m ρ c main_v1 (by decide)).trans (W3_v1 m ρ c)
theorem W4_v3 : W4 m ρ c (Proc.devRef .tc main_v3) = dstA m ρ c := (W4_of_ne m ρ c main_v3 (by decide)).trans (W3_v3 m ρ c)
theorem W4_v13 : W4 m ρ c (Proc.devRef .tc main_v13) = dinvA m ρ c := (W4_of_ne m ρ c main_v13 (by decide)).trans (W3_v13 m ρ c)
theorem W4_arg2 : W4 m ρ c (Proc.devRef .tc main_arg2) = m ((c : Thread nD τ).loc main_arg2) := (W4_of_ne m ρ c main_arg2 (by decide)).trans (W3_arg2 m ρ c)
theorem W4_arg3 : W4 m ρ c (Proc.devRef .tc main_arg3) = m ((c : Thread nD τ).loc main_arg3) := (W4_of_ne m ρ c main_arg3 (by decide)).trans (W3_arg3 m ρ c)
theorem W4_arg4 : W4 m ρ c (Proc.devRef .tc main_arg4) = m ((c : Thread nD τ).loc main_arg4) := (W4_of_ne m ρ c main_arg4 (by decide)).trans (W3_arg4 m ρ c)
theorem W4_arg5 : W4 m ρ c (Proc.devRef .tc main_arg5) = m ((c : Thread nD τ).loc main_arg5) := (W4_of_ne m ρ c main_arg5 (by decide)).trans (W3_arg5 m ρ c)
theorem W4_arg6 : W4 m ρ c (Proc.devRef .tc main_arg6) = m ((c : Thread nD τ).loc main_arg6) := (W4_of_ne m ρ c main_arg6 (by decide)).trans (W3_arg6 m ρ c)
theorem W4_arg7 : W4 m ρ c (Proc.devRef .tc main_arg7) = m ((c : Thread nD τ).loc main_arg7) := (W4_of_ne m ρ c main_arg7 (by decide)).trans (W3_arg7 m ρ c)
theorem W4_arg8 : W4 m ρ c (Proc.devRef .tc main_arg8) = m ((c : Thread nD τ).loc main_arg8) := (W4_of_ne m ρ c main_arg8 (by decide)).trans (W3_arg8 m ρ c)

/-! ### Across the second stretch and the second region -/

theorem W6_of_W4 (b : Ref sig .tc) (h5 : W5 m ρ c (Proc.devRef .tc b) = W4 m ρ c (Proc.devRef .tc b))
    (hb : ∀ w, Pipeline.arrRef spec1 w ≠ b) : W6 m ρ c (Proc.devRef .tc b) = W4 m ρ c (Proc.devRef .tc b) :=
  (W6_of_ne m ρ c b hb).trans h5

theorem W5_hpre : W5 m ρ c (Proc.devRef .tc main_v15_0) = W4 m ρ c (Proc.devRef .tc main_v15_0) := by host_untouched [hostOps1]
theorem W6_v1 : W6 m ρ c (Proc.devRef .tc main_v1) = srcA m ρ c :=
  (W6_of_W4 m ρ c main_v1 (by host_untouched [hostOps1]) (by decide)).trans (W4_v1 m ρ c)
theorem W6_v3 : W6 m ρ c (Proc.devRef .tc main_v3) = dstA m ρ c :=
  (W6_of_W4 m ρ c main_v3 (by host_untouched [hostOps1]) (by decide)).trans (W4_v3 m ρ c)
theorem W6_v13 : W6 m ρ c (Proc.devRef .tc main_v13) = dinvA m ρ c :=
  (W6_of_W4 m ρ c main_v13 (by host_untouched [hostOps1]) (by decide)).trans (W4_v13 m ρ c)
theorem W6_arg3 : W6 m ρ c (Proc.devRef .tc main_arg3) = m ((c : Thread nD τ).loc main_arg3) :=
  (W6_of_W4 m ρ c main_arg3 (by host_untouched [hostOps1]) (by decide)).trans (W4_arg3 m ρ c)
theorem W6_arg4 : W6 m ρ c (Proc.devRef .tc main_arg4) = m ((c : Thread nD τ).loc main_arg4) :=
  (W6_of_W4 m ρ c main_arg4 (by host_untouched [hostOps1]) (by decide)).trans (W4_arg4 m ρ c)
theorem W6_arg5 : W6 m ρ c (Proc.devRef .tc main_arg5) = m ((c : Thread nD τ).loc main_arg5) :=
  (W6_of_W4 m ρ c main_arg5 (by host_untouched [hostOps1]) (by decide)).trans (W4_arg5 m ρ c)
theorem W6_arg6 : W6 m ρ c (Proc.devRef .tc main_arg6) = m ((c : Thread nD τ).loc main_arg6) :=
  (W6_of_W4 m ρ c main_arg6 (by host_untouched [hostOps1]) (by decide)).trans (W4_arg6 m ρ c)
theorem W6_arg7 : W6 m ρ c (Proc.devRef .tc main_arg7) = m ((c : Thread nD τ).loc main_arg7) :=
  (W6_of_W4 m ρ c main_arg7 (by host_untouched [hostOps1]) (by decide)).trans (W4_arg7 m ρ c)
theorem W6_arg8 : W6 m ρ c (Proc.devRef .tc main_arg8) = m ((c : Thread nD τ).loc main_arg8) :=
  (W6_of_W4 m ρ c main_arg8 (by host_untouched [hostOps1]) (by decide)).trans (W4_arg8 m ρ c)

/-! ### Across the third stretch and the third region -/

theorem W8_of_W6 (b : Ref sig .tc) (h7 : W7 m ρ c (Proc.devRef .tc b) = W6 m ρ c (Proc.devRef .tc b))
    (hb : ∀ w, Pipeline.arrRef spec2 w ≠ b) : W8 m ρ c (Proc.devRef .tc b) = W6 m ρ c (Proc.devRef .tc b) :=
  (W8_of_ne m ρ c b hb).trans h7

theorem W7_p1 : W7 m ρ c (Proc.devRef .tc main_v29) = W6 m ρ c (Proc.devRef .tc main_v29) := by host_untouched [hostOps2]
theorem W7_arg3 : W7 m ρ c (Proc.devRef .tc main_arg3) = m ((c : Thread nD τ).loc main_arg3) :=
  (show W7 m ρ c _ = W6 m ρ c _ by host_untouched [hostOps2]).trans (W6_arg3 m ρ c)
theorem W8_v1 : W8 m ρ c (Proc.devRef .tc main_v1) = srcA m ρ c :=
  (W8_of_W6 m ρ c main_v1 (by host_untouched [hostOps2]) (by decide)).trans (W6_v1 m ρ c)
theorem W8_v3 : W8 m ρ c (Proc.devRef .tc main_v3) = dstA m ρ c :=
  (W8_of_W6 m ρ c main_v3 (by host_untouched [hostOps2]) (by decide)).trans (W6_v3 m ρ c)
theorem W8_v13 : W8 m ρ c (Proc.devRef .tc main_v13) = dinvA m ρ c :=
  (W8_of_W6 m ρ c main_v13 (by host_untouched [hostOps2]) (by decide)).trans (W6_v13 m ρ c)
theorem W8_arg4 : W8 m ρ c (Proc.devRef .tc main_arg4) = m ((c : Thread nD τ).loc main_arg4) :=
  (W8_of_W6 m ρ c main_arg4 (by host_untouched [hostOps2]) (by decide)).trans (W6_arg4 m ρ c)
theorem W8_arg5 : W8 m ρ c (Proc.devRef .tc main_arg5) = m ((c : Thread nD τ).loc main_arg5) :=
  (W8_of_W6 m ρ c main_arg5 (by host_untouched [hostOps2]) (by decide)).trans (W6_arg5 m ρ c)
theorem W8_arg6 : W8 m ρ c (Proc.devRef .tc main_arg6) = m ((c : Thread nD τ).loc main_arg6) :=
  (W8_of_W6 m ρ c main_arg6 (by host_untouched [hostOps2]) (by decide)).trans (W6_arg6 m ρ c)
theorem W8_arg7 : W8 m ρ c (Proc.devRef .tc main_arg7) = m ((c : Thread nD τ).loc main_arg7) :=
  (W8_of_W6 m ρ c main_arg7 (by host_untouched [hostOps2]) (by decide)).trans (W6_arg7 m ρ c)
theorem W8_arg8 : W8 m ρ c (Proc.devRef .tc main_arg8) = m ((c : Thread nD τ).loc main_arg8) :=
  (W8_of_W6 m ρ c main_arg8 (by host_untouched [hostOps2]) (by decide)).trans (W6_arg8 m ρ c)

/-! ### Across the fourth stretch and the fourth region -/

theorem W10_of_W8 (b : Ref sig .tc) (h9 : W9 m ρ c (Proc.devRef .tc b) = W8 m ρ c (Proc.devRef .tc b))
    (hb : ∀ w, Pipeline.arrRef spec3 w ≠ b) : W10 m ρ c (Proc.devRef .tc b) = W8 m ρ c (Proc.devRef .tc b) :=
  (W10_of_ne m ρ c b hb).trans h9

theorem W9_hpre : W9 m ρ c (Proc.devRef .tc main_v31_0) = W8 m ρ c (Proc.devRef .tc main_v31_0) := by host_untouched [hostOps3]
theorem W10_v1 : W10 m ρ c (Proc.devRef .tc main_v1) = srcA m ρ c :=
  (W10_of_W8 m ρ c main_v1 (by host_untouched [hostOps3]) (by decide)).trans (W8_v1 m ρ c)
theorem W10_v3 : W10 m ρ c (Proc.devRef .tc main_v3) = dstA m ρ c :=
  (W10_of_W8 m ρ c main_v3 (by host_untouched [hostOps3]) (by decide)).trans (W8_v3 m ρ c)
theorem W10_arg5 : W10 m ρ c (Proc.devRef .tc main_arg5) = m ((c : Thread nD τ).loc main_arg5) :=
  (W10_of_W8 m ρ c main_arg5 (by host_untouched [hostOps3]) (by decide)).trans (W8_arg5 m ρ c)
theorem W10_arg6 : W10 m ρ c (Proc.devRef .tc main_arg6) = m ((c : Thread nD τ).loc main_arg6) :=
  (W10_of_W8 m ρ c main_arg6 (by host_untouched [hostOps3]) (by decide)).trans (W8_arg6 m ρ c)
theorem W10_arg7 : W10 m ρ c (Proc.devRef .tc main_arg7) = m ((c : Thread nD τ).loc main_arg7) :=
  (W10_of_W8 m ρ c main_arg7 (by host_untouched [hostOps3]) (by decide)).trans (W8_arg7 m ρ c)
theorem W10_arg8 : W10 m ρ c (Proc.devRef .tc main_arg8) = m ((c : Thread nD τ).loc main_arg8) :=
  (W10_of_W8 m ρ c main_arg8 (by host_untouched [hostOps3]) (by decide)).trans (W8_arg8 m ρ c)

end Cert.KernelIdeal.Chain

end
-- ==== Proof.LibScatterRows.lean ====
/-
  An accumulating scatter of rows read at an index, over the extended reals.

  `x.at[idx].add(upd)` for a table `x : [n, k]`, a column `idx : [m, 1]` of row numbers and updates `upd : [m, k]` (and the
  same for a flat `x : [n]`, `upd : [m]`): update row `e` is added to the table's row `idx[e, 0]`, the word read as a signed
  integer and NOT clamped — a row number outside `[0, n)` drops the update. So entry `(i, c)` of the result is the
  operand's entry plus the sum, over the update rows `e` that land on `i`, of `upd[e, c]`.
-/
import Idealize.ShloMosaic.Lib.ValueIdx
import Idealize.ShloMosaic.PureOps.Ideal.Laws

noncomputable section

namespace Cert.LibScatterRows

open Idealize.ShloMosaic Idealize.ShloMosaic.ValueIdx

/-- Where a row-number word lands on an axis of extent `n`: read signed, not clamped; nowhere when outside. -/
def landing (n : Nat) {w : Nat} (b : BitVec w) : Option (Fin n) :=
  if h : 0 ≤ b.toInt ∧ b.toInt < (n : Int) then some ⟨b.toInt.toNat, by omega⟩ else none

/-- The dimension numbers of a scatter of whole rows into an `[n, k]` table at a column `[m, 1]` of row numbers. -/
abbrev rowsDims (n k m : Nat) (wf : ScatterDims.WF ⟨2, ![n, k]⟩ ⟨2, ![m, 1]⟩ ⟨2, ![m, k]⟩ [1] [0] [0] 1) :
    ScatterDims ⟨2, ![n, k]⟩ ⟨2, ![m, 1]⟩ ⟨2, ![m, k]⟩ where
  updateWindowDims := [1]
  insertedWindowDims := [0]
  scatterDimsToOperandDims := [0]
  indexVectorDim := 1
  wf := wf

/-- The dimension numbers of a scatter of scalars into a flat `[n]` array at a column `[m, 1]` of positions. -/
abbrev flatDims (n m : Nat) (wf : ScatterDims.WF ⟨1, ![n]⟩ ⟨2, ![m, 1]⟩ ⟨1, ![m]⟩ [] [0] [0] 1) :
    ScatterDims ⟨1, ![n]⟩ ⟨2, ![m, 1]⟩ ⟨1, ![m]⟩ where
  updateWindowDims := []
  insertedWindowDims := [0]
  scatterDimsToOperandDims := [0]
  indexVectorDim := 1
  wf := wf

section rows
variable {n k m w : Nat} (wf : ScatterDims.WF ⟨2, ![n, k]⟩ ⟨2, ![m, 1]⟩ ⟨2, ![m, k]⟩ [1] [0] [0] 1)
  (idx : IVec ⟨2, ![m, 1]⟩ w) (e : Fin m) (c' : Fin k)

/-- On the row axis the window of update `(e, c')` starts at the row number `idx[e, 0]`, read signed. -/
theorem rows_start0 : (rowsDims n k m wf).start (ix2 e c') idx 0 = (idx (ix2 e (0 : Fin 1))).toInt := by
  unfold ScatterDims.start
  rw [dif_pos (show (0 : Fin 2) ∈ (rowsDims n k m wf).scatterDimsToOperandDims from List.mem_singleton.mpr rfl)]
  have hsi : (rowsDims n k m wf).siIdx (ix2 e c') ⟨List.idxOf (0 : Fin 2) (rowsDims n k m wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the index vector does not name, the window starts at `0`. -/
theorem rows_start1 : (rowsDims n k m wf).start (ix2 e c') idx 1 = 0 := by
  unfold ScatterDims.start
  rw [dif_neg (show (1 : Fin 2) ∉ [(0 : Fin 2)] from by decide)]

/-- The row axis is an inserted window axis: the window coordinate there is `0`. -/
theorem rows_window0 : (rowsDims n k m wf).window (ix2 e c') 0 = 0 := by
  unfold ScatterDims.window
  rw [dif_neg]
  simp [ScatterDims.sKept, Shape.kept, List.mem_filter, List.mem_finRange]

/-- The column axis carries the update's one window axis: the window coordinate there is `c'`. -/
theorem rows_window1 : (rowsDims n k m wf).window (ix2 e c') 1 = c'.val := by
  unfold ScatterDims.window
  rw [dif_pos (by simp [ScatterDims.sKept, Shape.kept, List.mem_filter, List.mem_finRange])]
  rfl

/-- Update `(e, c')` lands on `(i, c)` exactly when its row number lands on `i` and `c' = c`: the result index is
    `(idx[e, 0] + 0, 0 + c')`, defined when the row number is inside `[0, n)` (the column always is). -/
theorem rows_resultIdx_iff (i : Fin n) (c : Fin k) :
    (rowsDims n k m wf).resultIdx? (ix2 e c') idx = some (ix2 i c)
      ↔ landing n (idx (ix2 e (0 : Fin 1))) = some i ∧ c' = c := by
  unfold ScatterDims.resultIdx? landing
  by_cases hb : 0 ≤ (idx (ix2 e (0 : Fin 1))).toInt ∧ (idx (ix2 e (0 : Fin 1))).toInt < (n : Int)
  · have hall : ∀ a : Fin 2, 0 ≤ (rowsDims n k m wf).start (ix2 e c') idx a + (rowsDims n k m wf).window (ix2 e c') a
        ∧ (rowsDims n k m wf).start (ix2 e c') idx a + (rowsDims n k m wf).window (ix2 e c') a
            < ((⟨2, ![n, k]⟩ : Shape).size a : Int) := by
      intro a
      match a with
      | ⟨0, _⟩ =>
        show 0 ≤ (rowsDims n k m wf).start (ix2 e c') idx 0 + (rowsDims n k m wf).window (ix2 e c') 0
          ∧ (rowsDims n k m wf).start (ix2 e c') idx 0 + (rowsDims n k m wf).window (ix2 e c') 0 < (n : Int)
        rw [rows_start0, rows_window0]; omega
      | ⟨1, _⟩ =>
        show 0 ≤ (rowsDims n k m wf).start (ix2 e c') idx 1 + (rowsDims n k m wf).window (ix2 e c') 1
          ∧ (rowsDims n k m wf).start (ix2 e c') idx 1 + (rowsDims n k m wf).window (ix2 e c') 1 < (k : Int)
        rw [rows_start1, rows_window1]; have := c'.isLt; omega
    rw [dif_pos hall, dif_pos hb]
    constructor
    · intro h
      have h := Option.some.inj h
      have h0 := congrArg Fin.val (congrFun h 0)
      have h1 := congrArg Fin.val (congrFun h 1)
      change ((rowsDims n k m wf).start (ix2 e c') idx 0 + (rowsDims n k m wf).window (ix2 e c') 0).toNat = i.val at h0
      change ((rowsDims n k m wf).start (ix2 e c') idx 1 + (rowsDims n k m wf).window (ix2 e c') 1).toNat = c.val at h1
      rw [rows_start0, rows_window0] at h0
      rw [rows_start1, rows_window1] at h1
      refine ⟨congrArg some (Fin.ext ?_), Fin.ext ?_⟩
      · show (idx (ix2 e (0 : Fin 1))).toInt.toNat = i.val
        omega
      · omega
    · rintro ⟨h, hc⟩
      have h := congrArg Fin.val (Option.some.inj h)
      change (idx (ix2 e (0 : Fin 1))).toInt.toNat = i.val at h
      refine congrArg some ?_
      funext a
      refine Fin.ext ?_
      match a with
      | ⟨0, _⟩ =>
        show ((rowsDims n k m wf).start (ix2 e c') idx 0 + (rowsDims n k m wf).window (ix2 e c') 0).toNat = i.val
        rw [rows_start0, rows_window0]; omega
      | ⟨1, _⟩ =>
        show ((rowsDims n k m wf).start (ix2 e c') idx 1 + (rowsDims n k m wf).window (ix2 e c') 1).toNat = c.val
        rw [rows_start1, rows_window1, hc]; omega
  · have hnall : ¬ ∀ a : Fin 2, 0 ≤ (rowsDims n k m wf).start (ix2 e c') idx a + (rowsDims n k m wf).window (ix2 e c') a
        ∧ (rowsDims n k m wf).start (ix2 e c') idx a + (rowsDims n k m wf).window (ix2 e c') a
            < ((⟨2, ![n, k]⟩ : Shape).size a : Int) := by
      intro hall
      have h0 := hall 0
      change 0 ≤ (rowsDims n k m wf).start (ix2 e c') idx 0 + (rowsDims n k m wf).window (ix2 e c') 0
          ∧ (rowsDims n k m wf).start (ix2 e c') idx 0 + (rowsDims n k m wf).window (ix2 e c') 0 < (n : Int) at h0
      rw [rows_start0, rows_window0] at h0
      exact hb (by omega)
    rw [dif_neg hnall, dif_neg hb]
    constructor
    · intro h; cases h
    · rintro ⟨h, _⟩; cases h

end rows

/-- THE ROW SCATTER READ AT `(i, c)`: the operand there plus the updates of the rows that land on `i`, column `c`. -/
theorem scatterAdd_rows_apply {n k m w : Nat} {φ : FTy}
    (wf : ScatterDims.WF ⟨2, ![n, k]⟩ ⟨2, ![m, 1]⟩ ⟨2, ![m, k]⟩ [1] [0] [0] 1)
    (x : FVec Ideal ⟨2, ![n, k]⟩ φ) (idx : IVec ⟨2, ![m, 1]⟩ w) (upd : FVec Ideal ⟨2, ![m, k]⟩ φ) (i : Fin n) (c : Fin k) :
    Host.scatterAdd (rowsDims n k m wf) x idx upd (ix2 i c)
      = x (ix2 i c) + ∑ e ∈ Finset.univ.filter (fun e : Fin m => landing n (idx (ix2 e (0 : Fin 1))) = some i), upd (ix2 e c) := by
  show Ideal.hostScatterAdd (rowsDims n k m wf) x idx upd (ix2 i c) = _
  unfold Ideal.hostScatterAdd
  congr 1
  rw [Finset.sum_filter, sum_idx2, Finset.sum_filter]
  refine Finset.sum_congr rfl fun e _ => ?_
  simp only [rows_resultIdx_iff]
  by_cases hl : landing n (idx (ix2 e (0 : Fin 1))) = some i
  · simp only [hl, true_and, if_true]
    rw [Finset.sum_ite_eq' Finset.univ c (fun c' => upd (ix2 e c'))]
    simp
  · simp only [hl, false_and, if_false]
    exact Finset.sum_const_zero

/-- A rank-1 index set is its one coordinate range, so a sum over it is the sum over the coordinate. -/
theorem sum_idx1 {M : Type*} [AddCommMonoid M] {n0 : Nat} (f : (⟨1, ![n0]⟩ : Shape).Idx → M) :
    ∑ j, f j = ∑ a : Fin n0, f (ix1 a) := by
  let eqv : (⟨1, ![n0]⟩ : Shape).Idx ≃ Fin n0 := ⟨fun j => j 0, ix1, fun j => (eq_ix1 j).symm, fun _ => rfl⟩
  rw [← Equiv.sum_comp eqv.symm f]
  rfl

section flat
variable {n m w : Nat} (wf : ScatterDims.WF ⟨1, ![n]⟩ ⟨2, ![m, 1]⟩ ⟨1, ![m]⟩ [] [0] [0] 1)
  (idx : IVec ⟨2, ![m, 1]⟩ w) (e : Fin m)

/-- The window of update `e` starts at the position `idx[e, 0]`, read signed. -/
theorem flat_start0 : (flatDims n m wf).start (ix1 e) idx 0 = (idx (ix2 e (0 : Fin 1))).toInt := by
  unfold ScatterDims.start
  rw [dif_pos (show (0 : Fin 1) ∈ (flatDims n m wf).scatterDimsToOperandDims from List.mem_singleton.mpr rfl)]
  have hsi : (flatDims n m wf).siIdx (ix1 e) ⟨List.idxOf (0 : Fin 1) (flatDims n m wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is an inserted window axis: the window coordinate there is `0`. -/
theorem flat_window0 : (flatDims n m wf).window (ix1 e) 0 = 0 := by
  unfold ScatterDims.window
  rw [dif_neg]
  simp [ScatterDims.sKept, Shape.kept, List.mem_filter, List.mem_finRange]

/-- Update `e` lands on `i` exactly when its position word lands on `i`. -/
theorem flat_resultIdx_iff (i : Fin n) :
    (flatDims n m wf).resultIdx? (ix1 e) idx = some (ix1 i) ↔ landing n (idx (ix2 e (0 : Fin 1))) = some i := by
  unfold ScatterDims.resultIdx? landing
  by_cases hb : 0 ≤ (idx (ix2 e (0 : Fin 1))).toInt ∧ (idx (ix2 e (0 : Fin 1))).toInt < (n : Int)
  · have hall : ∀ a : Fin 1, 0 ≤ (flatDims n m wf).start (ix1 e) idx a + (flatDims n m wf).window (ix1 e) a
        ∧ (flatDims n m wf).start (ix1 e) idx a + (flatDims n m wf).window (ix1 e) a
            < ((⟨1, ![n]⟩ : Shape).size a : Int) := by
      intro a
      match a with
      | ⟨0, _⟩ =>
        show 0 ≤ (flatDims n m wf).start (ix1 e) idx 0 + (flatDims n m wf).window (ix1 e) 0
          ∧ (flatDims n m wf).start (ix1 e) idx 0 + (flatDims n m wf).window (ix1 e) 0 < (n : Int)
        rw [flat_start0, flat_window0]; omega
    rw [dif_pos hall, dif_pos hb]
    constructor
    · intro h
      have h0 := congrArg Fin.val (congrFun (Option.some.inj h) 0)
      change ((flatDims n m wf).start (ix1 e) idx 0 + (flatDims n m wf).window (ix1 e) 0).toNat = i.val at h0
      rw [flat_start0, flat_window0] at h0
      refine congrArg some (Fin.ext ?_)
      show (idx (ix2 e (0 : Fin 1))).toInt.toNat = i.val
      omega
    · intro h
      have h := congrArg Fin.val (Option.some.inj h)
      change (idx (ix2 e (0 : Fin 1))).toInt.toNat = i.val at h
      refine congrArg some ?_
      funext a
      refine Fin.ext ?_
      match a with
      | ⟨0, _⟩ =>
        show ((flatDims n m wf).start (ix1 e) idx 0 + (flatDims n m wf).window (ix1 e) 0).toNat = i.val
        rw [flat_start0, flat_window0]; omega
  · have hnall : ¬ ∀ a : Fin 1, 0 ≤ (flatDims n m wf).start (ix1 e) idx a + (flatDims n m wf).window (ix1 e) a
        ∧ (flatDims n m wf).start (ix1 e) idx a + (flatDims n m wf).window (ix1 e) a
            < ((⟨1, ![n]⟩ : Shape).size a : Int) := by
      intro hall
      have h0 := hall 0
      change 0 ≤ (flatDims n m wf).start (ix1 e) idx 0 + (flatDims n m wf).window (ix1 e) 0
          ∧ (flatDims n m wf).start (ix1 e) idx 0 + (flatDims n m wf).window (ix1 e) 0 < (n : Int) at h0
      rw [flat_start0, flat_window0] at h0
      exact hb (by omega)
    rw [dif_neg hnall, dif_neg hb]
    constructor
    · intro h; cases h
    · intro h; cases h

end flat

/-- THE FLAT SCATTER READ AT `i`: the operand there plus the updates that land on `i`. -/
theorem scatterAdd_flat_apply {n m w : Nat} {φ : FTy}
    (wf : ScatterDims.WF ⟨1, ![n]⟩ ⟨2, ![m, 1]⟩ ⟨1, ![m]⟩ [] [0] [0] 1)
    (x : FVec Ideal ⟨1, ![n]⟩ φ) (idx : IVec ⟨2, ![m, 1]⟩ w) (upd : FVec Ideal ⟨1, ![m]⟩ φ) (i : Fin n) :
    Host.scatterAdd (flatDims n m wf) x idx upd (ix1 i)
      = x (ix1 i) + ∑ e ∈ Finset.univ.filter (fun e : Fin m => landing n (idx (ix2 e (0 : Fin 1))) = some i), upd (ix1 e) := by
  show Ideal.hostScatterAdd (flatDims n m wf) x idx upd (ix1 i) = _
  unfold Ideal.hostScatterAdd
  congr 1
  rw [Finset.sum_filter, sum_idx1, Finset.sum_filter]
  refine Finset.sum_congr rfl fun e _ => ?_
  simp only [flat_resultIdx_iff]

end Cert.LibScatterRows

end
-- ==== Proof.Spec.lean ====
/-
  The mathematics of the two programs, index by index, over the extended reals.

  A graph with 50000 nodes and 800000 directed edges (src e → dst e, each endpoint a 32-bit word) carries two rounds
  of symmetric-normalised aggregation followed by an edge-wise two-layer perceptron:

    deg i   = 1 + #{e | dst e = i}                       (the self loop counts once)
    dinv i  = deg i ^ (-1/2)  when deg i > 0, else 0
    layer h b (i, c) = relu ( Σ_{messages j → i} h (source j, c) · dinv (source j) · dinv i  +  b c ),
                       the messages being the edges landing on i and the self loop i → i
    out (e, j) = relu ( Σ_q relu ( Σ_r p (src e, r) · Wl1 (r, q) + Σ_r p (dst e, r) · Wl1 (128 + r, q) + bl1 q ) · Wl2 (q, j) + bl2 j )

  An endpoint word is read in two ways, as the programs do: a GATHER wraps a negative word once by the node count and
  then clamps it into the table (`rowAt (wrapIdx w)`); a SCATTER reads the word signed and drops the message when it
  falls outside the table (`landing`). For a word in range the two agree.

  `layer` below is the arrangement with `dinv i` factored out of the sum (one multiplication per node);
  `layerJoined` is the arrangement that scales every message by `dinv (source) · dinv (target)` and sums over the
  850000 joined messages (800000 edges, then 50000 self loops). `Algebra.lean` proves them equal.
-/
import Idealize.ShloMosaic.PureOps.Ideal.Laws
import Idealize.ShloMosaic.Lib.ValueIdx
import proofs.«173198_j90718299226435_2_alg».proof.Proof.LibScatterRows

noncomputable section

namespace Cert.Gcn

open Idealize.ShloMosaic Idealize.ShloMosaic.ValueIdx Cert.LibScatterRows

/-- A rank-2 array of extended reals over literal extents. -/
abbrev A2 (a b : Nat) := (⟨2, ![a, b]⟩ : Shape).Idx → EReal

/-- The word of the float 1.0, kept as its pattern: both programs add the same word. -/
abbrev oneW : EReal := Ideal.ofBits .f32 0x3F800000#32

/-- A gather's index normalisation: a negative word is shifted once by the node count. -/
def wrapIdx (w : BitVec 32) : BitVec 32 := Scalar.select (IntOp.cmpi .slt w 0#32) (IntOp.addi w 50000#32) w

/-- The table row a gather's start word selects: read signed, clamped into `[0, 49999]`. -/
def rowAt (w : BitVec 32) : Fin 50000 := ⟨min w.toInt.toNat (50000 - 1), by omega⟩

/-- The inverse square root of a degree, guarded as the programs guard it. -/
def dinvOf (d : EReal) : EReal := Scalar.select (Ideal.cmp .ogt d 0) (Ideal.rsqrt d) 0

section edges
variable (srcW dstW : Fin 800000 → BitVec 32)

/-- The edges whose target word lands on node `i`. -/
def hit (i : Fin 50000) : Finset (Fin 800000) := Finset.univ.filter fun e => landing 50000 (dstW e) = some i

/-- The row an edge's source / target selects in a gather. -/
def srow (e : Fin 800000) : Fin 50000 := rowAt (wrapIdx (srcW e))
def drow (e : Fin 800000) : Fin 50000 := rowAt (wrapIdx (dstW e))

/-- The degree, the self loop added last. -/
def deg (i : Fin 50000) : EReal := (0 + ∑ _e ∈ hit dstW i, oneW) + oneW

def dinv (i : Fin 50000) : EReal := dinvOf (deg dstW i)

/-- One aggregation round, `dinv i` factored out of the sum. -/
def layer (h : Fin 50000 → Fin 128 → EReal) (b : Fin 128 → EReal) (i : Fin 50000) (c : Fin 128) : EReal :=
  max (dinv dstW i * ((0 + ∑ e ∈ hit dstW i, h (srow srcW e) c * dinv dstW (srow srcW e)) + h i c * dinv dstW i) + b c) 0

/-- The edge perceptron over node features `p`. -/
def mlp (p : Fin 50000 → Fin 128 → EReal) (Wl1 : A2 256 128) (bl1 : Fin 128 → EReal) (Wl2 : A2 128 2) (bl2 : Fin 2 → EReal)
    (e : Fin 800000) (j : Fin 2) : EReal :=
  max ((∑ q : Fin 128,
          max (((∑ r : Fin 128, p (srow srcW e) r * Wl1 (ix2 (⟨r.val, by omega⟩ : Fin 256) q))
                + (∑ r : Fin 128, p (drow dstW e) r * Wl1 (ix2 (⟨128 + r.val, by omega⟩ : Fin 256) q))) + bl1 q) 0
            * Wl2 (ix2 q j))
        + bl2 j) 0

/-- The whole computation at edge `e`, class `j`. -/
def out (x : A2 50000 8) (W1 : A2 8 128) (b1 : Fin 128 → EReal) (W2 : A2 128 128) (b2 : Fin 128 → EReal)
    (Wl1 : A2 256 128) (bl1 : Fin 128 → EReal) (Wl2 : A2 128 2) (bl2 : Fin 2 → EReal) (e : Fin 800000) (j : Fin 2) : EReal :=
  mlp srcW dstW
    (layer srcW dstW (fun i c => ∑ q : Fin 128,
        layer srcW dstW (fun i c => ∑ q : Fin 8, x (ix2 i q) * W1 (ix2 q c)) b1 i q * W2 (ix2 q c)) b2)
    Wl1 bl1 Wl2 bl2 e j

/-! ### The joined arrangement: 850000 messages, the last 50000 the self loops -/

/-- The source / target word of message `j`: an edge's word, or the self loop's node number. -/
def srcJ (j : Fin 850000) : BitVec 32 := if h : j.val < 800000 then srcW ⟨j.val, h⟩ else BitVec.ofNat 32 (j.val - 800000)
def dstJ (j : Fin 850000) : BitVec 32 := if h : j.val < 800000 then dstW ⟨j.val, h⟩ else BitVec.ofNat 32 (j.val - 800000)

/-- The messages whose target word lands on node `i`. -/
def hitJ (i : Fin 50000) : Finset (Fin 850000) := Finset.univ.filter fun j => landing 50000 (dstJ dstW j) = some i

def degJ (i : Fin 50000) : EReal := 0 + ∑ _j ∈ hitJ dstW i, oneW

def dinvJ (i : Fin 50000) : EReal := dinvOf (degJ dstW i)

/-- One aggregation round, every message scaled by both endpoints' factors. -/
def layerJoined (h : Fin 50000 → Fin 128 → EReal) (b : Fin 128 → EReal) (i : Fin 50000) (c : Fin 128) : EReal :=
  max ((0 + ∑ j ∈ hitJ dstW i, h (rowAt (wrapIdx (srcJ srcW j))) c
          * (dinvJ dstW (rowAt (wrapIdx (srcJ srcW j))) * dinvJ dstW (rowAt (wrapIdx (dstJ dstW j))))) + b c) 0

/-- The edge perceptron with the two endpoint rows joined into one row of 256 features. -/
def mlpJoined (p : Fin 50000 → Fin 128 → EReal) (Wl1 : A2 256 128) (bl1 : Fin 128 → EReal) (Wl2 : A2 128 2) (bl2 : Fin 2 → EReal)
    (e : Fin 800000) (j : Fin 2) : EReal :=
  max ((∑ q : Fin 128,
          max ((∑ r : Fin 256, (if h : r.val < 128 then p (srow srcW e) ⟨r.val, h⟩ else p (drow dstW e) ⟨r.val - 128, by omega⟩)
                  * Wl1 (ix2 r q)) + bl1 q) 0
            * Wl2 (ix2 q j))
        + bl2 j) 0

def outJoined (x : A2 50000 8) (W1 : A2 8 128) (b1 : Fin 128 → EReal) (W2 : A2 128 128) (b2 : Fin 128 → EReal)
    (Wl1 : A2 256 128) (bl1 : Fin 128 → EReal) (Wl2 : A2 128 2) (bl2 : Fin 2 → EReal) (e : Fin 800000) (j : Fin 2) : EReal :=
  mlpJoined srcW dstW
    (layerJoined srcW dstW (fun i c => ∑ q : Fin 128,
        layerJoined srcW dstW (fun i c => ∑ q : Fin 8, x (ix2 i q) * W1 (ix2 q c)) b1 i q * W2 (ix2 q c)) b2)
    Wl1 bl1 Wl2 bl2 e j

end edges

end Cert.Gcn

end
-- ==== Proof.LibRowGather.lean ====
/-
  A row gather read at an index: what `x[idx]` of a table `x : [N, D]` at a column of row numbers `idx : [E, 1]` is, and
  the same of a table with a unit middle axis `x : [N, 1, D]`. Result row `e` is the table's row at the start index
  `idx[e, 0]`, read as a signed integer and clamped into `[0, N − 1]` (every start index of a gather is clamped so that
  the slice fits); the other coordinates pass through. So the two tables, one the other with its unit axis dropped,
  gather the same numbers.
-/
import Idealize.ShloMosaic.Lib.ValueIdx
import Idealize.ShloMosaic.Lib.Pipeline.Value

noncomputable section

namespace Cert.LibRowGather

open Idealize.ShloMosaic Idealize.ShloMosaic.ValueIdx

variable {α : Type}

/-- The dimension numbers of a gather of whole rows of an `[N, D]` table at a column `[E, 1]` of row numbers. -/
abbrev rowsDims (N D E : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start index selects: read signed, clamped into the table. -/
abbrev rowOf {E w : Nat} (N : Nat) (hN : 0 < N) (idx : IVec ⟨2, ![E, 1]⟩ w) (e : Fin E) : Fin N :=
  ⟨min (idx (ix2 e (0 : Fin 1))).toInt.toNat (N - 1), by omega⟩

/-- THE ROW GATHER READ AT `(e, k)`: the table at the selected row, column `k`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowsDims N D E wf) x idx (ix2 e k) = x (ix2 (rowOf N hN idx e) k) := by
  unfold Host.gather
  refine congrArg x ?_
  funext a
  refine Fin.ext ?_
  match a with
  | ⟨0, _⟩ =>
    show (rowsDims N D E wf).start (ix2 e k) idx 0 + (rowsDims N D E wf).batchCoord (ix2 e k) 0
      + (rowsDims N D E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D E wf).startIndexMap from List.mem_singleton.mpr rfl)]
    have hsi : (rowsDims N D E wf).siIdx (ix2 e k) ⟨List.idxOf (0 : Fin 2) (rowsDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N D E wf).start (ix2 e k) idx 1 + (rowsDims N D E wf).batchCoord (ix2 e k) 1
      + (rowsDims N D E wf).offCoord (ix2 e k) 1 = k.val
    rw [GatherDims.batchCoord_eq_zero _ _ _ List.not_mem_nil]
    unfold GatherDims.start
    rw [dif_neg (show (1 : Fin 2) ∉ [(0 : Fin 2)] from by decide)]
    simp only [Nat.add_zero, Nat.zero_add]
    unfold GatherDims.offCoord
    rw [dif_pos ((GatherDims.mem_sKept _ _).mpr ⟨(show (1 : Fin 2) ∉ [(0 : Fin 2)] from by decide), List.not_mem_nil⟩)]
    rfl

/-- The dimension numbers of a gather of whole rows of an `[N, 1, D]` table at a column `[E, 1]` of row numbers. -/
abbrev rowsDims3 (N D E : Nat) (wf : GatherDims.WF ⟨3, ![N, 1, D]⟩ ⟨2, ![E, 1]⟩ ⟨3, ![E, 1, D]⟩ [1, 2] [0] [] [0] [] 1 ![1, 1, D]) :
    GatherDims ⟨3, ![N, 1, D]⟩ ⟨2, ![E, 1]⟩ ⟨3, ![E, 1, D]⟩ where
  offsetDims := [1, 2]
  collapsedSliceDims := [0]
  operandBatchingDims := []
  startIndicesBatchingDims := []
  startIndexMap := [0]
  indexVectorDim := 1
  sliceSizes := ![1, 1, D]
  wf := wf

/-- THE ROW GATHER OF A TABLE WITH A UNIT MIDDLE AXIS READ AT `(e, u, k)`: the table at the selected row, `(0, k)`. -/
theorem gather_rows3_apply {N D E w : Nat} (hN : 0 < N)
    (wf : GatherDims.WF ⟨3, ![N, 1, D]⟩ ⟨2, ![E, 1]⟩ ⟨3, ![E, 1, D]⟩ [1, 2] [0] [] [0] [] 1 ![1, 1, D])
    (x : (⟨3, ![N, 1, D]⟩ : Shape).Idx → α) (idx : IVec ⟨2, ![E, 1]⟩ w) (e : Fin E) (u : Fin 1) (k : Fin D) :
    Host.gather (rowsDims3 N D E wf) x idx (ix3 e u k) = x (ix3 (rowOf N hN idx e) (0 : Fin 1) k) := by
  unfold Host.gather
  refine congrArg x ?_
  funext a
  refine Fin.ext ?_
  match a with
  | ⟨0, _⟩ =>
    show (rowsDims3 N D E wf).start (ix3 e u k) idx 0 + (rowsDims3 N D E wf).batchCoord (ix3 e u k) 0
      + (rowsDims3 N D E wf).offCoord (ix3 e u k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowsDims3 N D E wf).startIndexMap from List.mem_singleton.mpr rfl)]
    have hsi : (rowsDims3 N D E wf).siIdx (ix3 e u k) ⟨List.idxOf (0 : Fin 3) (rowsDims3 N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims3 N D E wf).start (ix3 e u k) idx 1 + (rowsDims3 N D E wf).batchCoord (ix3 e u k) 1
      + (rowsDims3 N D E wf).offCoord (ix3 e u k) 1 = 0
    rw [GatherDims.batchCoord_eq_zero _ _ _ List.not_mem_nil]
    unfold GatherDims.start
    rw [dif_neg (show (1 : Fin 3) ∉ [(0 : Fin 3)] from by decide)]
    simp only [Nat.add_zero, Nat.zero_add]
    unfold GatherDims.offCoord
    rw [dif_pos ((GatherDims.mem_sKept _ _).mpr ⟨(show (1 : Fin 3) ∉ [(0 : Fin 3)] from by decide), List.not_mem_nil⟩)]
    show u.val = 0
    omega
  | ⟨2, _⟩ =>
    show (rowsDims3 N D E wf).start (ix3 e u k) idx 2 + (rowsDims3 N D E wf).batchCoord (ix3 e u k) 2
      + (rowsDims3 N D E wf).offCoord (ix3 e u k) 2 = k.val
    rw [GatherDims.batchCoord_eq_zero _ _ _ List.not_mem_nil]
    unfold GatherDims.start
    rw [dif_neg (show (2 : Fin 3) ∉ [(0 : Fin 3)] from by decide)]
    simp only [Nat.add_zero, Nat.zero_add]
    unfold GatherDims.offCoord
    rw [dif_pos ((GatherDims.mem_sKept _ _).mpr ⟨(show (2 : Fin 3) ∉ [(0 : Fin 3)] from by decide), List.not_mem_nil⟩)]
    rfl

/-- An `[a, 1, c]` array with its unit middle axis dropped reads, at `(r, d)`, the operand at `(r, 0, d)`: row-major, both
    sit at `r · c + d`. -/
theorem shapeCast_a1c_ac_apply {a c : ℕ} (x : (⟨3, ![a, 1, c]⟩ : Shape).Idx → α)
    (h : (⟨3, ![a, 1, c]⟩ : Shape).ShapeCasts ⟨2, ![a, c]⟩) (r : Fin a) (d : Fin c) :
    shapeCast ⟨2, ![a, c]⟩ x h (ix2 r d) = x (ix3 r (0 : Fin 1) d) :=
  shapeCast_apply x h _ _ (by
    rw [Shape.rowMajor_val_two, Shape.rowMajor_val_three]
    show (r.val * 1 + 0) * c + d.val = r.val * c + d.val
    rw [Nat.mul_one, Nat.add_zero])

/-- SO THE TWO GATHERS AGREE: rows gathered from the `[N, 1, D]` table, read at `(e, u, k)`, are the rows gathered from the
    table with its unit axis dropped, read at `(e, k)`. -/
theorem gather_rows3_eq_rows {N D E w : Nat} (hN : 0 < N)
    (wf : GatherDims.WF ⟨2, ![N, D]⟩ ⟨2, ![E, 1]⟩ ⟨2, ![E, D]⟩ [1] [0] [] [0] [] 1 ![1, D])
    (wf3 : GatherDims.WF ⟨3, ![N, 1, D]⟩ ⟨2, ![E, 1]⟩ ⟨3, ![E, 1, D]⟩ [1, 2] [0] [] [0] [] 1 ![1, 1, D])
    (x : (⟨3, ![N, 1, D]⟩ : Shape).Idx → α) (hc : (⟨3, ![N, 1, D]⟩ : Shape).ShapeCasts ⟨2, ![N, D]⟩)
    (idx : IVec ⟨2, ![E, 1]⟩ w) (e : Fin E) (u : Fin 1) (k : Fin D) :
    Host.gather (rowsDims3 N D E wf3) x idx (ix3 e u k)
      = Host.gather (rowsDims N D E wf) (shapeCast ⟨2, ![N, D]⟩ x hc) idx (ix2 e k) := by
  rw [gather_rows3_apply hN, gather_rows_apply hN, shapeCast_a1c_ac_apply]

end Cert.LibRowGather

end
-- ==== Proof.LibKeepdimsColumn.lean ====
/-
  A vector of extent `a` seen as a column `[a, 1]`: what `keepdims=True` leaves of a sum over the last axis, and what a
  reshape of a flat array to a column is. Row-major, the element at `(i, u)` of the column is the element at `i` of the
  vector, since `i · 1 + u = i` for the one value `u = 0`. And the sums over the index sets of a flat array and of a
  column, each as the sum over the one coordinate that varies.
-/
import Idealize.ShloMosaic.Lib.ValueLayout

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows, each read at the one column `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibKeepdims

end
-- ==== Proof.ChainStages.lean ====
/-
  The kernel program's host stages between the regions, each read at an index.

  Between two regions the host gathers rows of a node table at the edges' source (or target) words and, for an
  aggregation round, adds the gathered rows into the rows their target words land on. Read at an index:

    the aggregate at (i, c)  = 0 + Σ_{e : target word of e lands on i} table (row selected by source word of e, c)
    a row gather at (e, r)   = table (row selected by the word of e, r)

  where a gather's word is first wrapped (a negative word shifted once by the node count) and then clamped into the
  table, and a scatter's word is read signed and dropped when outside. The remaining stages are layouts: a vector
  reshaped to a column or to a row, a slice of rows of a weight matrix.
-/
import proofs.«173198_j90718299226435_2_alg».proof.Proof.Gen.KernelIdeal
import proofs.«173198_j90718299226435_2_alg».proof.Proof.Spec
import proofs.«173198_j90718299226435_2_alg».proof.Proof.LibScatterRows
import proofs.«173198_j90718299226435_2_alg».proof.Proof.LibRowGather
import proofs.«173198_j90718299226435_2_alg».proof.Proof.LibKeepdimsColumn
import Idealize.ShloMosaic.Lib.Pipeline.Value
import Idealize.ShloMosaic.Lib.ValueLayout

noncomputable section

namespace Cert.KernelIdeal.Chain

open Idealize.ShloMosaic Idealize.ShloMosaic.ValueIdx Cert.KernelIdeal Cert.KernelIdeal.Gen

/-! ### Words -/

/-- A vector of edge words laid out as a column reads, at row `e`, the word of `e`. -/
theorem col_at (w : S800000.Idx → BitVec 32) (e : Fin 800000) (u : Fin 1) :
    broadcastInDim S800000x1 ![0] bcast_S800000_S800000x1_0 w (ix2 e u) = w (ix1 e) :=
  broadcastInDim_apply _ bcast_S800000_S800000x1_0 w _ (ix1 e) (fun a => by
    match a with
    | ⟨0, _⟩ => show e.val = if (800000 : Nat) = 1 then 0 else e.val; rw [if_neg (by decide)])

/-- A scalar broadcast over the edges reads the scalar everywhere. -/
theorem scalarI_at (b : BitVec 32) (j : S800000.Idx) :
    broadcastInDim S800000 ![] bcast_S_S800000 (constantI S_ 32 b) j = b :=
  (broadcastInDim_apply _ bcast_S_S800000 (constantI S_ 32 b) j (fun a => a.elim0) (fun a => a.elim0)).trans rfl

/-- A gather's index normalisation of a vector of words. -/
def normWords (w : S800000.Idx → BitVec 32) : S800000.Idx → BitVec 32 :=
  select (cmpi .slt w (broadcastInDim S800000 ![] bcast_S_S800000 (constantI S_ 32 0#32)))
    (addi w (broadcastInDim S800000 ![] bcast_S_S800000 (constantI S_ 32 50000#32))) w

theorem normWords_at (w : S800000.Idx → BitVec 32) (e : Fin 800000) :
    normWords w (ix1 e) = Cert.Gcn.wrapIdx (w (ix1 e)) := by
  unfold normWords Cert.Gcn.wrapIdx
  show Scalar.select (IntOp.cmpi .slt (w (ix1 e)) (broadcastInDim S800000 ![] bcast_S_S800000 (constantI S_ 32 0#32) (ix1 e)))
      (IntOp.addi (w (ix1 e)) (broadcastInDim S800000 ![] bcast_S_S800000 (constantI S_ 32 50000#32) (ix1 e))) (w (ix1 e)) = _
  rw [scalarI_at, scalarI_at]

/-- The table row a gather selects at edge `e` from the normalised column of a vector of words. -/
theorem rowOf_norm (w : S800000.Idx → BitVec 32) (e : Fin 800000) :
    Cert.LibRowGather.rowOf 50000 (by decide) (broadcastInDim S800000x1 ![0] bcast_S800000_S800000x1_0 (normWords w)) e
      = Cert.Gcn.rowAt (Cert.Gcn.wrapIdx (w (ix1 e))) := by
  unfold Cert.LibRowGather.rowOf Cert.Gcn.rowAt
  refine Fin.ext ?_
  show min (broadcastInDim S800000x1 ![0] bcast_S800000_S800000x1_0 (normWords w) (ix2 e (0 : Fin 1))).toInt.toNat (50000 - 1) = _
  rw [col_at, normWords_at]

/-! ### Row gathers and the aggregate -/

/-- Rows of a node table gathered at the edges' (normalised) words. -/
def gatherRows (w : S800000.Idx → BitVec 32) (p : S50000x128.Idx → EReal) : S800000x128.Idx → EReal :=
  Host.gather gather_S50000x128_S800000x1_S800000x128_1_0_n_n_0_1_1128 p
    (broadcastInDim S800000x1 ![0] bcast_S800000_S800000x1_0 (normWords w))

theorem gatherRows_at (w : S800000.Idx → BitVec 32) (p : S50000x128.Idx → EReal) (e : Fin 800000) (r : Fin 128) :
    gatherRows w p (ix2 e r) = p (ix2 (Cert.Gcn.rowAt (Cert.Gcn.wrapIdx (w (ix1 e)))) r) := by
  unfold gatherRows
  refine (Cert.LibRowGather.gather_rows_apply (N := 50000) (D := 128) (E := 800000) (by decide)
    gather_S50000x128_S800000x1_S800000x128_1_0_n_n_0_1_1128.wf p _ e r).trans ?_
  rw [rowOf_norm]

/-- The aggregate: gathered rows of `g` at the source words, added into the rows the target words land on. -/
def aggOf (dst src : S800000.Idx → BitVec 32) (g : S50000x128.Idx → EReal) : S50000x128.Idx → EReal :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (extf (F := Ideal) .f32 (φ := .bf16) (gatherRows src g) bitsLt_bf16_f32)

theorem aggOf_at (dst src : S800000.Idx → BitVec 32) (g : S50000x128.Idx → EReal) (i : Fin 50000) (k : Fin 128) :
    aggOf dst src g (ix2 i k)
      = 0 + ∑ e ∈ Cert.Gcn.hit (fun e => dst (ix1 e)) i, g (ix2 (Cert.Gcn.srow (fun e => src (ix1 e)) e) k) := by
  unfold aggOf
  refine (Cert.LibScatterRows.scatterAdd_rows_apply (n := 50000) (k := 128) (m := 800000) (φ := .f32)
    scatter_S50000x128_S800000x1_S800000x128_1_0_0_1.wf _ _ _ i k).trans ?_
  refine congrArg₂ (· + ·) ?_ ?_
  · refine (broadcastInDim_apply _ bcast_S_S50000x128 _ _ (fun a => a.elim0) (fun a => a.elim0)).trans ?_
    exact Ideal.ofBits_zero_f32
  · unfold Cert.Gcn.hit
    refine Finset.sum_congr (Finset.filter_congr fun e _ => by rw [col_at]) fun e _ => ?_
    rw [extf_apply, gatherRows_at]
    rfl

/-! ### Layouts -/

/-- The degree factor reshaped to a column reads, at row `i`, the factor of node `i`. -/
theorem dcol_at (d : S50000.Idx → EReal) (i : Fin 50000) (u : Fin 1) :
    shapeCast S50000x1 d shapeCasts_S50000_S50000x1 (ix2 i u) = d (ix1 i) :=
  Cert.LibKeepdims.shapeCast_a_a1_apply d shapeCasts_S50000_S50000x1 i u

/-- A bias vector reshaped to a row reads, at column `k`, the bias of `k`. -/
theorem brow_at (b : S128.Idx → EReal) (u : Fin 1) (k : Fin 128) :
    shapeCast S1x128 b shapeCasts_S128_S1x128 (ix2 u k) = b (ix1 k) :=
  shapeCast_a_1a_apply b shapeCasts_S128_S1x128 u k

theorem brow2_at (b : S2.Idx → EReal) (u : Fin 1) (j : Fin 2) :
    shapeCast S1x2 b shapeCasts_S2_S1x2 (ix2 u j) = b (ix1 j) :=
  shapeCast_a_1a_apply b shapeCasts_S2_S1x2 u j

/-- The first / last 128 rows of the 256-row weight matrix. -/
theorem wtop_at (W : S256x128.Idx → EReal) (r q : Fin 128) :
    extractStridedSlice S128x128 ![0, 0] W slices_S256x128_S128x128_0_0 (ix2 r q) = W (ix2 (⟨r.val, by omega⟩ : Fin 256) q) :=
  extractStridedSlice_apply ![0, 0] W slices_S256x128_S128x128_0_0 (ix2 r q) (ix2 (⟨r.val, by omega⟩ : Fin 256) q) (fun a => by
    match a with
    | ⟨0, _⟩ => show r.val = 0 + r.val; omega
    | ⟨1, _⟩ => show q.val = 0 + q.val; omega)

theorem wbot_at (W : S256x128.Idx → EReal) (r q : Fin 128) :
    extractStridedSlice S128x128 ![128, 0] W slices_S256x128_S128x128_128_0 (ix2 r q) = W (ix2 (⟨128 + r.val, by omega⟩ : Fin 256) q) :=
  extractStridedSlice_apply ![128, 0] W slices_S256x128_S128x128_128_0 (ix2 r q) (ix2 (⟨128 + r.val, by omega⟩ : Fin 256) q) (fun a => by
    match a with
    | ⟨0, _⟩ => show 128 + r.val = 128 + r.val; rfl
    | ⟨1, _⟩ => show q.val = 0 + q.val; omega)

end Cert.KernelIdeal.Chain

end
-- ==== Proof.ChainWords.lean ====
/-
  The endpoint words and the degree factor of the kernel program, read at an index.

  The first host stretch cuts the two rows of the edge-index argument into the source-word and target-word vectors and
  counts, for every node, the edges whose target word lands on it, plus one for the self loop; the second stretch
  takes the guarded inverse square root. Read at an index:

    source word of e = edge_index (0, e)         target word of e = edge_index (1, e)
    factor of node i = dinvOf ((0 + Σ_{e lands on i} 1) + 1)
-/
import proofs.«173198_j90718299226435_2_alg».proof.Proof.ChainKeep
import proofs.«173198_j90718299226435_2_alg».proof.Proof.ChainStages
import Idealize.ShloMosaic.Lib.StableHlo.Run

noncomputable section

namespace Cert.KernelIdeal.Chain

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (ρ : Dev nD → PrngReg) (c : Dev nD)

/-- The edge-index argument as launched, typed as the array of words it is. -/
abbrev edgeIndex : S2x800000.Idx → BitVec 32 := m ((c : Thread nD τ).loc main_arg9)

/-- Row 0 / row 1 of an edge index, as vectors. -/
def srcOf (x9 : S2x800000.Idx → BitVec 32) : S800000.Idx → BitVec 32 :=
  shapeCast S800000 (extractStridedSlice S1x800000 ![0, 0] x9 slices_S2x800000_S1x800000_0_0) shapeCasts_S1x800000_S800000
def dstOf (x9 : S2x800000.Idx → BitVec 32) : S800000.Idx → BitVec 32 :=
  shapeCast S800000 (extractStridedSlice S1x800000 ![1, 0] x9 slices_S2x800000_S1x800000_1_0) shapeCasts_S1x800000_S800000
abbrev srcWords : S800000.Idx → BitVec 32 := srcOf (edgeIndex m c)
abbrev dstWords : S800000.Idx → BitVec 32 := dstOf (edgeIndex m c)

theorem srcWords_at (e : Fin 800000) : srcWords m c (ix1 e) = edgeIndex m c (ix2 (0 : Fin 2) e) := by
  show srcOf (edgeIndex m c) (ix1 e) = _
  unfold srcOf
  rw [shapeCast_1a_a_apply]
  exact extractStridedSlice_apply ![0, 0] (edgeIndex m c) slices_S2x800000_S1x800000_0_0 (ix2 (0 : Fin 1) e) (ix2 (0 : Fin 2) e) (fun a => by
    match a with
    | ⟨0, _⟩ => rfl
    | ⟨1, _⟩ => show e.val = 0 + e.val; omega)

theorem dstWords_at (e : Fin 800000) : dstWords m c (ix1 e) = edgeIndex m c (ix2 (1 : Fin 2) e) := by
  show dstOf (edgeIndex m c) (ix1 e) = _
  unfold dstOf
  rw [shapeCast_1a_a_apply]
  exact extractStridedSlice_apply ![1, 0] (edgeIndex m c) slices_S2x800000_S1x800000_1_0 (ix2 (0 : Fin 1) e) (ix2 (1 : Fin 2) e) (fun a => by
    match a with
    | ⟨0, _⟩ => rfl
    | ⟨1, _⟩ => show e.val = 0 + e.val; omega)

/-- The first stretch's word vectors, for any contents at its entry. -/
theorem read_src1 (Wv : Valuation τ sig (Elt Ideal)) (x9 : S2x800000.Idx → BitVec 32) (h9 : Wv (Proc.devRef .tc main_arg9) = x9) :
    StableHlo.after hostOps0 Wv (Proc.devRef .tc main_v1) = srcOf x9 := by
  subst h9; after_results_simp; rfl

theorem read_dst3 (Wv : Valuation τ sig (Elt Ideal)) (x9 : S2x800000.Idx → BitVec 32) (h9 : Wv (Proc.devRef .tc main_arg9) = x9) :
    StableHlo.after hostOps0 Wv (Proc.devRef .tc main_v3) = dstOf x9 := by
  subst h9; after_results_simp; rfl

theorem srcA_eq : srcA m ρ c = srcWords m c := read_src1 (W0 m ρ c) _ rfl
theorem dstA_eq : dstA m ρ c = dstWords m c := read_dst3 (W0 m ρ c) _ rfl

/-! ### The degree and its factor -/

/-- The degree vector: ones scattered to the target words, plus one. -/
def degArr (dst : S800000.Idx → BitVec 32) : S50000.Idx → EReal :=
  addf (F := Ideal) (φ := .f32)
    (Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 dst)
      (broadcastInDim S800000 ![] bcast_S_S800000 (constant (F := Ideal) S_ .f32 0x3F800000#32)))
    (broadcastInDim S50000 ![] bcast_S_S50000 (constant (F := Ideal) S_ .f32 0x3F800000#32))

/-- The guarded inverse square root of the degree. -/
def dinvArr (dst : S800000.Idx → BitVec 32) : S50000.Idx → EReal :=
  select (cmpf (F := Ideal) (φ := .f32) .ogt (degArr dst) (broadcastInDim S50000 ![] bcast_S_S50000 (constant (F := Ideal) S_ .f32 0x00000000#32)))
    (Host.rsqrt (F := Ideal) (φ := .f32) (degArr dst))
    (broadcastInDim S50000 ![] bcast_S_S50000 (constant (F := Ideal) S_ .f32 0x00000000#32))

theorem scalarN_at (b : BitVec 32) (j : S50000.Idx) :
    broadcastInDim S50000 ![] bcast_S_S50000 (constant (F := Ideal) S_ .f32 b) j = Ideal.ofBits .f32 b :=
  (broadcastInDim_apply _ bcast_S_S50000 (constant (F := Ideal) S_ .f32 b) j (fun a => a.elim0) (fun a => a.elim0)).trans rfl

theorem scalarE_at (b : BitVec 32) (j : S800000.Idx) :
    broadcastInDim S800000 ![] bcast_S_S800000 (constant (F := Ideal) S_ .f32 b) j = Ideal.ofBits .f32 b :=
  (broadcastInDim_apply _ bcast_S_S800000 (constant (F := Ideal) S_ .f32 b) j (fun a => a.elim0) (fun a => a.elim0)).trans rfl

theorem degArr_at (dst : S800000.Idx → BitVec 32) (i : Fin 50000) :
    degArr dst (ix1 i) = Cert.Gcn.deg (fun e => dst (ix1 e)) i := by
  unfold degArr Cert.Gcn.deg
  rw [addf_apply, scalarN_at]
  refine congrArg (· + Cert.Gcn.oneW) ?_
  refine (Cert.LibScatterRows.scatterAdd_flat_apply (n := 50000) (m := 800000) (φ := .f32)
    scatter_S50000_S800000x1_S800000_n_0_0_1.wf _ _ _ i).trans ?_
  refine congrArg₂ (· + ·) ?_ ?_
  · rw [scalarN_at]; exact Ideal.ofBits_zero_f32
  · unfold Cert.Gcn.hit
    exact Finset.sum_congr (Finset.filter_congr fun e _ => by rw [col_at]) fun e _ => scalarE_at _ _

/-- The host's inverse square root acts entry by entry. -/
theorem hostRsqrt_at (v : S50000.Idx → EReal) (j : S50000.Idx) :
    Host.rsqrt (F := Ideal) (φ := .f32) v j = Ideal.rsqrt (v j) := rfl

theorem dinvArr_at (dst : S800000.Idx → BitVec 32) (i : Fin 50000) :
    dinvArr dst (ix1 i) = Cert.Gcn.dinv (fun e => dst (ix1 e)) i := by
  unfold dinvArr Cert.Gcn.dinv Cert.Gcn.dinvOf
  rw [select_apply, cmpf_apply, hostRsqrt_at, scalarN_at, degArr_at, Ideal.ofBits_zero_f32, Ideal.cmpf_def]

set_option maxHeartbeats 4000000 in
/-- The first stretch's degree test, inverse square root and zero scalar, for any contents at its entry. -/
theorem read_cmp11 (Wv : Valuation τ sig (Elt Ideal)) (x9 : S2x800000.Idx → BitVec 32) (h9 : Wv (Proc.devRef .tc main_arg9) = x9) :
    StableHlo.after hostOps0 Wv (Proc.devRef .tc main_v11)
      = cmpf (F := Ideal) (φ := .f32) .ogt (degArr (dstOf x9)) (broadcastInDim S50000 ![] bcast_S_S50000 (constant (F := Ideal) S_ .f32 0x00000000#32)) := by
  subst h9; after_results_simp; rfl

set_option maxHeartbeats 4000000 in
theorem read_rsq12 (Wv : Valuation τ sig (Elt Ideal)) (x9 : S2x800000.Idx → BitVec 32) (h9 : Wv (Proc.devRef .tc main_arg9) = x9) :
    StableHlo.after hostOps0 Wv (Proc.devRef .tc main_v12) = Host.rsqrt (F := Ideal) (φ := .f32) (degArr (dstOf x9)) := by
  subst h9; after_results_simp; rfl

set_option maxHeartbeats 4000000 in
theorem read_zero3 (Wv : Valuation τ sig (Elt Ideal)) :
    StableHlo.after hostOps0 Wv (Proc.devRef .tc main_cst_3) = constant (F := Ideal) S_ .f32 0x00000000#32 := by
  after_results_simp

/-- The second stretch's guarded choice, for any contents at its entry. -/
theorem read_where13 (Wv : Valuation τ sig (Elt Ideal)) (cm : S50000.Idx → BitVec 1) (r : S50000.Idx → EReal) (z : S_.Idx → EReal)
    (hc : Wv (Proc.devRef .tc main_v11) = cm) (hr : Wv (Proc.devRef .tc main_v12) = r) (hz : Wv (Proc.devRef .tc main_cst_3) = z) :
    StableHlo.after hostOps0_1 Wv (Proc.devRef .tc main_v13) = select cm r (broadcastInDim S50000 ![] bcast_S_S50000 z) := by
  subst hc; subst hr; subst hz; after_results_simp; rfl

theorem dinvA_eq : dinvA m ρ c = dinvArr (dstWords m c) :=
  read_where13 (W1 m ρ c) _ _ _ (read_cmp11 (W0 m ρ c) _ rfl) (read_rsq12 (W0 m ρ c) _ rfl) (read_zero3 (W0 m ρ c))

end Cert.KernelIdeal.Chain

end
-- ==== Proof.ChainRound.lean ====
/-
  One aggregation round of the kernel program, read at an index.

  A round takes a node table `hpre` and its row-scaled copy `g = hpre · dinv` (both written by the projection region),
  aggregates `g` over the edges on the host, and combines in the second region:

    relu ( dinv i · ( aggregate (i, c) + hpre (i, c) · dinv i ) + b c ).

  With the stages read at an index this is the specification's `layer` of the table `hpre`.
-/
import proofs.«173198_j90718299226435_2_alg».proof.Proof.ChainWords

noncomputable section

namespace Cert.KernelIdeal.Chain

open Idealize.ShloMosaic Idealize.ShloMosaic.ValueIdx Cert.KernelIdeal Cert.KernelIdeal.Gen

/-- The combine step over the stages' arrays is the specification's round. -/
theorem round_at (dst src : S800000.Idx → BitVec 32) (hpre g : S50000x128.Idx → EReal) (b : S128.Idx → EReal)
    (hg : ∀ (i : Fin 50000) (k : Fin 128), g (ix2 i k) = hpre (ix2 i k) * dinvArr dst (ix1 i))
    (i : Fin 50000) (k : Fin 128) :
    max (shapeCast S50000x1 (dinvArr dst) shapeCasts_S50000_S50000x1 (ix2 i (0 : Fin 1))
          * (aggOf dst src g (ix2 i k)
              + hpre (ix2 i k) * shapeCast S50000x1 (dinvArr dst) shapeCasts_S50000_S50000x1 (ix2 i (0 : Fin 1)))
        + shapeCast S1x128 b shapeCasts_S128_S1x128 (ix2 (0 : Fin 1) k)) 0
      = Cert.Gcn.layer (fun e => src (ix1 e)) (fun e => dst (ix1 e)) (fun i c => hpre (ix2 i c)) (fun c => b (ix1 c)) i k := by
  unfold Cert.Gcn.layer
  rw [dcol_at, dinvArr_at, aggOf_at, brow_at]
  refine congrArg (fun z => max (Cert.Gcn.dinv (fun e => dst (ix1 e)) i * ((0 + z) + hpre (ix2 i k) * Cert.Gcn.dinv (fun e => dst (ix1 e)) i) + b (ix1 k)) 0) ?_
  refine Finset.sum_congr rfl fun e _ => ?_
  rw [hg, dinvArr_at]

end Cert.KernelIdeal.Chain

end
-- ==== Proof.ChainReads.lean ====
/-
  What each host stretch of the kernel program leaves in the buffers the next region reads, as a function of the
  buffers it reads itself — for ANY contents `Wv` at the stretch's entry.

  The stretches only re-lay vectors (a vector as a column or a row, a slice of rows, a change of float format, which at
  the ideal instance is the identity) and, twice, aggregate a gathered table (`aggOf`) or gather rows (`gatherRows`).
  Operands enter as arrays of their literal types, each with the equation that names the buffer it is read from.
-/
import proofs.«173198_j90718299226435_2_alg».proof.Proof.Gen.KernelIdeal.Launch
import proofs.«173198_j90718299226435_2_alg».proof.Proof.ChainStages
import Idealize.ShloMosaic.Lib.StableHlo.Run

noncomputable section

namespace Cert.KernelIdeal.Chain

open Idealize.ShloMosaic Idealize.ShloMosaic.TcCoe Idealize.SL.Sem Idealize.ShloMosaic.StableHlo Idealize.ShloMosaic.ValueIdx
open Cert.KernelIdeal Cert.KernelIdeal.Gen

variable (Wv : Valuation τ sig (Elt Ideal))

/-! ### The degree factor as a column (before regions 0, 1, 2, 3) -/

theorem read_col14 (d : S50000.Idx → EReal) (hd : Wv (Proc.devRef .tc main_v13) = d) :
    StableHlo.after hostOps0_2 Wv (Proc.devRef .tc main_v14) = shapeCast S50000x1 d shapeCasts_S50000_S50000x1 := by
  subst hd; after_results_simp; rfl

set_option maxHeartbeats 4000000 in
theorem read_col27 (d : S50000.Idx → EReal) (hd : Wv (Proc.devRef .tc main_v13) = d) :
    StableHlo.after hostOps1 Wv (Proc.devRef .tc main_v27) = shapeCast S50000x1 d shapeCasts_S50000_S50000x1 := by
  subst hd; after_results_simp; rfl

theorem read_col30 (d : S50000.Idx → EReal) (hd : Wv (Proc.devRef .tc main_v13) = d) :
    StableHlo.after hostOps2 Wv (Proc.devRef .tc main_v30) = shapeCast S50000x1 d shapeCasts_S50000_S50000x1 := by
  subst hd; after_results_simp; rfl

set_option maxHeartbeats 4000000 in
theorem read_col43 (d : S50000.Idx → EReal) (hd : Wv (Proc.devRef .tc main_v13) = d) :
    StableHlo.after hostOps3 Wv (Proc.devRef .tc main_v43) = shapeCast S50000x1 d shapeCasts_S50000_S50000x1 := by
  subst hd; after_results_simp; rfl

/-! ### The bias rows -/

set_option maxHeartbeats 4000000 in
theorem read_bias28 (b : S128.Idx → EReal) (hb : Wv (Proc.devRef .tc main_arg2) = b) :
    StableHlo.after hostOps1 Wv (Proc.devRef .tc main_v28) = shapeCast S1x128 b shapeCasts_S128_S1x128 := by
  subst hb; after_results_simp; rfl

set_option maxHeartbeats 4000000 in
theorem read_bias44 (b : S128.Idx → EReal) (hb : Wv (Proc.devRef .tc main_arg4) = b) :
    StableHlo.after hostOps3 Wv (Proc.devRef .tc main_v44) = shapeCast S1x128 b shapeCasts_S128_S1x128 := by
  subst hb; after_results_simp; rfl

/-! ### The two aggregates -/

set_option maxHeartbeats 4000000 in
theorem read_agg26 (dst src : S800000.Idx → BitVec 32) (g : S50000x128.Idx → EReal)
    (hd : Wv (Proc.devRef .tc main_v3) = dst) (hs : Wv (Proc.devRef .tc main_v1) = src) (hg : Wv (Proc.devRef .tc main_v15_1) = g) :
    StableHlo.after hostOps1 Wv (Proc.devRef .tc main_v26) = aggOf dst src g := by
  subst hd; subst hs; subst hg; after_results_simp; rfl

set_option maxHeartbeats 4000000 in
theorem read_agg42 (dst src : S800000.Idx → BitVec 32) (g : S50000x128.Idx → EReal)
    (hd : Wv (Proc.devRef .tc main_v3) = dst) (hs : Wv (Proc.devRef .tc main_v1) = src) (hg : Wv (Proc.devRef .tc main_v31_1) = g) :
    StableHlo.after hostOps3 Wv (Proc.devRef .tc main_v42) = aggOf dst src g := by
  subst hd; subst hs; subst hg; after_results_simp; rfl

/-! ### The perceptron's operands -/

set_option maxHeartbeats 4000000 in
theorem read_es53 (src : S800000.Idx → BitVec 32) (p : S50000x128.Idx → EReal)
    (hs : Wv (Proc.devRef .tc main_v1) = src) (hp : Wv (Proc.devRef .tc main_v45) = p) :
    StableHlo.after hostOps4 Wv (Proc.devRef .tc main_v53) = gatherRows src p := by
  subst hs; subst hp; after_results_simp; rfl

set_option maxHeartbeats 4000000 in
theorem read_ed60 (dst : S800000.Idx → BitVec 32) (p : S50000x128.Idx → EReal)
    (hd : Wv (Proc.devRef .tc main_v3) = dst) (hp : Wv (Proc.devRef .tc main_v45) = p) :
    StableHlo.after hostOps4 Wv (Proc.devRef .tc main_v60) = gatherRows dst p := by
  subst hd; subst hp; after_results_simp; rfl

set_option maxHeartbeats 4000000 in
theorem read_w1a62 (W : S256x128.Idx → EReal) (hW : Wv (Proc.devRef .tc main_arg5) = W) :
    StableHlo.after hostOps4 Wv (Proc.devRef .tc main_v62) = extractStridedSlice S128x128 ![0, 0] W slices_S256x128_S128x128_0_0 := by
  subst hW; after_results_simp; rfl

set_option maxHeartbeats 4000000 in
theorem read_w1b64 (W : S256x128.Idx → EReal) (hW : Wv (Proc.devRef .tc main_arg5) = W) :
    StableHlo.after hostOps4 Wv (Proc.devRef .tc main_v64) = extractStridedSlice S128x128 ![128, 0] W slices_S256x128_S128x128_128_0 := by
  subst hW; after_results_simp; rfl

set_option maxHeartbeats 4000000 in
theorem read_bl1_66 (b : S128.Idx → EReal) (hb : Wv (Proc.devRef .tc main_arg6) = b) :
    StableHlo.after hostOps4 Wv (Proc.devRef .tc main_v66) = shapeCast S1x128 b shapeCasts_S128_S1x128 := by
  subst hb; after_results_simp; rfl

set_option maxHeartbeats 4000000 in
theorem read_w2_65 (W : S128x2.Idx → EReal) (hW : Wv (Proc.devRef .tc main_arg7) = W) :
    StableHlo.after hostOps4 Wv (Proc.devRef .tc main_v65) = W := by
  subst hW; after_results_simp; rfl

set_option maxHeartbeats 4000000 in
theorem read_bl2_67 (b : S2.Idx → EReal) (hb : Wv (Proc.devRef .tc main_arg8) = b) :
    StableHlo.after hostOps4 Wv (Proc.devRef .tc main_v67) = shapeCast S1x2 b shapeCasts_S2_S1x2 := by
  subst hb; after_results_simp; rfl

end Cert.KernelIdeal.Chain

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.LibColumnBroadcast.lean ====
/-
  A column broadcast along rows, read at an index: the companion of the library's one-row form
  (`broadcastTo_1b_ab_apply`, one row repeated down the rows) for one COLUMN repeated across the columns.
-/
import Idealize.ShloMosaic.Lib.Pipeline.Value
import Idealize.ShloMosaic.Lib.ValueIdx

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.DenseValue.lean ====
/-
  Region 0 (the dense projection a·w fused with a per-row scale), at any entry contents V of the buffers:
  the two output arrays after the region, index by index.

  The body at grid point t reads the t-th block of 2000 rows of a : [50000, 8], the whole of w : [8, 128] and
  the t-th block of 2000 rows of the scale column s : [50000, 1], and writes the t-th blocks of 2000 rows of
  the two outputs: the product (a·w)[i, k] = Σ_q a[i, q] · w[q, k] and the product scaled per row,
  (a·w)[i, k] · s[i, 0]. At the ideal instance the format changes are the identity and the accumulator is
  zero, so each written entry is that sum over the extended reals. The 25 row blocks tile the 50000 rows
  (row r lies in block r / 2000), so each output array is ONE function of the entry arrays.
-/
import proofs.«173198_j90718299226435_2_alg».proof.Proof.Gen.KernelIdeal.Frame
import proofs.«173198_j90718299226435_2_alg».proof.Proof.LibSplitContraction
import proofs.«173198_j90718299226435_2_alg».proof.Proof.LibColumnBroadcast
import Idealize.ShloMosaic.Lib.Pipeline.Value
import Idealize.ShloMosaic.Lib.ValueIdx
import Idealize.ShloMosaic.PureOps.Ideal.Laws

noncomputable section

namespace Cert.KernelIdeal.DenseValue

open Idealize.ShloMosaic Idealize.ShloMosaic.ValueIdx Idealize.ShloMosaic.TcCoe Idealize.SL.Sem
open Cert.KernelIdeal Cert.KernelIdeal.Gen
open Idealize.ShloMosaic.Pipeline (Dat)
open Cert.Lib.SplitContraction

/-! ## Region 0: the product payload and the scaled payload at an entry of their block -/

/-- Where the [2000, 8] × [8, 128] product reads its first operand's row: the output's row. -/
theorem dot0_lhs0 (j : S2000x128.Idx) (q : dot_S2000x8_S8x128_S2000x128_1_0_0_1_n_n.contr.Idx) :
    (dot_S2000x8_S8x128_S2000x128_1_0_0_1_n_n.lhsIdx j q 0).val = (j 0).val := by
  unfold DotDims.lhsIdx
  rw [dif_neg (show ¬(0 : Fin S2000x8.rank) ∈ dot_S2000x8_S8x128_S2000x128_1_0_0_1_n_n.lhsBatch by decide),
    dif_pos (show (0 : Fin S2000x8.rank) ∈ dot_S2000x8_S8x128_S2000x128_1_0_0_1_n_n.lhsNonContracting by decide)]
  rfl

/-- Where it reads its second operand's column: the output's column. -/
theorem dot0_rhs1 (j : S2000x128.Idx) (q : dot_S2000x8_S8x128_S2000x128_1_0_0_1_n_n.contr.Idx) :
    (dot_S2000x8_S8x128_S2000x128_1_0_0_1_n_n.rhsIdx j q 1).val = (j 1).val := by
  unfold DotDims.rhsIdx
  rw [dif_neg (show ¬(1 : Fin S8x128.rank) ∈ dot_S2000x8_S8x128_S2000x128_1_0_0_1_n_n.rhsBatch by decide),
    dif_pos (show (1 : Fin S8x128.rank) ∈ dot_S2000x8_S8x128_S2000x128_1_0_0_1_n_n.rhsNonContracting by decide)]
  rfl

/-- The product payload at entry (p, k): the row p of the first block against the column k of the second
    (the format changes are the identity on extended reals; the accumulator is the zero splat). -/
theorem prod0_at (x0 : Vec Ideal S2000x8 .f32) (x1 : Vec Ideal S8x128 .f32) (p : Fin 2000) (k : Fin 128) :
    k0_pay1 x0 x1 (ix2 p k) = ∑ q : Fin 8, x0 (ix2 p q) * x1 (ix2 q k) := by
  unfold k0_pay1
  exact matmul_zero_at dot_S2000x8_S8x128_S2000x128_1_0_0_1_n_n rfl rfl dot0_lhs0
    (fun j q => dot_S2000x8_S8x128_S2000x128_1_0_0_1_n_n.lhsIdx_val_of_single rfl j q)
    (fun j q => dot_S2000x8_S8x128_S2000x128_1_0_0_1_n_n.rhsIdx_val_of_single rfl j q)
    dot0_rhs1 none _ _ p k

/-- The scaled payload at entry (p, k): the product there times the scale column at row p (the column is
    repeated across the 128 columns; a shape cast of a shape to itself changes nothing). -/
theorem scaled0_at (x0 : Vec Ideal S2000x8 .f32) (x1 : Vec Ideal S8x128 .f32) (x2 : Vec Ideal S2000x1 .f32) (p : Fin 2000) (k : Fin 128) :
    k0_pay2 x0 x1 x2 (ix2 p k) = (∑ q : Fin 8, x0 (ix2 p q) * x1 (ix2 q k)) * x2 (ix2 p (0 : Fin 1)) := by
  unfold k0_pay2
  rw [truncf_apply, mulf_apply, prod0_at, shapeCast_self, broadcastTo_a1_ab_apply]

/-! ## Region 0: the two output arrays as functions of the entry arrays -/

section Region0

variable (V : (c : Dev nD) → (b : Ref sig .tc) → Buf (Elt Ideal) ((c : Thread nD τ).loc b))

theorem zeros2 : (![0, 0] : Fin 2 → Nat) = fun _ => 0 := funext fun a => by fin_cases a <;> rfl

/-- Entry (i, k) of a·w. -/
def prodAt0 (a : S50000x8.Idx → EReal) (w : S8x128.Idx → EReal) (i : Fin 50000) (k : Fin 128) : EReal :=
  ∑ q : Fin 8, a (ix2 i q) * w (ix2 q k)

/-- The whole array a·w. -/
def prodArr0 (a : S50000x8.Idx → EReal) (w : S8x128.Idx → EReal) : S50000x128.Idx → EReal :=
  fun j => prodAt0 a w (j 0) (j 1)

/-- The whole array (a·w) scaled per row by the column s. -/
def scaledArr0 (a : S50000x8.Idx → EReal) (w : S8x128.Idx → EReal) (s : S50000x1.Idx → EReal) : S50000x128.Idx → EReal :=
  fun j => prodAt0 a w (j 0) (j 1) * s (ix2 (j 0) (0 : Fin 1))

/-- The index maps over the grid: point t's blocks of a, of the scale column and of the two outputs are the
    t-th row blocks (block index (t, 0)), and w's block is the whole array (block index (0, 0)). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Window 0's block at point t is rows 2000·t … 2000·t + 1999 of a. -/
theorem a_block0 (c : Dev nD) (t : Fin cfg0.N) (y : S2000x8.Idx) (i : S50000x8.Idx)
    (h0 : (i 0).val = t.val * 2000 + (y 0).val) (h1 : (i 1).val = (y 1).val) :
    (iblk0 V c 0 t : Vec Ideal S2000x8 .f32) y = (V c (Pipeline.arrRef spec0 0) : S50000x8.Idx → EReal) i := by
  obtain ⟨e0, e1, -⟩ := idx_facts0 t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 2000 + 1 * (y 0).val = (i 0).val; omega
  | ⟨1, _⟩ => show win0_0.index t (1 : Fin 2) * 8 + 1 * (y 1).val = (i 1).val; omega

/-- Window 1's block at every point is the whole of w. -/
theorem w_block0 (c : Dev nD) (t : Fin cfg0.N) (y : S8x128.Idx) :
    (iblk0 V c 1 t : Vec Ideal S8x128 .f32) y = (V c (Pipeline.arrRef spec0 1) : S8x128.Idx → EReal) y := by
  obtain ⟨-, -, e0, e1, -⟩ := idx_facts0 t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 8 + 1 * (y 0).val = (y 0).val; omega
  | ⟨1, _⟩ => show win0_1.index t (1 : Fin 2) * 128 + 1 * (y 1).val = (y 1).val; omega

/-- Window 2's block at point t is rows 2000·t … 2000·t + 1999 of the scale column. -/
theorem s_block0 (c : Dev nD) (t : Fin cfg0.N) (y : S2000x1.Idx) (i : S50000x1.Idx)
    (h0 : (i 0).val = t.val * 2000 + (y 0).val) (h1 : (i 1).val = (y 1).val) :
    (iblk0 V c 2 t : Vec Ideal S2000x1 .f32) y = (V c (Pipeline.arrRef spec0 2) : S50000x1.Idx → EReal) i := by
  obtain ⟨-, -, -, -, e0, e1, -⟩ := idx_facts0 t
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 2000 + 1 * (y 0).val = (i 0).val; omega
  | ⟨1, _⟩ => show win0_2.index t (1 : Fin 2) * 1 + 1 * (y 1).val = (i 1).val; omega

/-- Over variables: when x0 is the b-th row block of a and x1 is w, the product payload at entry j of its block
    is the array a·w at row 2000·b + j₀, column j₁. -/
theorem prod_block0 (x0 : Vec Ideal S2000x8 .f32) (x1 : Vec Ideal S8x128 .f32)
    (a : S50000x8.Idx → EReal) (w : S8x128.Idx → EReal) (b : Nat)
    (hx0 : ∀ (y : S2000x8.Idx) (i : S50000x8.Idx), (i 0).val = b * 2000 + (y 0).val → (i 1).val = (y 1).val → x0 y = a i)
    (hx1 : ∀ y, x1 y = w y)
    (j : S2000x128.Idx) (i : S50000x128.Idx) (hi0 : (i 0).val = b * 2000 + (j 0).val) (hi1 : (i 1).val = (j 1).val) :
    k0_pay1 x0 x1 j = prodArr0 a w i := by
  obtain ⟨p, k, rfl⟩ : ∃ (p : Fin 2000) (k : Fin 128), j = ix2 p k := ⟨j 0, j 1, eq_ix2 j⟩
  obtain ⟨r, k', rfl⟩ : ∃ (r : Fin 50000) (k' : Fin 128), i = ix2 r k' := ⟨i 0, i 1, eq_ix2 i⟩
  obtain rfl : k' = k := Fin.ext hi1
  rw [prod0_at]
  show _ = ∑ q : Fin 8, a (ix2 r q) * w (ix2 q k')
  exact Finset.sum_congr rfl fun q _ => by rw [hx0 (ix2 p q) (ix2 r q) hi0 rfl, hx1]

/-- Over variables: the same for the scaled payload, x2 the b-th row block of the scale column. -/
theorem scaled_block0 (x0 : Vec Ideal S2000x8 .f32) (x1 : Vec Ideal S8x128 .f32) (x2 : Vec Ideal S2000x1 .f32)
    (a : S50000x8.Idx → EReal) (w : S8x128.Idx → EReal) (s : S50000x1.Idx → EReal) (b : Nat)
    (hx0 : ∀ (y : S2000x8.Idx) (i : S50000x8.Idx), (i 0).val = b * 2000 + (y 0).val → (i 1).val = (y 1).val → x0 y = a i)
    (hx1 : ∀ y, x1 y = w y)
    (hx2 : ∀ (y : S2000x1.Idx) (i : S50000x1.Idx), (i 0).val = b * 2000 + (y 0).val → (i 1).val = (y 1).val → x2 y = s i)
    (j : S2000x128.Idx) (i : S50000x128.Idx) (hi0 : (i 0).val = b * 2000 + (j 0).val) (hi1 : (i 1).val = (j 1).val) :
    k0_pay2 x0 x1 x2 j = scaledArr0 a w s i := by
  obtain ⟨p, k, rfl⟩ : ∃ (p : Fin 2000) (k : Fin 128), j = ix2 p k := ⟨j 0, j 1, eq_ix2 j⟩
  obtain ⟨r, k', rfl⟩ : ∃ (r : Fin 50000) (k' : Fin 128), i = ix2 r k' := ⟨i 0, i 1, eq_ix2 i⟩
  obtain rfl : k' = k := Fin.ext hi1
  rw [scaled0_at]
  show _ = (∑ q : Fin 8, a (ix2 r q) * w (ix2 q k')) * s (ix2 r (0 : Fin 1))
  rw [hx2 (ix2 p (0 : Fin 1)) (ix2 r (0 : Fin 1)) hi0 rfl]
  exact congrArg (· * s (ix2 r (0 : Fin 1))) (Finset.sum_congr rfl fun q _ => by rw [hx0 (ix2 p q) (ix2 r q) hi0 rfl, hx1])

/-- What point t writes back to the first output is block t of the array a·w. -/
theorem flushed0_3_eq (c : Dev nD) (t : Fin cfg0.N) :
    (dat0 (F := Ideal) V c).flushed 3 t
      = ((cfg0.win 3).blk t).view.read (Elt Ideal) (prodArr0 (V c (Pipeline.arrRef spec0 0)) (V c (Pipeline.arrRef spec0 1))) := by
  show (cfg0.win 3).cut (grid0.coords t) ((dat0 V c).after 3 t) = _
  rw [after0_3]
  unfold out0_3
  rw [View.canon_unit_zero zeros2]
  simp only [View.ld_unit_zero (S := S2000x8) zeros2, View.ld_unit_zero (S := S8x128) zeros2]
  obtain ⟨-, -, -, -, -, -, e0, e1, -⟩ := idx_facts0 t
  funext j
  rw [View.read_apply]
  refine prod_block0 _ _ _ _ t.val (a_block0 V c t) (w_block0 V c t) _ _ ?_ ?_
  · show win0_3.index t (0 : Fin 2) * 2000 + 1 * (j 0).val = t.val * 2000 + (j 0).val; omega
  · show win0_3.index t (1 : Fin 2) * 128 + 1 * (j 1).val = (j 1).val; omega

/-- What point t writes back to the second output is block t of the scaled array. -/
theorem flushed0_4_eq (c : Dev nD) (t : Fin cfg0.N) :
    (dat0 (F := Ideal) V c).flushed 4 t
      = ((cfg0.win 4).blk t).view.read (Elt Ideal) (scaledArr0 (V c (Pipeline.arrRef spec0 0)) (V c (Pipeline.arrRef spec0 1)) (V c (Pipeline.arrRef spec0 2))) := by
  show (cfg0.win 4).cut (grid0.coords t) ((dat0 V c).after 4 t) = _
  rw [after0_4]
  unfold out0_4
  rw [View.canon_unit_zero zeros2]
  simp only [View.ld_unit_zero (S := S2000x8) zeros2, View.ld_unit_zero (S := S8x128) zeros2, View.ld_unit_zero (S := S2000x1) zeros2]
  obtain ⟨-, -, -, -, -, -, -, -, e0, e1⟩ := idx_facts0 t
  funext j
  rw [View.read_apply]
  refine scaled_block0 _ _ _ _ _ _ t.val (a_block0 V c t) (w_block0 V c t) (s_block0 V c t) _ _ ?_ ?_
  · show win0_4.index t (0 : Fin 2) * 2000 + 1 * (j 0).val = t.val * 2000 + (j 0).val; omega
  · show win0_4.index t (1 : Fin 2) * 128 + 1 * (j 1).val = (j 1).val; omega

/-- An index of the first output's array is in point t's block iff each coordinate is in the block's range. -/
theorem mem_blk0_3 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v15_0).slice (win0_3.rect t)).set ↔ _
  rw [View.set_slice_whole, Rect.mem_set_unit]
  exact Iff.rfl

/-- The same for the second output's array. -/
theorem mem_blk0_4 (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v15_1).slice (win0_4.rect t)).set ↔ _
  rw [View.set_slice_whole, Rect.mem_set_unit]
  exact Iff.rfl

/-- The 25 row blocks tile the first output: row r is in the block of point r / 2000. -/
theorem rows_cover0_3 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, e0, e1, -⟩ := idx_facts0 t
  refine ⟨t, flush0_3 t, ?_⟩
  rw [mem_blk0_3]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- And the second output. -/
theorem rows_cover0_4 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, -, -, e0, e1⟩ := idx_facts0 t
  refine ⟨t, flush0_4 t, ?_⟩
  rw [mem_blk0_4]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

/-- After the region the first output's array is a·w of the entry arrays. -/
theorem prodArr0_final (c : Dev nD) :
    (dat0 (F := Ideal) V c).arrAt 3 cfg0.N = prodArr0 (V c (Pipeline.arrRef spec0 0)) (V c (Pipeline.arrRef spec0 1)) :=
  (dat0 (F := Ideal) V c).arrAt_eq_of_cover 3 _ (fun t _ => flushed0_3_eq V c t) rows_cover0_3

/-- After the region the second output's array is a·w scaled per row by the entry scale column. -/
theorem scaledArr0_final (c : Dev nD) :
    (dat0 (F := Ideal) V c).arrAt 4 cfg0.N
      = scaledArr0 (V c (Pipeline.arrRef spec0 0)) (V c (Pipeline.arrRef spec0 1)) (V c (Pipeline.arrRef spec0 2)) :=
  (dat0 (F := Ideal) V c).arrAt_eq_of_cover 4 _ (fun t _ => flushed0_4_eq V c t) rows_cover0_4

/-- The array a·w read at (i, k). -/
theorem prodArr0_apply (a : S50000x8.Idx → EReal) (w : S8x128.Idx → EReal) (i : Fin 50000) (k : Fin 128) :
    prodArr0 a w (ix2 i k) = ∑ q : Fin 8, a (ix2 i q) * w (ix2 q k) := rfl

/-- The scaled array read at (i, k). -/
theorem scaledArr0_apply (a : S50000x8.Idx → EReal) (w : S8x128.Idx → EReal) (s : S50000x1.Idx → EReal) (i : Fin 50000) (k : Fin 128) :
    scaledArr0 a w s (ix2 i k) = (∑ q : Fin 8, a (ix2 i q) * w (ix2 q k)) * s (ix2 i (0 : Fin 1)) := rfl

/-- Entry (i, k) of the first output after the region: the sum over the 8 input features of a[i, q] · w[q, k]
    (the products and the sum are the extended reals'). -/
theorem hpre0_at (c : Dev nD) (i : Fin 50000) (k : Fin 128) :
    (Gen.dat0 (F := Ideal) V c).arrAt 3 cfg0.N (ix2 i k)
      = ∑ q : Fin 8, HMul.hMul (α := EReal) (β := EReal) (V c (Pipeline.arrRef spec0 0) (ix2 i q)) (V c (Pipeline.arrRef spec0 1) (ix2 q k)) :=
  congrFun (prodArr0_final V c) (ix2 i k)

/-- Entry (i, k) of the second output after the region: that sum times the scale column at row i. -/
theorem g0_at (c : Dev nD) (i : Fin 50000) (k : Fin 128) :
    (Gen.dat0 (F := Ideal) V c).arrAt 4 cfg0.N (ix2 i k)
      = HMul.hMul (α := EReal) (β := EReal)
          (∑ q : Fin 8, HMul.hMul (α := EReal) (β := EReal) (V c (Pipeline.arrRef spec0 0) (ix2 i q)) (V c (Pipeline.arrRef spec0 1) (ix2 q k)))
          (V c (Pipeline.arrRef spec0 2) (ix2 i (0 : Fin 1))) :=
  congrFun (scaledArr0_final V c) (ix2 i k)

end Region0

end Cert.KernelIdeal.DenseValue

end
-- ==== Proof.FinalizeValue.lean ====
import proofs.«173198_j90718299226435_2_alg».proof.Proof.Gen.KernelIdeal.Frame
import proofs.«173198_j90718299226435_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

/-!
# The combine step, index by index

The combine step takes four arrays — an aggregate `agg : [50000,128]`, a pre-activation `hpre : [50000,128]`,
a column of per-row scales `d : [50000,1]` and a row of biases `b : [1,128]` — and leaves, at row `i` and
column `k`,

  `max (d i * (agg i k + hpre i k * d i) + b k) 0`.

The rows are cut into 25 blocks of 2000; grid point `t` reads rows `2000 t … 2000 t + 1999` of `agg`, `hpre`
and `d`, the whole of `b`, and writes the same rows of the result. So entry `(i, k)` of the result depends only
on entries `(i, k)` of `agg` and `hpre`, entry `(i, 0)` of `d` and entry `(0, k)` of `b`, and the blocks
`t = i / 2000` cover every row. Every operation is the extended reals' own; no algebraic law is used, the order of
the factors and summands is the body's.
-/

noncomputable section

namespace Cert.KernelIdeal.FinalizeValue

open Idealize.ShloMosaic Idealize.ShloMosaic.ValueIdx Idealize.ShloMosaic.TcCoe Idealize.SL.Sem
open Cert.KernelIdeal Cert.KernelIdeal.Gen
open Idealize.ShloMosaic.Pipeline (Dat)

/-! ## The body's arithmetic at one entry of a block -/

/-- The body's result at row `p`, column `q` of a block: the scale of row `p` times (the aggregate plus the
    pre-activation times the same scale), plus the bias of column `q`, clamped below at zero. The scale column is
    repeated across the columns and the bias row down the rows; the casts between equal shapes are the identity. -/
theorem scale_bias_relu_at (d : Vec Ideal S2000x1 .f32) (a h : Vec Ideal S2000x128 .f32) (b : Vec Ideal S1x128 .f32)
    (p : Fin 2000) (q : Fin 128) :
    k1_pay1 d a h b (ix2 p q)
      = max (d (ix2 p (0 : Fin 1)) * (a (ix2 p q) + h (ix2 p q) * d (ix2 p (0 : Fin 1))) + b (ix2 (0 : Fin 1) q)) 0 := by
  unfold k1_pay1
  simp only [shapeCast_self]
  rw [maximumf_apply, addf_apply, mulf_apply, addf_apply, mulf_apply, broadcast_apply,
    broadcastTo_a1_ab_apply, broadcastTo_1b_ab_apply]
  show max _ (Ideal.ofBits .f32 0x00000000#32) = _
  rw [Ideal.ofBits_zero_f32]

/-! ## The whole result as one function of the four arrays -/

/-- Entry `(i, k)` of the result, from the four arrays. -/
def combineAt (agg hpre : S50000x128.Idx → EReal) (d : S50000x1.Idx → EReal) (b : S1x128.Idx → EReal)
    (i : Fin 50000) (k : Fin 128) : EReal :=
  max (d (ix2 i (0 : Fin 1)) * (agg (ix2 i k) + hpre (ix2 i k) * d (ix2 i (0 : Fin 1))) + b (ix2 (0 : Fin 1) k)) 0

/-- The result array: `combineAt` at each index's two coordinates. -/
def combine (agg hpre : S50000x128.Idx → EReal) (d : S50000x1.Idx → EReal) (b : S1x128.Idx → EReal) :
    S50000x128.Idx → EReal :=
  fun j => combineAt agg hpre d b (j 0) (j 1)

section AtEntry

variable (V : (c : Dev nD) → (b : Ref sig .tc) → Buf (Elt Ideal) ((c : Thread nD τ).loc b))

/-! ## Where a block's entry sits in its array -/

theorem zero_offsets : (![0, 0] : Fin 2 → Nat) = fun _ => 0 := funext fun a => by fin_cases a <;> rfl

/-- The index maps over the 25 grid points: the three row-blocked inputs and the output are at block `(t, 0)`, the
    bias row at block `(0, 0)`. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p`, column `q` of the aggregate's block at point `t` is entry `(2000 t + p, q)` of the aggregate. -/
theorem agg_block_at (c : Dev nD) (t : Fin cfg1.N) (p : Fin 2000) (q : Fin 128) (i : Fin 50000)
    (hi : i.val = t.val * 2000 + p.val) :
    (iblk1 V c 0 t : Vec Ideal S2000x128 .f32) (ix2 p q) = V c (Pipeline.arrRef spec1 0) (ix2 i q) := by
  obtain ⟨e0, e1, -⟩ := block_indices t
  unfold iblk1
  rw [View.read_apply]
  show V c (Pipeline.arrRef spec1 0) _ = V c (Pipeline.arrRef spec1 0) _
  refine congrArg _ ?_
  funext a
  apply Fin.ext
  match a with
  | ⟨0, _⟩ => show win1_0.index t (0 : Fin 2) * 2000 + 1 * p.val = i.val; omega
  | ⟨1, _⟩ => show win1_0.index t (1 : Fin 2) * 128 + 1 * q.val = q.val; omega

/-- The same for the pre-activation's block. -/
theorem hpre_block_at (c : Dev nD) (t : Fin cfg1.N) (p : Fin 2000) (q : Fin 128) (i : Fin 50000)
    (hi : i.val = t.val * 2000 + p.val) :
    (iblk1 V c 1 t : Vec Ideal S2000x128 .f32) (ix2 p q) = V c (Pipeline.arrRef spec1 1) (ix2 i q) := by
  obtain ⟨-, -, e0, e1, -⟩ := block_indices t
  unfold iblk1
  rw [View.read_apply]
  show V c (Pipeline.arrRef spec1 1) _ = V c (Pipeline.arrRef spec1 1) _
  refine congrArg _ ?_
  funext a
  apply Fin.ext
  match a with
  | ⟨0, _⟩ => show win1_1.index t (0 : Fin 2) * 2000 + 1 * p.val = i.val; omega
  | ⟨1, _⟩ => show win1_1.index t (1 : Fin 2) * 128 + 1 * q.val = q.val; omega

/-- Row `p` of the scale column's block at point `t` is entry `(2000 t + p, 0)` of the scale column. -/
theorem scale_block_at (c : Dev nD) (t : Fin cfg1.N) (p : Fin 2000) (i : Fin 50000)
    (hi : i.val = t.val * 2000 + p.val) :
    (iblk1 V c 2 t : Vec Ideal S2000x1 .f32) (ix2 p (0 : Fin 1)) = V c (Pipeline.arrRef spec1 2) (ix2 i (0 : Fin 1)) := by
  obtain ⟨-, -, -, -, e0, e1, -⟩ := block_indices t
  unfold iblk1
  rw [View.read_apply]
  show V c (Pipeline.arrRef spec1 2) _ = V c (Pipeline.arrRef spec1 2) _
  refine congrArg _ ?_
  funext a
  apply Fin.ext
  match a with
  | ⟨0, _⟩ => show win1_2.index t (0 : Fin 2) * 2000 + 1 * p.val = i.val; omega
  | ⟨1, _⟩ => show win1_2.index t (1 : Fin 2) * 1 + 1 * 0 = 0; omega

/-- The bias row's block at every point is the bias row itself. -/
theorem bias_block_at (c : Dev nD) (t : Fin cfg1.N) (q : Fin 128) :
    (iblk1 V c 3 t : Vec Ideal S1x128 .f32) (ix2 (0 : Fin 1) q) = V c (Pipeline.arrRef spec1 3) (ix2 (0 : Fin 1) q) := by
  obtain ⟨-, -, -, -, -, -, e0, e1, -⟩ := block_indices t
  unfold iblk1
  rw [View.read_apply]
  show V c (Pipeline.arrRef spec1 3) _ = V c (Pipeline.arrRef spec1 3) _
  refine congrArg _ ?_
  funext a
  apply Fin.ext
  match a with
  | ⟨0, _⟩ => show win1_3.index t (0 : Fin 2) * 1 + 1 * 0 = 0; omega
  | ⟨1, _⟩ => show win1_3.index t (1 : Fin 2) * 128 + 1 * q.val = q.val; omega

/-- Row `p`, column `q` of the output's block at point `t` is entry `(2000 t + p, q)` of the output. -/
theorem out_block_at (t : Fin cfg1.N) (p : Fin 2000) (q : Fin 128) (i : Fin 50000)
    (hi : i.val = t.val * 2000 + p.val) :
    ((cfg1.win 4).blk t).view.emb (ix2 p q) = (ix2 i q : S50000x128.Idx) := by
  obtain ⟨-, -, -, -, -, -, -, -, e0, e1⟩ := block_indices t
  funext a
  apply Fin.ext
  match a with
  | ⟨0, _⟩ => show win1_4.index t (0 : Fin 2) * 2000 + 1 * p.val = i.val; omega
  | ⟨1, _⟩ => show win1_4.index t (1 : Fin 2) * 128 + 1 * q.val = q.val; omega

/-! ## What a grid point writes back, and the cover -/

/-- Entry `(p, q)` of what the body leaves from the blocks at point `t` is `combine` of the four arrays at the
    entry's place in the output array. -/
theorem written_at (c : Dev nD) (t : Fin cfg1.N) (p : Fin 2000) (q : Fin 128) :
    k1_pay1 (iblk1 V c 2 t) (iblk1 V c 0 t) (iblk1 V c 1 t) (iblk1 V c 3 t) (ix2 p q)
      = combine (V c (Pipeline.arrRef spec1 0)) (V c (Pipeline.arrRef spec1 1))
          (V c (Pipeline.arrRef spec1 2)) (V c (Pipeline.arrRef spec1 3))
          (((cfg1.win 4).blk t).view.emb (ix2 p q)) := by
  have hN : cfg1.N = 25 := N_1
  have ht : t.val < 25 := by have := t.isLt; omega
  obtain ⟨i, hi⟩ : ∃ i : Fin 50000, i.val = t.val * 2000 + p.val :=
    ⟨⟨t.val * 2000 + p.val, by have := p.isLt; omega⟩, rfl⟩
  refine (scale_bias_relu_at (iblk1 V c 2 t) (iblk1 V c 0 t) (iblk1 V c 1 t) (iblk1 V c 3 t) p q).trans ?_
  rw [out_block_at t p q i hi, agg_block_at V c t p q i hi, hpre_block_at V c t p q i hi,
    scale_block_at V c t p i hi, bias_block_at V c t q]
  rfl

/-- Grid point `t` writes back block `t` of `combine` of the four arrays as the region finds them. -/
theorem flushed_eq (c : Dev nD) (t : Fin cfg1.N) :
    (dat1 (F := Ideal) V c).flushed 4 t
      = ((cfg1.win 4).blk t).view.read (Elt Ideal)
          (combine (V c (Pipeline.arrRef spec1 0)) (V c (Pipeline.arrRef spec1 1))
            (V c (Pipeline.arrRef spec1 2)) (V c (Pipeline.arrRef spec1 3))) := by
  show (cfg1.win 4).cut (grid1.coords t) ((dat1 (F := Ideal) V c).after 4 t) = _
  rw [after1_4]
  unfold out1_4
  rw [View.canon_unit_zero zero_offsets]
  simp only [View.ld_unit_zero (S := S2000x128) zero_offsets, View.ld_unit_zero (S := S2000x1) zero_offsets,
    View.ld_unit_zero (S := S1x128) zero_offsets]
  funext j
  obtain ⟨p, q, rfl⟩ : ∃ (p : Fin 2000) (q : Fin 128), j = ix2 p q := ⟨j 0, j 1, eq_ix2 j⟩
  exact written_at V c t p q

/-- An index of the output array is in point `t`'s block iff each coordinate is in the block's range on its axis. -/
theorem mem_block (t : Fin cfg1.N) (i : S50000x128.Idx) :
    i ∈ ((cfg1.win 4).blk t).view.set
      ↔ ∀ a : Fin 2, win1_4.index t a * S2000x128.size a ≤ (i a).val
          ∧ (i a).val < win1_4.index t a * S2000x128.size a + S2000x128.size a := by
  show i ∈ ((View.whole main_v29).slice (win1_4.rect t)).set ↔ _
  rw [View.set_slice_whole, Rect.mem_set_unit]
  exact Iff.rfl

/-- Every index of the output is in the block of the point its row falls in, `t = row / 2000`. -/
theorem covered (i : S50000x128.Idx) :
    ∃ t : Fin cfg1.N, (cfg1.win 4).flush t = true ∧ i ∈ ((cfg1.win 4).blk t).view.set := by
  have hN : cfg1.N = 25 := N_1
  have hi0 : (i 0).val < 50000 := (i 0).isLt
  have hi1 : (i 1).val < 128 := (i 1).isLt
  let t : Fin cfg1.N := ⟨(i 0).val / 2000, by rw [hN]; omega⟩
  have htv : t.val = (i 0).val / 2000 := rfl
  obtain ⟨-, -, -, -, -, -, -, -, e0, e1⟩ := block_indices t
  refine ⟨t, flush1_4 t, ?_⟩
  rw [mem_block]
  intro a
  match a with
  | ⟨0, _⟩ =>
    show win1_4.index t (0 : Fin 2) * 2000 ≤ (i 0).val ∧ (i 0).val < win1_4.index t (0 : Fin 2) * 2000 + 2000
    omega
  | ⟨1, _⟩ =>
    show win1_4.index t (1 : Fin 2) * 128 ≤ (i 1).val ∧ (i 1).val < win1_4.index t (1 : Fin 2) * 128 + 128
    omega

/-! ## The output array after the region -/

/-- The output array after the region is `combine` of the four arrays as the region finds them. -/
theorem out1_eq_combine (c : Dev nD) :
    (dat1 (F := Ideal) V c).arrAt 4 cfg1.N
      = combine (V c (Pipeline.arrRef spec1 0)) (V c (Pipeline.arrRef spec1 1))
          (V c (Pipeline.arrRef spec1 2)) (V c (Pipeline.arrRef spec1 3)) :=
  (dat1 (F := Ideal) V c).arrAt_eq_of_cover 4 _ (fun t _ => flushed_eq V c t) covered

/-- Entry `(i, k)` of the output after the region, the four arrays the region finds named `agg`, `hpre`, `d`, `b`:
    the scale of row `i` times (the aggregate plus the pre-activation times that scale), plus the bias of column `k`,
    clamped below at zero. -/
theorem out1_at (c : Dev nD) (agg hpre : S50000x128.Idx → EReal) (d : S50000x1.Idx → EReal) (b : S1x128.Idx → EReal)
    (hagg : V c (Pipeline.arrRef spec1 0) = agg) (hhpre : V c (Pipeline.arrRef spec1 1) = hpre)
    (hd : V c (Pipeline.arrRef spec1 2) = d) (hb : V c (Pipeline.arrRef spec1 3) = b)
    (i : Fin 50000) (k : Fin 128) :
    @Eq EReal ((Gen.dat1 (F := Ideal) V c).arrAt 4 cfg1.N (ix2 i k))
      (max (d (ix2 i (0 : Fin 1)) * (agg (ix2 i k) + hpre (ix2 i k) * d (ix2 i (0 : Fin 1))) + b (ix2 (0 : Fin 1) k)) 0) := by
  subst hagg hhpre hd hb
  exact congrFun (out1_eq_combine V c) (ix2 i k)

end AtEntry

end Cert.KernelIdeal.FinalizeValue

end
-- ==== Proof.ChainLayer1.lean ====
/-
  The first aggregation round of the kernel program: the node features after the second region.

  Region 0 projects the inputs, `hpre = x · W1`, and scales each row by the node's degree factor; the host aggregates
  the scaled rows over the edges; region 1 combines. At every node `i` and feature `c` the result is the
  specification's round of the table `x · W1` with bias `b1`.
-/
import proofs.«173198_j90718299226435_2_alg».proof.Proof.ChainRound
import proofs.«173198_j90718299226435_2_alg».proof.Proof.ChainReads
import proofs.«173198_j90718299226435_2_alg».proof.Proof.DenseValue
import proofs.«173198_j90718299226435_2_alg».proof.Proof.FinalizeValue

noncomputable section

namespace Cert.KernelIdeal.Chain

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (ρ : Dev nD → PrngReg) (c : Dev nD)

/-- The arguments as launched, typed as the arrays they are. -/
abbrev xArr : S50000x8.Idx → EReal := m ((c : Thread nD τ).loc main_arg0)
abbrev w1Arr : S8x128.Idx → EReal := m ((c : Thread nD τ).loc main_arg1)
abbrev b1Arr : S128.Idx → EReal := m ((c : Thread nD τ).loc main_arg2)

/-- The source / target word of edge `e`. -/
abbrev srcW : Fin 800000 → BitVec 32 := fun e => edgeIndex m c (ix2 (0 : Fin 2) e)
abbrev dstW : Fin 800000 → BitVec 32 := fun e => edgeIndex m c (ix2 (1 : Fin 2) e)

theorem srcWords_fun : (fun e : Fin 800000 => srcWords m c (ix1 e)) = srcW m c := funext fun e => srcWords_at m c e
theorem dstWords_fun : (fun e : Fin 800000 => dstWords m c (ix1 e)) = dstW m c := funext fun e => dstWords_at m c e

/-- The degree factor as the column the regions read. -/
def dcolArr : S50000x1.Idx → EReal := shapeCast S50000x1 (dinvArr (dstWords m c)) shapeCasts_S50000_S50000x1

/-- The first projection and its row-scaled copy. -/
def hpre1 : S50000x128.Idx → EReal := DenseValue.prodArr0 (xArr m c) (w1Arr m c)
def g1 : S50000x128.Idx → EReal := DenseValue.scaledArr0 (xArr m c) (w1Arr m c) (dcolArr m c)

/-! ### Region 0 -/

theorem V3_x : V3 m ρ c (Pipeline.arrRef spec0 0) = xArr m c := W3_arg0 m ρ c
theorem V3_w : V3 m ρ c (Pipeline.arrRef spec0 1) = w1Arr m c := W3_arg1 m ρ c
theorem V3_d : V3 m ρ c (Pipeline.arrRef spec0 2) = dcolArr m c :=
  read_col14 (W2 m ρ c) _ (dinvA_eq m ρ c)

theorem W4_hpre : W4 m ρ c (Proc.devRef .tc main_v15_0) = hpre1 m c :=
  (W4_arr m ρ c 3).trans ((DenseValue.prodArr0_final (V3 m ρ) c).trans
    (congrArg₂ DenseValue.prodArr0 (V3_x m ρ c) (V3_w m ρ c)))

theorem W4_g : W4 m ρ c (Proc.devRef .tc main_v15_1) = g1 m c :=
  (W4_arr m ρ c 4).trans ((DenseValue.scaledArr0_final (V3 m ρ) c).trans
    (by unfold g1; rw [V3_x m ρ c, V3_w m ρ c, V3_d m ρ c]))

/-! ### The stretch between regions 0 and 1 -/

theorem V5_agg : V5 m ρ c (Pipeline.arrRef spec1 0) = aggOf (dstWords m c) (srcWords m c) (g1 m c) :=
  read_agg26 (W4 m ρ c) _ _ _ ((W4_v3 m ρ c).trans (dstA_eq m ρ c)) ((W4_v1 m ρ c).trans (srcA_eq m ρ c)) (W4_g m ρ c)
theorem V5_hpre : V5 m ρ c (Pipeline.arrRef spec1 1) = hpre1 m c := (W5_hpre m ρ c).trans (W4_hpre m ρ c)
theorem V5_d : V5 m ρ c (Pipeline.arrRef spec1 2) = dcolArr m c :=
  read_col27 (W4 m ρ c) _ ((W4_v13 m ρ c).trans (dinvA_eq m ρ c))
theorem V5_b : V5 m ρ c (Pipeline.arrRef spec1 3) = shapeCast S1x128 (b1Arr m c) shapeCasts_S128_S1x128 :=
  read_bias28 (W4 m ρ c) _ (W4_arg2 m ρ c)

/-! ### Region 1: the first round's node features -/

/-- The node features after the first round. -/
def p1Arr : S50000x128.Idx → EReal := W6 m ρ c (Proc.devRef .tc main_v29)

theorem g1_at (i : Fin 50000) (k : Fin 128) : g1 m c (ix2 i k) = hpre1 m c (ix2 i k) * dinvArr (dstWords m c) (ix1 i) := by
  unfold g1 hpre1
  rw [DenseValue.scaledArr0_apply, DenseValue.prodArr0_apply]
  unfold dcolArr
  rw [dcol_at]

theorem p1Arr_at (i : Fin 50000) (k : Fin 128) :
    p1Arr m ρ c (ix2 i k)
      = Cert.Gcn.layer (srcW m c) (dstW m c) (fun i c' => ∑ q : Fin 8, xArr m c (ix2 i q) * w1Arr m c (ix2 q c'))
          (fun c' => b1Arr m c (ix1 c')) i k := by
  have h6 : p1Arr m ρ c = (dat1 (F := Ideal) (V5 m ρ) c).arrAt 4 cfg1.N := W6_arr m ρ c 4
  rw [h6]
  refine (FinalizeValue.out1_at (V5 m ρ) c _ _ _ _ (V5_agg m ρ c) (V5_hpre m ρ c) (V5_d m ρ c) (V5_b m ρ c) i k).trans ?_
  unfold dcolArr
  refine (round_at (dstWords m c) (srcWords m c) (hpre1 m c) (g1 m c) (b1Arr m c) (g1_at m c) i k).trans ?_
  rw [srcWords_fun, dstWords_fun]
  rfl

end Cert.KernelIdeal.Chain

end
-- ==== Proof.DenseValue2.lean ====
/-
  Region 2 (the second dense projection a·w fused with a per-row scale), at any entry contents V of the
  buffers: the two output arrays after the region, index by index.

  The body at grid point t reads the t-th block of 2000 rows of a : [50000, 128], the whole of
  w : [128, 128] and the t-th block of 2000 rows of the scale column s : [50000, 1], and writes the t-th
  blocks of 2000 rows of the two outputs: the product (a·w)[i, k] = Σ_q a[i, q] · w[q, k] and the product
  scaled per row, (a·w)[i, k] · s[i, 0]. At the ideal instance the format changes are the identity and the
  accumulator is zero, so each written entry is that sum over the extended reals. The 25 row blocks tile the
  50000 rows (row r lies in block r / 2000), so each output array is ONE function of the entry arrays.
-/
import proofs.«173198_j90718299226435_2_alg».proof.Proof.Gen.KernelIdeal.Frame
import proofs.«173198_j90718299226435_2_alg».proof.Proof.LibSplitContraction
import proofs.«173198_j90718299226435_2_alg».proof.Proof.LibColumnBroadcast
import Idealize.ShloMosaic.Lib.Pipeline.Value
import Idealize.ShloMosaic.Lib.ValueIdx
import Idealize.ShloMosaic.PureOps.Ideal.Laws

noncomputable section

namespace Cert.KernelIdeal.DenseValue2

open Idealize.ShloMosaic Idealize.ShloMosaic.ValueIdx Idealize.ShloMosaic.TcCoe Idealize.SL.Sem
open Cert.KernelIdeal Cert.KernelIdeal.Gen
open Idealize.ShloMosaic.Pipeline (Dat)
open Cert.Lib.SplitContraction

/-! ## Region 2: the product payload and the scaled payload at an entry of their block -/

/-- Where the [2000, 128] × [128, 128] product reads its first operand's row: the output's row. -/
theorem dot2_lhs0 (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- Where it reads its second operand's column: the output's column. -/
theorem dot2_rhs1 (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The product payload at entry (p, k): the row p of the first block against the column k of the second
    (a shape cast of a shape to itself changes nothing; the format changes are the identity on extended
    reals; the accumulator is the zero splat). -/
theorem prod2_at (x0 : Vec Ideal S2000x128 .f32) (x1 : Vec Ideal S128x128 .f32) (p : Fin 2000) (k : Fin 128) :
    k2_pay1 x0 x1 (ix2 p k) = ∑ q : Fin 128, x0 (ix2 p q) * x1 (ix2 q k) := by
  unfold k2_pay1
  rw [shapeCast_self]
  exact matmul_zero_at dot_S2000x128_S128x128_S2000x128_1_0_0_1_n_n rfl rfl dot2_lhs0
    (fun j q => dot_S2000x128_S128x128_S2000x128_1_0_0_1_n_n.lhsIdx_val_of_single rfl j q)
    (fun j q => dot_S2000x128_S128x128_S2000x128_1_0_0_1_n_n.rhsIdx_val_of_single rfl j q)
    dot2_rhs1 none _ _ p k

/-- The scaled payload at entry (p, k): the product there times the scale column at row p (the column is
    repeated across the 128 columns). -/
theorem scaled2_at (x0 : Vec Ideal S2000x128 .f32) (x1 : Vec Ideal S128x128 .f32) (x2 : Vec Ideal S2000x1 .f32) (p : Fin 2000) (k : Fin 128) :
    k2_pay2 x0 x1 x2 (ix2 p k) = (∑ q : Fin 128, x0 (ix2 p q) * x1 (ix2 q k)) * x2 (ix2 p (0 : Fin 1)) := by
  unfold k2_pay2
  rw [truncf_apply, mulf_apply, prod2_at, shapeCast_self, broadcastTo_a1_ab_apply]

/-! ## Region 2: the two output arrays as functions of the entry arrays -/

section Region2

variable (V : (c : Dev nD) → (b : Ref sig .tc) → Buf (Elt Ideal) ((c : Thread nD τ).loc b))

theorem zeros2 : (![0, 0] : Fin 2 → Nat) = fun _ => 0 := funext fun a => by fin_cases a <;> rfl

/-- Entry (i, k) of a·w. -/
def prodAt2 (a : S50000x128.Idx → EReal) (w : S128x128.Idx → EReal) (i : Fin 50000) (k : Fin 128) : EReal :=
  ∑ q : Fin 128, a (ix2 i q) * w (ix2 q k)

/-- The whole array a·w. -/
def prodArr2 (a : S50000x128.Idx → EReal) (w : S128x128.Idx → EReal) : S50000x128.Idx → EReal :=
  fun j => prodAt2 a w (j 0) (j 1)

/-- The whole array (a·w) scaled per row by the column s. -/
def scaledArr2 (a : S50000x128.Idx → EReal) (w : S128x128.Idx → EReal) (s : S50000x1.Idx → EReal) : S50000x128.Idx → EReal :=
  fun j => prodAt2 a w (j 0) (j 1) * s (ix2 (j 0) (0 : Fin 1))

/-- The index maps over the grid: point t's blocks of a, of the scale column and of the two outputs are the
    t-th row blocks (block index (t, 0)), and w's block is the whole array (block index (0, 0)). -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Window 0's block at point t is rows 2000·t … 2000·t + 1999 of a. -/
theorem a_block2 (c : Dev nD) (t : Fin cfg2.N) (y : S2000x128.Idx) (i : S50000x128.Idx)
    (h0 : (i 0).val = t.val * 2000 + (y 0).val) (h1 : (i 1).val = (y 1).val) :
    (iblk2 V c 0 t : Vec Ideal S2000x128 .f32) y = (V c (Pipeline.arrRef spec2 0) : S50000x128.Idx → EReal) i := by
  obtain ⟨e0, e1, -⟩ := idx_facts2 t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 2000 + 1 * (y 0).val = (i 0).val; omega
  | ⟨1, _⟩ => show win2_0.index t (1 : Fin 2) * 128 + 1 * (y 1).val = (i 1).val; omega

/-- Window 1's block at every point is the whole of w. -/
theorem w_block2 (c : Dev nD) (t : Fin cfg2.N) (y : S128x128.Idx) :
    (iblk2 V c 1 t : Vec Ideal S128x128 .f32) y = (V c (Pipeline.arrRef spec2 1) : S128x128.Idx → EReal) y := by
  obtain ⟨-, -, e0, e1, -⟩ := idx_facts2 t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- Window 2's block at point t is rows 2000·t … 2000·t + 1999 of the scale column. -/
theorem s_block2 (c : Dev nD) (t : Fin cfg2.N) (y : S2000x1.Idx) (i : S50000x1.Idx)
    (h0 : (i 0).val = t.val * 2000 + (y 0).val) (h1 : (i 1).val = (y 1).val) :
    (iblk2 V c 2 t : Vec Ideal S2000x1 .f32) y = (V c (Pipeline.arrRef spec2 2) : S50000x1.Idx → EReal) i := by
  obtain ⟨-, -, -, -, e0, e1, -⟩ := idx_facts2 t
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 2000 + 1 * (y 0).val = (i 0).val; omega
  | ⟨1, _⟩ => show win2_2.index t (1 : Fin 2) * 1 + 1 * (y 1).val = (i 1).val; omega

/-- Over variables: when x0 is the b-th row block of a and x1 is w, the product payload at entry j of its block
    is the array a·w at row 2000·b + j₀, column j₁. -/
theorem prod_block2 (x0 : Vec Ideal S2000x128 .f32) (x1 : Vec Ideal S128x128 .f32)
    (a : S50000x128.Idx → EReal) (w : S128x128.Idx → EReal) (b : Nat)
    (hx0 : ∀ (y : S2000x128.Idx) (i : S50000x128.Idx), (i 0).val = b * 2000 + (y 0).val → (i 1).val = (y 1).val → x0 y = a i)
    (hx1 : ∀ y, x1 y = w y)
    (j : S2000x128.Idx) (i : S50000x128.Idx) (hi0 : (i 0).val = b * 2000 + (j 0).val) (hi1 : (i 1).val = (j 1).val) :
    k2_pay1 x0 x1 j = prodArr2 a w i := by
  obtain ⟨p, k, rfl⟩ : ∃ (p : Fin 2000) (k : Fin 128), j = ix2 p k := ⟨j 0, j 1, eq_ix2 j⟩
  obtain ⟨r, k', rfl⟩ : ∃ (r : Fin 50000) (k' : Fin 128), i = ix2 r k' := ⟨i 0, i 1, eq_ix2 i⟩
  obtain rfl : k' = k := Fin.ext hi1
  rw [prod2_at]
  show _ = ∑ q : Fin 128, a (ix2 r q) * w (ix2 q k')
  exact Finset.sum_congr rfl fun q _ => by rw [hx0 (ix2 p q) (ix2 r q) hi0 rfl, hx1]

/-- Over variables: the same for the scaled payload, x2 the b-th row block of the scale column. -/
theorem scaled_block2 (x0 : Vec Ideal S2000x128 .f32) (x1 : Vec Ideal S128x128 .f32) (x2 : Vec Ideal S2000x1 .f32)
    (a : S50000x128.Idx → EReal) (w : S128x128.Idx → EReal) (s : S50000x1.Idx → EReal) (b : Nat)
    (hx0 : ∀ (y : S2000x128.Idx) (i : S50000x128.Idx), (i 0).val = b * 2000 + (y 0).val → (i 1).val = (y 1).val → x0 y = a i)
    (hx1 : ∀ y, x1 y = w y)
    (hx2 : ∀ (y : S2000x1.Idx) (i : S50000x1.Idx), (i 0).val = b * 2000 + (y 0).val → (i 1).val = (y 1).val → x2 y = s i)
    (j : S2000x128.Idx) (i : S50000x128.Idx) (hi0 : (i 0).val = b * 2000 + (j 0).val) (hi1 : (i 1).val = (j 1).val) :
    k2_pay2 x0 x1 x2 j = scaledArr2 a w s i := by
  obtain ⟨p, k, rfl⟩ : ∃ (p : Fin 2000) (k : Fin 128), j = ix2 p k := ⟨j 0, j 1, eq_ix2 j⟩
  obtain ⟨r, k', rfl⟩ : ∃ (r : Fin 50000) (k' : Fin 128), i = ix2 r k' := ⟨i 0, i 1, eq_ix2 i⟩
  obtain rfl : k' = k := Fin.ext hi1
  rw [scaled2_at]
  show _ = (∑ q : Fin 128, a (ix2 r q) * w (ix2 q k')) * s (ix2 r (0 : Fin 1))
  rw [hx2 (ix2 p (0 : Fin 1)) (ix2 r (0 : Fin 1)) hi0 rfl]
  exact congrArg (· * s (ix2 r (0 : Fin 1))) (Finset.sum_congr rfl fun q _ => by rw [hx0 (ix2 p q) (ix2 r q) hi0 rfl, hx1])

/-- What point t writes back to the first output is block t of the array a·w. -/
theorem flushed2_3_eq (c : Dev nD) (t : Fin cfg2.N) :
    (dat2 (F := Ideal) V c).flushed 3 t
      = ((cfg2.win 3).blk t).view.read (Elt Ideal) (prodArr2 (V c (Pipeline.arrRef spec2 0)) (V c (Pipeline.arrRef spec2 1))) := by
  show (cfg2.win 3).cut (grid2.coords t) ((dat2 V c).after 3 t) = _
  rw [after2_3]
  unfold out2_3
  rw [View.canon_unit_zero zeros2]
  simp only [View.ld_unit_zero (S := S2000x128) zeros2, View.ld_unit_zero (S := S128x128) zeros2]
  obtain ⟨-, -, -, -, -, -, e0, e1, -⟩ := idx_facts2 t
  funext j
  rw [View.read_apply]
  refine prod_block2 _ _ _ _ t.val (a_block2 V c t) (w_block2 V c t) _ _ ?_ ?_
  · show win2_3.index t (0 : Fin 2) * 2000 + 1 * (j 0).val = t.val * 2000 + (j 0).val; omega
  · show win2_3.index t (1 : Fin 2) * 128 + 1 * (j 1).val = (j 1).val; omega

/-- What point t writes back to the second output is block t of the scaled array. -/
theorem flushed2_4_eq (c : Dev nD) (t : Fin cfg2.N) :
    (dat2 (F := Ideal) V c).flushed 4 t
      = ((cfg2.win 4).blk t).view.read (Elt Ideal) (scaledArr2 (V c (Pipeline.arrRef spec2 0)) (V c (Pipeline.arrRef spec2 1)) (V c (Pipeline.arrRef spec2 2))) := by
  show (cfg2.win 4).cut (grid2.coords t) ((dat2 V c).after 4 t) = _
  rw [after2_4]
  unfold out2_4
  rw [View.canon_unit_zero zeros2]
  simp only [View.ld_unit_zero (S := S2000x128) zeros2, View.ld_unit_zero (S := S128x128) zeros2, View.ld_unit_zero (S := S2000x1) zeros2]
  obtain ⟨-, -, -, -, -, -, -, -, e0, e1⟩ := idx_facts2 t
  funext j
  rw [View.read_apply]
  refine scaled_block2 _ _ _ _ _ _ t.val (a_block2 V c t) (w_block2 V c t) (s_block2 V c t) _ _ ?_ ?_
  · show win2_4.index t (0 : Fin 2) * 2000 + 1 * (j 0).val = t.val * 2000 + (j 0).val; omega
  · show win2_4.index t (1 : Fin 2) * 128 + 1 * (j 1).val = (j 1).val; omega

/-- An index of the first output's array is in point t's block iff each coordinate is in the block's range. -/
theorem mem_blk2_3 (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v31_0).slice (win2_3.rect t)).set ↔ _
  rw [View.set_slice_whole, Rect.mem_set_unit]
  exact Iff.rfl

/-- The same for the second output's array. -/
theorem mem_blk2_4 (t : Fin cfg2.N) (i : S50000x128.Idx) :
    i ∈ ((cfg2.win 4).blk t).view.set ↔ ∀ a : Fin 2, win2_4.index t a * S2000x128.size a ≤ (i a).val ∧ (i a).val < win2_4.index t a * S2000x128.size a + S2000x128.size a := by
  show i ∈ ((View.whole main_v31_1).slice (win2_4.rect t)).set ↔ _
  rw [View.set_slice_whole, Rect.mem_set_unit]
  exact Iff.rfl

/-- The 25 row blocks tile the first output: row r is in the block of point r / 2000. -/
theorem rows_cover2_3 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, -, -, e0, e1, -⟩ := idx_facts2 t
  refine ⟨t, flush2_3 t, ?_⟩
  rw [mem_blk2_3]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-- And the second output. -/
theorem rows_cover2_4 (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, -, -, -, -, e0, e1⟩ := idx_facts2 t
  refine ⟨t, flush2_4 t, ?_⟩
  rw [mem_blk2_4]
  intro a
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 128 ≤ (i 1).val ∧ (i 1).val < win2_4.index t (1 : Fin 2) * 128 + 128; omega

/-- After the region the first output's array is a·w of the entry arrays. -/
theorem prodArr2_final (c : Dev nD) :
    (dat2 (F := Ideal) V c).arrAt 3 cfg2.N = prodArr2 (V c (Pipeline.arrRef spec2 0)) (V c (Pipeline.arrRef spec2 1)) :=
  (dat2 (F := Ideal) V c).arrAt_eq_of_cover 3 _ (fun t _ => flushed2_3_eq V c t) rows_cover2_3

/-- After the region the second output's array is a·w scaled per row by the entry scale column. -/
theorem scaledArr2_final (c : Dev nD) :
    (dat2 (F := Ideal) V c).arrAt 4 cfg2.N
      = scaledArr2 (V c (Pipeline.arrRef spec2 0)) (V c (Pipeline.arrRef spec2 1)) (V c (Pipeline.arrRef spec2 2)) :=
  (dat2 (F := Ideal) V c).arrAt_eq_of_cover 4 _ (fun t _ => flushed2_4_eq V c t) rows_cover2_4

/-- The array a·w read at (i, k). -/
theorem prodArr2_apply (a : S50000x128.Idx → EReal) (w : S128x128.Idx → EReal) (i : Fin 50000) (k : Fin 128) :
    prodArr2 a w (ix2 i k) = ∑ q : Fin 128, a (ix2 i q) * w (ix2 q k) := rfl

/-- The scaled array read at (i, k). -/
theorem scaledArr2_apply (a : S50000x128.Idx → EReal) (w : S128x128.Idx → EReal) (s : S50000x1.Idx → EReal) (i : Fin 50000) (k : Fin 128) :
    scaledArr2 a w s (ix2 i k) = (∑ q : Fin 128, a (ix2 i q) * w (ix2 q k)) * s (ix2 i (0 : Fin 1)) := rfl

/-- Entry (i, k) of the first output after the region: the sum over the 128 input features of a[i, q] · w[q, k]
    (the products and the sum are the extended reals'). -/
theorem hpre2_at (c : Dev nD) (i : Fin 50000) (k : Fin 128) :
    (Gen.dat2 (F := Ideal) V c).arrAt 3 cfg2.N (ix2 i k)
      = ∑ q : Fin 128, HMul.hMul (α := EReal) (β := EReal) (V c (Pipeline.arrRef spec2 0) (ix2 i q)) (V c (Pipeline.arrRef spec2 1) (ix2 q k)) :=
  congrFun (prodArr2_final V c) (ix2 i k)

/-- Entry (i, k) of the second output after the region: that sum times the scale column at row i. -/
theorem g2_at (c : Dev nD) (i : Fin 50000) (k : Fin 128) :
    (Gen.dat2 (F := Ideal) V c).arrAt 4 cfg2.N (ix2 i k)
      = HMul.hMul (α := EReal) (β := EReal)
          (∑ q : Fin 128, HMul.hMul (α := EReal) (β := EReal) (V c (Pipeline.arrRef spec2 0) (ix2 i q)) (V c (Pipeline.arrRef spec2 1) (ix2 q k)))
          (V c (Pipeline.arrRef spec2 2) (ix2 i (0 : Fin 1))) :=
  congrFun (scaledArr2_final V c) (ix2 i k)

end Region2

end Cert.KernelIdeal.DenseValue2

end
-- ==== Proof.FinalizeValue3.lean ====
import proofs.«173198_j90718299226435_2_alg».proof.Proof.Gen.KernelIdeal.Frame
import proofs.«173198_j90718299226435_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

/-!
# The combine step, index by index

The combine step takes four arrays — an aggregate `agg : [50000,128]`, a pre-activation `hpre : [50000,128]`,
a column of per-row scales `d : [50000,1]` and a row of biases `b : [1,128]` — and leaves, at row `i` and
column `k`,

  `max (d i * (agg i k + hpre i k * d i) + b k) 0`.

The rows are cut into 25 blocks of 2000; grid point `t` reads rows `2000 t … 2000 t + 1999` of `agg`, `hpre`
and `d`, the whole of `b`, and writes the same rows of the result. So entry `(i, k)` of the result depends only
on entries `(i, k)` of `agg` and `hpre`, entry `(i, 0)` of `d` and entry `(0, k)` of `b`, and the blocks
`t = i / 2000` cover every row. Every operation is the extended reals' own; no algebraic law is used, the order of
the factors and summands is the body's.
-/

noncomputable section

namespace Cert.KernelIdeal.FinalizeValue3

open Idealize.ShloMosaic Idealize.ShloMosaic.ValueIdx Idealize.ShloMosaic.TcCoe Idealize.SL.Sem
open Cert.KernelIdeal Cert.KernelIdeal.Gen
open Idealize.ShloMosaic.Pipeline (Dat)

/-! ## The body's arithmetic at one entry of a block -/

/-- The body's result at row `p`, column `q` of a block: the scale of row `p` times (the aggregate plus the
    pre-activation times the same scale), plus the bias of column `q`, clamped below at zero. The scale column is
    repeated across the columns and the bias row down the rows; the casts between equal shapes are the identity. -/
theorem scale_bias_relu_at (d : Vec Ideal S2000x1 .f32) (a h : Vec Ideal S2000x128 .f32) (b : Vec Ideal S1x128 .f32)
    (p : Fin 2000) (q : Fin 128) :
    k3_pay1 d a h b (ix2 p q)
      = max (d (ix2 p (0 : Fin 1)) * (a (ix2 p q) + h (ix2 p q) * d (ix2 p (0 : Fin 1))) + b (ix2 (0 : Fin 1) q)) 0 := by
  unfold k3_pay1
  simp only [shapeCast_self]
  rw [maximumf_apply, addf_apply, mulf_apply, addf_apply, mulf_apply, broadcast_apply,
    broadcastTo_a1_ab_apply, broadcastTo_1b_ab_apply]
  show max _ (Ideal.ofBits .f32 0x00000000#32) = _
  rw [Ideal.ofBits_zero_f32]

/-! ## The whole result as one function of the four arrays -/

/-- Entry `(i, k)` of the result, from the four arrays. -/
def combineAt (agg hpre : S50000x128.Idx → EReal) (d : S50000x1.Idx → EReal) (b : S1x128.Idx → EReal)
    (i : Fin 50000) (k : Fin 128) : EReal :=
  max (d (ix2 i (0 : Fin 1)) * (agg (ix2 i k) + hpre (ix2 i k) * d (ix2 i (0 : Fin 1))) + b (ix2 (0 : Fin 1) k)) 0

/-- The result array: `combineAt` at each index's two coordinates. -/
def combine (agg hpre : S50000x128.Idx → EReal) (d : S50000x1.Idx → EReal) (b : S1x128.Idx → EReal) :
    S50000x128.Idx → EReal :=
  fun j => combineAt agg hpre d b (j 0) (j 1)

section AtEntry

variable (V : (c : Dev nD) → (b : Ref sig .tc) → Buf (Elt Ideal) ((c : Thread nD τ).loc b))

/-! ## Where a block's entry sits in its array -/

theorem zero_offsets : (![0, 0] : Fin 2 → Nat) = fun _ => 0 := funext fun a => by fin_cases a <;> rfl

/-- The index maps over the 25 grid points: the three row-blocked inputs and the output are at block `(t, 0)`, the
    bias row at block `(0, 0)`. -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row `p`, column `q` of the aggregate's block at point `t` is entry `(2000 t + p, q)` of the aggregate. -/
theorem agg_block_at (c : Dev nD) (t : Fin cfg3.N) (p : Fin 2000) (q : Fin 128) (i : Fin 50000)
    (hi : i.val = t.val * 2000 + p.val) :
    (iblk3 V c 0 t : Vec Ideal S2000x128 .f32) (ix2 p q) = V c (Pipeline.arrRef spec3 0) (ix2 i q) := by
  obtain ⟨e0, e1, -⟩ := block_indices t
  unfold iblk3
  rw [View.read_apply]
  show V c (Pipeline.arrRef spec3 0) _ = V c (Pipeline.arrRef spec3 0) _
  refine congrArg _ ?_
  funext a
  apply Fin.ext
  match a with
  | ⟨0, _⟩ => show win3_0.index t (0 : Fin 2) * 2000 + 1 * p.val = i.val; omega
  | ⟨1, _⟩ => show win3_0.index t (1 : Fin 2) * 128 + 1 * q.val = q.val; omega

/-- The same for the pre-activation's block. -/
theorem hpre_block_at (c : Dev nD) (t : Fin cfg3.N) (p : Fin 2000) (q : Fin 128) (i : Fin 50000)
    (hi : i.val = t.val * 2000 + p.val) :
    (iblk3 V c 1 t : Vec Ideal S2000x128 .f32) (ix2 p q) = V c (Pipeline.arrRef spec3 1) (ix2 i q) := by
  obtain ⟨-, -, e0, e1, -⟩ := block_indices t
  unfold iblk3
  rw [View.read_apply]
  show V c (Pipeline.arrRef spec3 1) _ = V c (Pipeline.arrRef spec3 1) _
  refine congrArg _ ?_
  funext a
  apply Fin.ext
  match a with
  | ⟨0, _⟩ => show win3_1.index t (0 : Fin 2) * 2000 + 1 * p.val = i.val; omega
  | ⟨1, _⟩ => show win3_1.index t (1 : Fin 2) * 128 + 1 * q.val = q.val; omega

/-- Row `p` of the scale column's block at point `t` is entry `(2000 t + p, 0)` of the scale column. -/
theorem scale_block_at (c : Dev nD) (t : Fin cfg3.N) (p : Fin 2000) (i : Fin 50000)
    (hi : i.val = t.val * 2000 + p.val) :
    (iblk3 V c 2 t : Vec Ideal S2000x1 .f32) (ix2 p (0 : Fin 1)) = V c (Pipeline.arrRef spec3 2) (ix2 i (0 : Fin 1)) := by
  obtain ⟨-, -, -, -, e0, e1, -⟩ := block_indices t
  unfold iblk3
  rw [View.read_apply]
  show V c (Pipeline.arrRef spec3 2) _ = V c (Pipeline.arrRef spec3 2) _
  refine congrArg _ ?_
  funext a
  apply Fin.ext
  match a with
  | ⟨0, _⟩ => show win3_2.index t (0 : Fin 2) * 2000 + 1 * p.val = i.val; omega
  | ⟨1, _⟩ => show win3_2.index t (1 : Fin 2) * 1 + 1 * 0 = 0; omega

/-- The bias row's block at every point is the bias row itself. -/
theorem bias_block_at (c : Dev nD) (t : Fin cfg3.N) (q : Fin 128) :
    (iblk3 V c 3 t : Vec Ideal S1x128 .f32) (ix2 (0 : Fin 1) q) = V c (Pipeline.arrRef spec3 3) (ix2 (0 : Fin 1) q) := by
  obtain ⟨-, -, -, -, -, -, e0, e1, -⟩ := block_indices t
  unfold iblk3
  rw [View.read_apply]
  show V c (Pipeline.arrRef spec3 3) _ = V c (Pipeline.arrRef spec3 3) _
  refine congrArg _ ?_
  funext a
  apply Fin.ext
  match a with
  | ⟨0, _⟩ => show win3_3.index t (0 : Fin 2) * 1 + 1 * 0 = 0; omega
  | ⟨1, _⟩ => show win3_3.index t (1 : Fin 2) * 128 + 1 * q.val = q.val; omega

/-- Row `p`, column `q` of the output's block at point `t` is entry `(2000 t + p, q)` of the output. -/
theorem out_block_at (t : Fin cfg3.N) (p : Fin 2000) (q : Fin 128) (i : Fin 50000)
    (hi : i.val = t.val * 2000 + p.val) :
    ((cfg3.win 4).blk t).view.emb (ix2 p q) = (ix2 i q : S50000x128.Idx) := by
  obtain ⟨-, -, -, -, -, -, -, -, e0, e1⟩ := block_indices t
  funext a
  apply Fin.ext
  match a with
  | ⟨0, _⟩ => show win3_4.index t (0 : Fin 2) * 2000 + 1 * p.val = i.val; omega
  | ⟨1, _⟩ => show win3_4.index t (1 : Fin 2) * 128 + 1 * q.val = q.val; omega

/-! ## What a grid point writes back, and the cover -/

/-- Entry `(p, q)` of what the body leaves from the blocks at point `t` is `combine` of the four arrays at the
    entry's place in the output array. -/
theorem written_at (c : Dev nD) (t : Fin cfg3.N) (p : Fin 2000) (q : Fin 128) :
    k3_pay1 (iblk3 V c 2 t) (iblk3 V c 0 t) (iblk3 V c 1 t) (iblk3 V c 3 t) (ix2 p q)
      = combine (V c (Pipeline.arrRef spec3 0)) (V c (Pipeline.arrRef spec3 1))
          (V c (Pipeline.arrRef spec3 2)) (V c (Pipeline.arrRef spec3 3))
          (((cfg3.win 4).blk t).view.emb (ix2 p q)) := by
  have hN : cfg3.N = 25 := N_3
  have ht : t.val < 25 := by have := t.isLt; omega
  obtain ⟨i, hi⟩ : ∃ i : Fin 50000, i.val = t.val * 2000 + p.val :=
    ⟨⟨t.val * 2000 + p.val, by have := p.isLt; omega⟩, rfl⟩
  refine (scale_bias_relu_at (iblk3 V c 2 t) (iblk3 V c 0 t) (iblk3 V c 1 t) (iblk3 V c 3 t) p q).trans ?_
  rw [out_block_at t p q i hi, agg_block_at V c t p q i hi, hpre_block_at V c t p q i hi,
    scale_block_at V c t p i hi, bias_block_at V c t q]
  rfl

/-- Grid point `t` writes back block `t` of `combine` of the four arrays as the region finds them. -/
theorem flushed_eq (c : Dev nD) (t : Fin cfg3.N) :
    (dat3 (F := Ideal) V c).flushed 4 t
      = ((cfg3.win 4).blk t).view.read (Elt Ideal)
          (combine (V c (Pipeline.arrRef spec3 0)) (V c (Pipeline.arrRef spec3 1))
            (V c (Pipeline.arrRef spec3 2)) (V c (Pipeline.arrRef spec3 3))) := by
  show (cfg3.win 4).cut (grid3.coords t) ((dat3 (F := Ideal) V c).after 4 t) = _
  rw [after3_4]
  unfold out3_4
  rw [View.canon_unit_zero zero_offsets]
  simp only [View.ld_unit_zero (S := S2000x128) zero_offsets, View.ld_unit_zero (S := S2000x1) zero_offsets,
    View.ld_unit_zero (S := S1x128) zero_offsets]
  funext j
  obtain ⟨p, q, rfl⟩ : ∃ (p : Fin 2000) (q : Fin 128), j = ix2 p q := ⟨j 0, j 1, eq_ix2 j⟩
  exact written_at V c t p q

/-- An index of the output array is in point `t`'s block iff each coordinate is in the block's range on its axis. -/
theorem mem_block (t : Fin cfg3.N) (i : S50000x128.Idx) :
    i ∈ ((cfg3.win 4).blk t).view.set
      ↔ ∀ a : Fin 2, win3_4.index t a * S2000x128.size a ≤ (i a).val
          ∧ (i a).val < win3_4.index t a * S2000x128.size a + S2000x128.size a := by
  show i ∈ ((View.whole main_v45).slice (win3_4.rect t)).set ↔ _
  rw [View.set_slice_whole, Rect.mem_set_unit]
  exact Iff.rfl

/-- Every index of the output is in the block of the point its row falls in, `t = row / 2000`. -/
theorem covered (i : S50000x128.Idx) :
    ∃ t : Fin cfg3.N, (cfg3.win 4).flush t = true ∧ i ∈ ((cfg3.win 4).blk t).view.set := by
  have hN : cfg3.N = 25 := N_3
  have hi0 : (i 0).val < 50000 := (i 0).isLt
  have hi1 : (i 1).val < 128 := (i 1).isLt
  let t : Fin cfg3.N := ⟨(i 0).val / 2000, by rw [hN]; omega⟩
  have htv : t.val = (i 0).val / 2000 := rfl
  obtain ⟨-, -, -, -, -, -, -, -, e0, e1⟩ := block_indices t
  refine ⟨t, flush3_4 t, ?_⟩
  rw [mem_block]
  intro a
  match a with
  | ⟨0, _⟩ =>
    show win3_4.index t (0 : Fin 2) * 2000 ≤ (i 0).val ∧ (i 0).val < win3_4.index t (0 : Fin 2) * 2000 + 2000
    omega
  | ⟨1, _⟩ =>
    show win3_4.index t (1 : Fin 2) * 128 ≤ (i 1).val ∧ (i 1).val < win3_4.index t (1 : Fin 2) * 128 + 128
    omega

/-! ## The output array after the region -/

/-- The output array after the region is `combine` of the four arrays as the region finds them. -/
theorem out3_eq_combine (c : Dev nD) :
    (dat3 (F := Ideal) V c).arrAt 4 cfg3.N
      = combine (V c (Pipeline.arrRef spec3 0)) (V c (Pipeline.arrRef spec3 1))
          (V c (Pipeline.arrRef spec3 2)) (V c (Pipeline.arrRef spec3 3)) :=
  (dat3 (F := Ideal) V c).arrAt_eq_of_cover 4 _ (fun t _ => flushed_eq V c t) covered

/-- Entry `(i, k)` of the output after the region, the four arrays the region finds named `agg`, `hpre`, `d`, `b`:
    the scale of row `i` times (the aggregate plus the pre-activation times that scale), plus the bias of column `k`,
    clamped below at zero. -/
theorem out3_at (c : Dev nD) (agg hpre : S50000x128.Idx → EReal) (d : S50000x1.Idx → EReal) (b : S1x128.Idx → EReal)
    (hagg : V c (Pipeline.arrRef spec3 0) = agg) (hhpre : V c (Pipeline.arrRef spec3 1) = hpre)
    (hd : V c (Pipeline.arrRef spec3 2) = d) (hb : V c (Pipeline.arrRef spec3 3) = b)
    (i : Fin 50000) (k : Fin 128) :
    @Eq EReal ((Gen.dat3 (F := Ideal) V c).arrAt 4 cfg3.N (ix2 i k))
      (max (d (ix2 i (0 : Fin 1)) * (agg (ix2 i k) + hpre (ix2 i k) * d (ix2 i (0 : Fin 1))) + b (ix2 (0 : Fin 1) k)) 0) := by
  subst hagg hhpre hd hb
  exact congrFun (out3_eq_combine V c) (ix2 i k)

end AtEntry

end Cert.KernelIdeal.FinalizeValue3

end
-- ==== Proof.ChainLayer2.lean ====
/-
  The second aggregation round of the kernel program: the node features after the fourth region.

  Region 2 projects the first round's features, `hpre = p1 · W2`, and scales each row by the degree factor; the host
  aggregates; region 3 combines. The result is the specification's round of the table `p1 · W2` with bias `b2`.
-/
import proofs.«173198_j90718299226435_2_alg».proof.Proof.ChainLayer1
import proofs.«173198_j90718299226435_2_alg».proof.Proof.DenseValue2
import proofs.«173198_j90718299226435_2_alg».proof.Proof.FinalizeValue3

noncomputable section

namespace Cert.KernelIdeal.Chain

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (ρ : Dev nD → PrngReg) (c : Dev nD)

abbrev w2Arr : S128x128.Idx → EReal := m ((c : Thread nD τ).loc main_arg3)
abbrev b2Arr : S128.Idx → EReal := m ((c : Thread nD τ).loc main_arg4)

/-- The second projection and its row-scaled copy. -/
def hpre2 : S50000x128.Idx → EReal := DenseValue2.prodArr2 (p1Arr m ρ c) (w2Arr m c)
def g2 : S50000x128.Idx → EReal := DenseValue2.scaledArr2 (p1Arr m ρ c) (w2Arr m c) (dcolArr m c)

/-! ### Region 2 -/

theorem V7_p : V7 m ρ c (Pipeline.arrRef spec2 0) = p1Arr m ρ c := W7_p1 m ρ c
theorem V7_w : V7 m ρ c (Pipeline.arrRef spec2 1) = w2Arr m c := W7_arg3 m ρ c
theorem V7_d : V7 m ρ c (Pipeline.arrRef spec2 2) = dcolArr m c :=
  read_col30 (W6 m ρ c) _ ((W6_v13 m ρ c).trans (dinvA_eq m ρ c))

theorem W8_hpre : W8 m ρ c (Proc.devRef .tc main_v31_0) = hpre2 m ρ c :=
  (W8_arr m ρ c 3).trans ((DenseValue2.prodArr2_final (V7 m ρ) c).trans
    (congrArg₂ DenseValue2.prodArr2 (V7_p m ρ c) (V7_w m ρ c)))

theorem W8_g : W8 m ρ c (Proc.devRef .tc main_v31_1) = g2 m ρ c :=
  (W8_arr m ρ c 4).trans ((DenseValue2.scaledArr2_final (V7 m ρ) c).trans
    (by unfold g2; rw [V7_p m ρ c, V7_w m ρ c, V7_d m ρ c]))

/-! ### The stretch between regions 2 and 3 -/

theorem V9_agg : V9 m ρ c (Pipeline.arrRef spec3 0) = aggOf (dstWords m c) (srcWords m c) (g2 m ρ c) :=
  read_agg42 (W8 m ρ c) _ _ _ ((W8_v3 m ρ c).trans (dstA_eq m ρ c)) ((W8_v1 m ρ c).trans (srcA_eq m ρ c)) (W8_g m ρ c)
theorem V9_hpre : V9 m ρ c (Pipeline.arrRef spec3 1) = hpre2 m ρ c := (W9_hpre m ρ c).trans (W8_hpre m ρ c)
theorem V9_d : V9 m ρ c (Pipeline.arrRef spec3 2) = dcolArr m c :=
  read_col43 (W8 m ρ c) _ ((W8_v13 m ρ c).trans (dinvA_eq m ρ c))
theorem V9_b : V9 m ρ c (Pipeline.arrRef spec3 3) = shapeCast S1x128 (b2Arr m c) shapeCasts_S128_S1x128 :=
  read_bias44 (W8 m ρ c) _ (W8_arg4 m ρ c)

/-! ### Region 3: the second round's node features -/

/-- The node features after the second round. -/
def p2Arr : S50000x128.Idx → EReal := W10 m ρ c (Proc.devRef .tc main_v45)

theorem g2_at (i : Fin 50000) (k : Fin 128) : g2 m ρ c (ix2 i k) = hpre2 m ρ c (ix2 i k) * dinvArr (dstWords m c) (ix1 i) := by
  unfold g2 hpre2
  rw [DenseValue2.scaledArr2_apply, DenseValue2.prodArr2_apply]
  unfold dcolArr
  rw [dcol_at]

theorem p2Arr_at (i : Fin 50000) (k : Fin 128) :
    p2Arr m ρ c (ix2 i k)
      = Cert.Gcn.layer (srcW m c) (dstW m c) (fun i c' => ∑ q : Fin 128, p1Arr m ρ c (ix2 i q) * w2Arr m c (ix2 q c'))
          (fun c' => b2Arr m c (ix1 c')) i k := by
  have h10 : p2Arr m ρ c = (dat3 (F := Ideal) (V9 m ρ) c).arrAt 4 cfg3.N := W10_arr m ρ c 4
  rw [h10]
  refine (FinalizeValue3.out3_at (V9 m ρ) c _ _ _ _ (V9_agg m ρ c) (V9_hpre m ρ c) (V9_d m ρ c) (V9_b m ρ c) i k).trans ?_
  unfold dcolArr
  refine (round_at (dstWords m c) (srcWords m c) (hpre2 m ρ c) (g2 m ρ c) (b2Arr m c) (g2_at m ρ c) i k).trans ?_
  rw [srcWords_fun, dstWords_fun]
  rfl

end Cert.KernelIdeal.Chain

end
-- ==== Proof.EdgeValue.lean ====
/-
  The edge network's region (the fifth and last kernel region): its result array after the region, entry by entry, as a
  function of the seven arrays the region finds on entry.

  For an edge `e` and an output column `j` the region leaves

      max ( ∑_q  max ( ∑_p ES[e,p]·W1A[p,q] + ∑_p ED[e,p]·W1B[p,q] + BL1[0,q] , 0 ) · W2[q,j]  +  BL2[0,j] , 0 )

  over the extended reals, where ES and ED are the [800000,128] arrays of the edges' source and destination rows, W1A and
  W1B the two [128,128] halves of the first layer, BL1 its [1,128] bias, W2 the [128,2] second layer and BL2 its [1,2] bias.

  The road: the two contractions' index maps coordinate by coordinate; the body's stored value read at an index (the
  hidden layer first, then the second layer over it: every contraction into the zero accumulator is a plain sum, a
  narrowing of format is the identity, the zero word is the extended real 0); each window's block at a grid point as rows
  of its array (the two edge windows and the output window at block row `t`, the five parameter windows whole); what a
  point writes back is its block of one whole-array function; the blocks cover the array (row `r` lies in point
  `r / 8000`'s block); so the array ends holding that function.
-/
import proofs.«173198_j90718299226435_2_alg».proof.Proof.Gen.KernelIdeal.Frame
import proofs.«173198_j90718299226435_2_alg».proof.Proof.LibSplitContraction
import Idealize.ShloMosaic.Lib.Pipeline.Value
import Idealize.ShloMosaic.Lib.ValueIdx
import Idealize.ShloMosaic.Lib.ValueLayout

noncomputable section

namespace Cert.KernelIdeal.EdgeValue

open Idealize.ShloMosaic Idealize.ShloMosaic.ValueIdx Idealize.ShloMosaic.TcCoe
open Cert.KernelIdeal Cert.KernelIdeal.Gen
open Idealize.ShloMosaic.Pipeline (Dat)

/-! ## The two contractions' dimension records, coordinate by coordinate

Both contract the left operand's axis 1 against the right operand's axis 0: at output index `(r, c)` and contraction
index `k` the left operand is read at `(r, k)` and the right one at `(k, c)`. -/

theorem hid_lhs0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide),
    dif_pos (show (0 : Fin S8000x128.rank) ∈ dot_S8000x128_S128x128_S8000x128_1_0_0_1_n_n.lhsNonContracting by decide)]
  rfl
theorem hid_lhs1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
theorem hid_rhs0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
theorem hid_rhs1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide),
    dif_pos (show (1 : Fin S128x128.rank) ∈ dot_S8000x128_S128x128_S8000x128_1_0_0_1_n_n.rhsNonContracting by decide)]
  rfl

theorem out_lhs0 (i : S8000x2.Idx) (q : dot_S8000x128_S128x2_S8000x2_1_0_0_1_n_n.contr.Idx) :
    (dot_S8000x128_S128x2_S8000x2_1_0_0_1_n_n.lhsIdx i q 0).val = (i 0).val := by
  unfold DotDims.lhsIdx
  rw [dif_neg (show ¬(0 : Fin S8000x128.rank) ∈ dot_S8000x128_S128x2_S8000x2_1_0_0_1_n_n.lhsBatch by decide),
    dif_pos (show (0 : Fin S8000x128.rank) ∈ dot_S8000x128_S128x2_S8000x2_1_0_0_1_n_n.lhsNonContracting by decide)]
  rfl
theorem out_lhs1 (i : S8000x2.Idx) (q : dot_S8000x128_S128x2_S8000x2_1_0_0_1_n_n.contr.Idx) :
    (dot_S8000x128_S128x2_S8000x2_1_0_0_1_n_n.lhsIdx i q 1).val = (q ⟨0, by decide⟩).val :=
  dot_S8000x128_S128x2_S8000x2_1_0_0_1_n_n.lhsIdx_val_of_single rfl i q
theorem out_rhs0 (i : S8000x2.Idx) (q : dot_S8000x128_S128x2_S8000x2_1_0_0_1_n_n.contr.Idx) :
    (dot_S8000x128_S128x2_S8000x2_1_0_0_1_n_n.rhsIdx i q 0).val = (q ⟨0, by decide⟩).val :=
  dot_S8000x128_S128x2_S8000x2_1_0_0_1_n_n.rhsIdx_val_of_single rfl i q
theorem out_rhs1 (i : S8000x2.Idx) (q : dot_S8000x128_S128x2_S8000x2_1_0_0_1_n_n.contr.Idx) :
    (dot_S8000x128_S128x2_S8000x2_1_0_0_1_n_n.rhsIdx i q 1).val = (i 1).val := by
  unfold DotDims.rhsIdx
  rw [dif_neg (show ¬(1 : Fin S128x2.rank) ∈ dot_S8000x128_S128x2_S8000x2_1_0_0_1_n_n.rhsBatch by decide),
    dif_pos (show (1 : Fin S128x2.rank) ∈ dot_S8000x128_S128x2_S8000x2_1_0_0_1_n_n.rhsNonContracting by decide)]
  rfl

/-- A product of an [8000,128] block with a [128,128] matrix into the zero accumulator, read at `(p, q)`: the sum over
    the contracted axis. -/
theorem hid_matmul_at (l : FVec Ideal S8000x128 .bf16) (r : FVec Ideal S128x128 .bf16) (p : Fin 8000) (q : Fin 128) :
    FloatOps.matmul dot_S8000x128_S128x128_S8000x128_1_0_0_1_n_n none l r (constant (F := Ideal) S8000x128 .f32 0x00000000#32) (ix2 p q)
      = ∑ k : Fin 128, l (ix2 p k) * r (ix2 k q) :=
  Cert.Lib.SplitContraction.matmul_zero_at (n := 8000) (K := 128) (d := 128) dot_S8000x128_S128x128_S8000x128_1_0_0_1_n_n rfl rfl
    hid_lhs0 hid_lhs1 hid_rhs0 hid_rhs1 none l r p q

/-- A product of an [8000,128] block with a [128,2] matrix into the zero accumulator, read at `(p, j)`. -/
theorem out_matmul_at (l : FVec Ideal S8000x128 .bf16) (r : FVec Ideal S128x2 .bf16) (p : Fin 8000) (j : Fin 2) :
    FloatOps.matmul dot_S8000x128_S128x2_S8000x2_1_0_0_1_n_n none l r (constant (F := Ideal) S8000x2 .f32 0x00000000#32) (ix2 p j)
      = ∑ q : Fin 128, l (ix2 p q) * r (ix2 q j) :=
  Cert.Lib.SplitContraction.matmul_zero_at (n := 8000) (K := 128) (d := 2) dot_S8000x128_S128x2_S8000x2_1_0_0_1_n_n rfl rfl
    out_lhs0 out_lhs1 out_rhs0 out_rhs1 none l r p j

/-! ## The body's arithmetic at an index -/

/-- The hidden layer of the block: the two products added, the bias row added to every row, the maximum with zero,
    narrowed to the second product's operand format. -/
def hidden (x0 x1 : FVec Ideal S8000x128 .bf16) (x2 x3 : FVec Ideal S128x128 .bf16) (x4 : FVec Ideal S1x128 .f32) :
    FVec Ideal S8000x128 .bf16 :=
  truncf .bf16 (maximumf (addf (addf
      (matmul dot_S8000x128_S128x128_S8000x128_1_0_0_1_n_n none (shapeCast S8000x128 x0 shapeCasts_S8000x128_S8000x128)
        (shapeCast S128x128 x2 shapeCasts_S128x128_S128x128) (constant S8000x128 .f32 0x00000000#32))
      (matmul dot_S8000x128_S128x128_S8000x128_1_0_0_1_n_n none (shapeCast S8000x128 x1 shapeCasts_S8000x128_S8000x128)
        (shapeCast S128x128 x3 shapeCasts_S128x128_S128x128) (constant S8000x128 .f32 0x00000000#32)))
      (broadcastTo S8000x128 (shapeCast S1x128 x4 shapeCasts_S1x128_S1x128) broadcasts_S1x128_S8000x128))
    (broadcast S8000x128 (Scalar.ofBits .f32 0x00000000#32))) bitsLt_bf16_f32

/-- The body's stored value is the second layer over the hidden one. -/
theorem pay_eq (x0 x1 : FVec Ideal S8000x128 .bf16) (x2 x3 : FVec Ideal S128x128 .bf16) (x4 : FVec Ideal S1x128 .f32)
    (x5 : FVec Ideal S128x2 .bf16) (x6 : FVec Ideal S1x2 .f32) :
    k4_pay1 x0 x1 x2 x3 x4 x5 x6
      = maximumf (addf
          (matmul dot_S8000x128_S128x2_S8000x2_1_0_0_1_n_n none (hidden x0 x1 x2 x3 x4)
            (shapeCast S128x2 x5 shapeCasts_S128x2_S128x2) (constant S8000x2 .f32 0x00000000#32))
          (broadcastTo S8000x2 (shapeCast S1x2 x6 shapeCasts_S1x2_S1x2) broadcasts_S1x2_S8000x2))
        (broadcast S8000x2 (Scalar.ofBits .f32 0x00000000#32)) := rfl

/-- The zero word a maximum is taken against is the extended real `0`. -/
theorem zero_word : (Scalar.ofBits (F := Ideal) .f32 0x00000000#32 : Ideal .f32) = (0 : EReal) := Ideal.ofBits_zero_f32

/-- The hidden layer at row `p`, unit `q`. -/
theorem hidden_at (x0 x1 : FVec Ideal S8000x128 .bf16) (x2 x3 : FVec Ideal S128x128 .bf16) (x4 : FVec Ideal S1x128 .f32)
    (p : Fin 8000) (q : Fin 128) :
    (hidden x0 x1 x2 x3 x4 (ix2 p q) : EReal)
      = max (((∑ k : Fin 128, x0 (ix2 p k) * x2 (ix2 k q)) + (∑ k : Fin 128, x1 (ix2 p k) * x3 (ix2 k q)))
          + x4 (ix2 (0 : Fin 1) q)) 0 := by
  unfold hidden
  rw [truncf_apply, maximumf_apply, addf_apply, addf_apply, broadcast_apply, zero_word]
  refine congrArg₂ max (congrArg₂ (· + ·) (congrArg₂ (· + ·) ?_ ?_) ?_) rfl
  · exact (hid_matmul_at _ _ p q).trans (by simp only [shapeCast_self])
  · exact (hid_matmul_at _ _ p q).trans (by simp only [shapeCast_self])
  · exact (broadcastTo_1b_ab_apply _ _ p q).trans (by rw [shapeCast_self])

/-- The stored value at row `p`, column `j`. -/
theorem pay_at (x0 x1 : FVec Ideal S8000x128 .bf16) (x2 x3 : FVec Ideal S128x128 .bf16) (x4 : FVec Ideal S1x128 .f32)
    (x5 : FVec Ideal S128x2 .bf16) (x6 : FVec Ideal S1x2 .f32) (p : Fin 8000) (j : Fin 2) :
    (k4_pay1 (F := Ideal) x0 x1 x2 x3 x4 x5 x6 (ix2 p j) : EReal)
      = max ((∑ q : Fin 128,
                max (((∑ k : Fin 128, x0 (ix2 p k) * x2 (ix2 k q)) + (∑ k : Fin 128, x1 (ix2 p k) * x3 (ix2 k q)))
                  + x4 (ix2 (0 : Fin 1) q)) 0 * x5 (ix2 q j))
             + x6 (ix2 (0 : Fin 1) j)) 0 := by
  rw [pay_eq, maximumf_apply, addf_apply, broadcast_apply, zero_word]
  refine congrArg₂ max (congrArg₂ (· + ·) ?_ ?_) rfl
  · refine (out_matmul_at _ _ p j).trans (Finset.sum_congr rfl fun q _ => ?_)
    rw [hidden_at, shapeCast_self]
  · exact (broadcastTo_1b_ab_apply _ _ p j).trans (by rw [shapeCast_self])

/-! ## The result array as one function of the entry arrays -/

/-- The edge network's output for edge `e`, column `j`: the source and destination rows of the edge through their
    halves of the first layer, the first bias, the maximum with zero, the second layer, the second bias, the maximum
    with zero. -/
def edgeAt (ES ED : S800000x128.Idx → EReal) (W1A W1B : S128x128.Idx → EReal) (BL1 : S1x128.Idx → EReal)
    (W2 : S128x2.Idx → EReal) (BL2 : S1x2.Idx → EReal) (e : Fin 800000) (j : Fin 2) : EReal :=
  max ((∑ q : Fin 128,
          max (((∑ p : Fin 128, ES (ix2 e p) * W1A (ix2 p q)) + (∑ p : Fin 128, ED (ix2 e p) * W1B (ix2 p q)))
            + BL1 (ix2 (0 : Fin 1) q)) 0
            * W2 (ix2 q j))
       + BL2 (ix2 (0 : Fin 1) j)) 0

/-- The whole [800000,2] array of those outputs. -/
def edgeOut (ES ED : S800000x128.Idx → EReal) (W1A W1B : S128x128.Idx → EReal) (BL1 : S1x128.Idx → EReal)
    (W2 : S128x2.Idx → EReal) (BL2 : S1x2.Idx → EReal) : S800000x2.Idx → EReal :=
  fun i => edgeAt ES ED W1A W1B BL1 W2 BL2 (i 0) (i 1)

/-- The output for edge `e`, column `j`, written out. -/
theorem edgeAt_eq (ES ED : S800000x128.Idx → EReal) (W1A W1B : S128x128.Idx → EReal) (BL1 : S1x128.Idx → EReal)
    (W2 : S128x2.Idx → EReal) (BL2 : S1x2.Idx → EReal) (e : Fin 800000) (j : Fin 2) :
    edgeAt ES ED W1A W1B BL1 W2 BL2 e j
      = max ((∑ q : Fin 128,
                max (((∑ p : Fin 128, ES (ix2 e p) * W1A (ix2 p q)) + (∑ p : Fin 128, ED (ix2 e p) * W1B (ix2 p q)))
                  + BL1 (ix2 (0 : Fin 1) q)) 0
                  * W2 (ix2 q j))
             + BL2 (ix2 (0 : Fin 1) j)) 0 := rfl

/-- One grid point's stored value at row `p` of its block is the network's output for the edge `r` whose rows of the two
    edge arrays the point's blocks hold at `p`, the five parameter blocks being the parameter arrays. -/
theorem point_eq (x0 x1 : FVec Ideal S8000x128 .bf16) (x2 x3 : FVec Ideal S128x128 .bf16) (x4 : FVec Ideal S1x128 .f32)
    (x5 : FVec Ideal S128x2 .bf16) (x6 : FVec Ideal S1x2 .f32)
    (ES ED : S800000x128.Idx → EReal) (W1A W1B : S128x128.Idx → EReal) (BL1 : S1x128.Idx → EReal)
    (W2 : S128x2.Idx → EReal) (BL2 : S1x2.Idx → EReal) (p : Fin 8000) (r : Fin 800000) (j : Fin 2)
    (h0 : ∀ k : Fin 128, x0 (ix2 p k) = ES (ix2 r k)) (h1 : ∀ k : Fin 128, x1 (ix2 p k) = ED (ix2 r k))
    (h2 : x2 = W1A) (h3 : x3 = W1B) (h4 : x4 = BL1) (h5 : x5 = W2) (h6 : x6 = BL2) :
    (k4_pay1 (F := Ideal) x0 x1 x2 x3 x4 x5 x6 (ix2 p j) : EReal) = edgeAt ES ED W1A W1B BL1 W2 BL2 r j := by
  subst h2 h3 h4 h5 h6
  rw [pay_at]
  unfold edgeAt
  simp only [h0, h1]

/-! ## From the blocks to the array -/

section Blocks

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the two edge windows and the output window sit at block row `t` at point `t`, the five
    parameter windows at block (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- Row `p` of the source-row window's block at point `t` is row `8000 t + p` of its array. -/
theorem es_blk (c : Dev nD) (t : Fin cfg4.N) (p : Fin 8000) (r : Fin 800000) (hr : r.val = t.val * 8000 + p.val) (k : Fin 128) :
    (iblk4 V c 0 t : S8000x128.Idx → EReal) (ix2 p k) = (V c (Pipeline.arrRef spec4 0) : S800000x128.Idx → EReal) (ix2 r k) := by
  obtain ⟨e0, e1, -⟩ := idx_facts t
  show (V c (Pipeline.arrRef spec4 0) : S800000x128.Idx → EReal) (((cfg4.win 0).blk t).view.emb (ix2 p k)) = _
  refine congrArg _ (funext fun a => Fin.ext ?_)
  match a with
  | ⟨0, _⟩ => show win4_0.index t (0 : Fin 2) * 8000 + 1 * p.val = r.val; omega
  | ⟨1, _⟩ => show win4_0.index t (1 : Fin 2) * 128 + 1 * k.val = k.val; omega

/-- The same for the destination-row window. -/
theorem ed_blk (c : Dev nD) (t : Fin cfg4.N) (p : Fin 8000) (r : Fin 800000) (hr : r.val = t.val * 8000 + p.val) (k : Fin 128) :
    (iblk4 V c 1 t : S8000x128.Idx → EReal) (ix2 p k) = (V c (Pipeline.arrRef spec4 1) : S800000x128.Idx → EReal) (ix2 r k) := by
  obtain ⟨-, -, e0, e1, -⟩ := idx_facts t
  show (V c (Pipeline.arrRef spec4 1) : S800000x128.Idx → EReal) (((cfg4.win 1).blk t).view.emb (ix2 p k)) = _
  refine congrArg _ (funext fun a => Fin.ext ?_)
  match a with
  | ⟨0, _⟩ => show win4_1.index t (0 : Fin 2) * 8000 + 1 * p.val = r.val; omega
  | ⟨1, _⟩ => show win4_1.index t (1 : Fin 2) * 128 + 1 * k.val = k.val; omega

/-- Each parameter window's block, at every point, is its whole array. -/
theorem w1a_blk (c : Dev nD) (t : Fin cfg4.N) :
    (iblk4 V c 2 t : S128x128.Idx → EReal) = (V c (Pipeline.arrRef spec4 2) : S128x128.Idx → EReal) := by
  obtain ⟨-, -, -, -, e0, e1, -⟩ := idx_facts t
  funext y
  show (V c (Pipeline.arrRef spec4 2) : S128x128.Idx → EReal) (((cfg4.win 2).blk t).view.emb y) = _
  refine congrArg _ (funext fun a => Fin.ext ?_)
  match a with
  | ⟨0, _⟩ => show win4_2.index t (0 : Fin 2) * 128 + 1 * (y 0).val = (y 0).val; omega
  | ⟨1, _⟩ => show win4_2.index t (1 : Fin 2) * 128 + 1 * (y 1).val = (y 1).val; omega
theorem w1b_blk (c : Dev nD) (t : Fin cfg4.N) :
    (iblk4 V c 3 t : S128x128.Idx → EReal) = (V c (Pipeline.arrRef spec4 3) : S128x128.Idx → EReal) := by
  obtain ⟨-, -, -, -, -, -, e0, e1, -⟩ := idx_facts t
  funext y
  show (V c (Pipeline.arrRef spec4 3) : S128x128.Idx → EReal) (((cfg4.win 3).blk t).view.emb y) = _
  refine congrArg _ (funext fun a => Fin.ext ?_)
  match a with
  | ⟨0, _⟩ => show win4_3.index t (0 : Fin 2) * 128 + 1 * (y 0).val = (y 0).val; omega
  | ⟨1, _⟩ => show win4_3.index t (1 : Fin 2) * 128 + 1 * (y 1).val = (y 1).val; omega
theorem bl1_blk (c : Dev nD) (t : Fin cfg4.N) :
    (iblk4 V c 4 t : S1x128.Idx → EReal) = (V c (Pipeline.arrRef spec4 4) : S1x128.Idx → EReal) := by
  obtain ⟨-, -, -, -, -, -, -, -, e0, e1, -⟩ := idx_facts t
  funext y
  show (V c (Pipeline.arrRef spec4 4) : S1x128.Idx → EReal) (((cfg4.win 4).blk t).view.emb y) = _
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 128 + 1 * (y 1).val = (y 1).val; omega
theorem w2_blk (c : Dev nD) (t : Fin cfg4.N) :
    (iblk4 V c 5 t : S128x2.Idx → EReal) = (V c (Pipeline.arrRef spec4 5) : S128x2.Idx → EReal) := by
  obtain ⟨-, -, -, -, -, -, -, -, -, -, e0, e1, -⟩ := idx_facts t
  funext y
  show (V c (Pipeline.arrRef spec4 5) : S128x2.Idx → EReal) (((cfg4.win 5).blk t).view.emb y) = _
  refine congrArg _ (funext fun a => Fin.ext ?_)
  match a with
  | ⟨0, _⟩ => show win4_5.index t (0 : Fin 2) * 128 + 1 * (y 0).val = (y 0).val; omega
  | ⟨1, _⟩ => show win4_5.index t (1 : Fin 2) * 2 + 1 * (y 1).val = (y 1).val; omega
theorem bl2_blk (c : Dev nD) (t : Fin cfg4.N) :
    (iblk4 V c 6 t : S1x2.Idx → EReal) = (V c (Pipeline.arrRef spec4 6) : S1x2.Idx → EReal) := by
  obtain ⟨-, -, -, -, -, -, -, -, -, -, -, -, e0, e1, -⟩ := idx_facts t
  funext y
  show (V c (Pipeline.arrRef spec4 6) : S1x2.Idx → EReal) (((cfg4.win 6).blk t).view.emb y) = _
  refine congrArg _ (funext fun a => Fin.ext ?_)
  match a with
  | ⟨0, _⟩ => show win4_6.index t (0 : Fin 2) * 1 + 1 * (y 0).val = (y 0).val; omega
  | ⟨1, _⟩ => show win4_6.index t (1 : Fin 2) * 2 + 1 * (y 1).val = (y 1).val; omega

/-- The network's outputs as a function of the seven entry arrays of the region. -/
abbrev result (c : Dev nD) : S800000x2.Idx → EReal :=
  edgeOut (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5)) (V c (Pipeline.arrRef spec4 6))

/-- What point `t` writes back is block `t` of that function. -/
theorem flushed_eq (c : Dev nD) (t : Fin cfg4.N) :
    (dat4 (F := Ideal) V c).flushed 7 t = ((cfg4.win 7).blk t).view.read (Elt Ideal) (result V c) := by
  show (cfg4.win 7).cut (grid4.coords t) ((dat4 V c).after 7 t) = _
  rw [after4_7]
  unfold out4_7
  rw [View.canon_unit_zero hz]
  simp only [View.ld_unit_zero (S := S8000x128) hz, View.ld_unit_zero (S := S128x128) hz, View.ld_unit_zero (S := S1x128) hz,
    View.ld_unit_zero (S := S128x2) hz, View.ld_unit_zero (S := S1x2) hz]
  have hN : cfg4.N = 100 := N_4
  have ht : t.val < 100 := hN ▸ t.isLt
  obtain ⟨-, -, -, -, -, -, -, -, -, -, -, -, -, -, e0, e1⟩ := idx_facts t
  funext y
  obtain ⟨p, j, rfl⟩ : ∃ (p : Fin 8000) (j : Fin 2), y = ix2 p j := ⟨y 0, y 1, eq_ix2 y⟩
  obtain ⟨r, hr⟩ : ∃ r : Fin 800000, r.val = t.val * 8000 + p.val := ⟨⟨t.val * 8000 + p.val, by have := p.isLt; omega⟩, rfl⟩
  have hrow : (((cfg4.win 7).blk t).view.emb (ix2 p j) : S800000x2.Idx) = ix2 r j := funext fun a => Fin.ext (by
    match a with
    | ⟨0, _⟩ => show win4_7.index t (0 : Fin 2) * 8000 + 1 * p.val = r.val; omega
    | ⟨1, _⟩ => show win4_7.index t (1 : Fin 2) * 2 + 1 * j.val = j.val; omega)
  show (k4_pay1 (F := Ideal) (iblk4 V c 0 t) (iblk4 V c 1 t) (iblk4 V c 2 t) (iblk4 V c 3 t) (iblk4 V c 4 t) (iblk4 V c 5 t) (iblk4 V c 6 t) (ix2 p j) : EReal)
    = result V c (((cfg4.win 7).blk t).view.emb (ix2 p j))
  rw [hrow]
  exact point_eq _ _ _ _ _ _ _ _ _ _ _ _ _ _ p r j (es_blk V c t p r hr) (ed_blk V c t p r hr)
    (w1a_blk V c t) (w1b_blk V c t) (bl1_blk V c t) (w2_blk V c t) (bl2_blk V c t)

/-- An index of the result array is in point `t`'s block iff each coordinate is in the block's range on its axis. -/
theorem mem_blk (t : Fin cfg4.N) (i : S800000x2.Idx) :
    i ∈ ((cfg4.win 7).blk t).view.set ↔ ∀ a : Fin 2, win4_7.index t a * S8000x2.size a ≤ (i a).val ∧ (i a).val < win4_7.index t a * S8000x2.size a + S8000x2.size a := by
  show i ∈ ((View.whole main_v68).slice (win4_7.rect t)).set ↔ _
  rw [View.set_slice_whole, Rect.mem_set_unit]
  exact Iff.rfl

/-- Every index of the result array is in the block of the point its row falls in: row `r` in point `r / 8000`'s. -/
theorem covered (i : S800000x2.Idx) : ∃ t : Fin cfg4.N, (cfg4.win 7).flush t = true ∧ i ∈ ((cfg4.win 7).blk t).view.set := by
  have hN : cfg4.N = 100 := N_4
  have hi0 : (i 0).val < 800000 := (i 0).isLt
  have hi1 : (i 1).val < 2 := (i 1).isLt
  obtain ⟨t, ht⟩ : ∃ t : Fin cfg4.N, t.val = (i 0).val / 8000 := ⟨⟨(i 0).val / 8000, by rw [hN]; omega⟩, rfl⟩
  obtain ⟨-, -, -, -, -, -, -, -, -, -, -, -, -, -, e0, e1⟩ := idx_facts t
  refine ⟨t, flush4_7 t, ?_⟩
  rw [mem_blk]
  intro a
  match a with
  | ⟨0, _⟩ => show win4_7.index t (0 : Fin 2) * 8000 ≤ (i 0).val ∧ (i 0).val < win4_7.index t (0 : Fin 2) * 8000 + 8000; omega
  | ⟨1, _⟩ => show win4_7.index t (1 : Fin 2) * 2 ≤ (i 1).val ∧ (i 1).val < win4_7.index t (1 : Fin 2) * 2 + 2; omega

/-- The result array after the region is that function of the entry arrays. -/
theorem out4_eq (c : Dev nD) : (dat4 (F := Ideal) V c).arrAt 7 cfg4.N = result V c :=
  (dat4 (F := Ideal) V c).arrAt_eq_of_cover 7 (result V c) (fun t _ => flushed_eq V c t) covered

/-- The result array after the region, entry by entry: the network's output for edge `e`, column `j`, of the seven entry
    arrays (`edgeAt_eq` spells the right-hand side out). -/
theorem out4_at (c : Dev nD) (e : Fin 800000) (j : Fin 2) :
    (Gen.dat4 (F := Ideal) V c).arrAt 7 cfg4.N (ix2 e j)
      = edgeAt (V c (Pipeline.arrRef spec4 0)) (V c (Pipeline.arrRef spec4 1)) (V c (Pipeline.arrRef spec4 2))
          (V c (Pipeline.arrRef spec4 3)) (V c (Pipeline.arrRef spec4 4)) (V c (Pipeline.arrRef spec4 5))
          (V c (Pipeline.arrRef spec4 6)) e j := by
  rw [out4_eq]
  rfl

end Blocks

end Cert.KernelIdeal.EdgeValue

end
-- ==== Proof.ChainMlp.lean ====
/-
  The kernel program's result at an index.

  The last stretch gathers the second round's node features at every edge's source and target, splits the first
  perceptron weight into its two halves of 128 rows and re-lays the biases as rows; the fifth region applies the
  perceptron edge by edge. With the two rounds read as the specification's rounds, the result buffer at edge `e`, class
  `j` is the specification's `out` of the argument arrays.
-/
import proofs.«173198_j90718299226435_2_alg».proof.Proof.ChainLayer2
import proofs.«173198_j90718299226435_2_alg».proof.Proof.EdgeValue

noncomputable section

namespace Cert.KernelIdeal.Chain

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (ρ : Dev nD → PrngReg) (c : Dev nD)

abbrev wl1Arr : S256x128.Idx → EReal := m ((c : Thread nD τ).loc main_arg5)
abbrev bl1Arr : S128.Idx → EReal := m ((c : Thread nD τ).loc main_arg6)
abbrev wl2Arr : S128x2.Idx → EReal := m ((c : Thread nD τ).loc main_arg7)
abbrev bl2Arr : S2.Idx → EReal := m ((c : Thread nD τ).loc main_arg8)

/-! ### The stretch before region 4 -/

theorem V11_es : V11 m ρ c (Pipeline.arrRef spec4 0) = gatherRows (srcWords m c) (p2Arr m ρ c) :=
  read_es53 (W10 m ρ c) _ _ ((W10_v1 m ρ c).trans (srcA_eq m ρ c)) rfl
theorem V11_ed : V11 m ρ c (Pipeline.arrRef spec4 1) = gatherRows (dstWords m c) (p2Arr m ρ c) :=
  read_ed60 (W10 m ρ c) _ _ ((W10_v3 m ρ c).trans (dstA_eq m ρ c)) rfl
theorem V11_w1a : V11 m ρ c (Pipeline.arrRef spec4 2) = extractStridedSlice S128x128 ![0, 0] (wl1Arr m c) slices_S256x128_S128x128_0_0 :=
  read_w1a62 (W10 m ρ c) _ (W10_arg5 m ρ c)
theorem V11_w1b : V11 m ρ c (Pipeline.arrRef spec4 3) = extractStridedSlice S128x128 ![128, 0] (wl1Arr m c) slices_S256x128_S128x128_128_0 :=
  read_w1b64 (W10 m ρ c) _ (W10_arg5 m ρ c)
theorem V11_bl1 : V11 m ρ c (Pipeline.arrRef spec4 4) = shapeCast S1x128 (bl1Arr m c) shapeCasts_S128_S1x128 :=
  read_bl1_66 (W10 m ρ c) _ (W10_arg6 m ρ c)
theorem V11_w2 : V11 m ρ c (Pipeline.arrRef spec4 5) = wl2Arr m c :=
  read_w2_65 (W10 m ρ c) _ (W10_arg7 m ρ c)
theorem V11_bl2 : V11 m ρ c (Pipeline.arrRef spec4 6) = shapeCast S1x2 (bl2Arr m c) shapeCasts_S2_S1x2 :=
  read_bl2_67 (W10 m ρ c) _ (W10_arg8 m ρ c)

/-! ### The two rounds as one table -/

/-- The first round's features as a function of node and feature. -/
theorem p1_fun : (fun (i : Fin 50000) (q : Fin 128) => p1Arr m ρ c (ix2 i q))
    = Cert.Gcn.layer (srcW m c) (dstW m c) (fun i c' => ∑ q : Fin 8, xArr m c (ix2 i q) * w1Arr m c (ix2 q c'))
        (fun c' => b1Arr m c (ix1 c')) :=
  funext fun i => funext fun q => p1Arr_at m ρ c i q

/-- The second round's features as a function of node and feature. -/
theorem p2_fun : (fun (i : Fin 50000) (p : Fin 128) => p2Arr m ρ c (ix2 i p))
    = Cert.Gcn.layer (srcW m c) (dstW m c)
        (fun i c' => ∑ q : Fin 128,
          Cert.Gcn.layer (srcW m c) (dstW m c) (fun i c' => ∑ q : Fin 8, xArr m c (ix2 i q) * w1Arr m c (ix2 q c'))
            (fun c' => b1Arr m c (ix1 c')) i q * w2Arr m c (ix2 q c'))
        (fun c' => b2Arr m c (ix1 c')) := by
  funext i p
  rw [p2Arr_at]
  refine congrArg (fun h => Cert.Gcn.layer (srcW m c) (dstW m c) h (fun c' => b2Arr m c (ix1 c')) i p) ?_
  funext i' c'
  exact Finset.sum_congr rfl fun q _ => congrArg (· * w2Arr m c (ix2 q c')) (p1Arr_at m ρ c i' q)

/-! ### Region 4: the result -/

/-- The result buffer after the run, typed as the array it is. -/
def resArr : S800000x2.Idx → EReal := W12 m ρ c (Proc.devRef .tc main_v68)

theorem resArr_at (e : Fin 800000) (j : Fin 2) :
    resArr m ρ c (ix2 e j)
      = Cert.Gcn.out (srcW m c) (dstW m c) (xArr m c) (w1Arr m c) (fun c' => b1Arr m c (ix1 c')) (w2Arr m c)
          (fun c' => b2Arr m c (ix1 c')) (wl1Arr m c) (fun c' => bl1Arr m c (ix1 c')) (wl2Arr m c)
          (fun c' => bl2Arr m c (ix1 c')) e j := by
  have h12 : resArr m ρ c = (dat4 (F := Ideal) (V11 m ρ) c).arrAt 7 cfg4.N := W12_arr m ρ c 7
  rw [h12]
  refine (EdgeValue.out4_at (V11 m ρ) c e j).trans ?_
  rw [V11_es, V11_ed, V11_w1a, V11_w1b, V11_bl1, V11_w2, V11_bl2]
  unfold Cert.Gcn.out
  rw [← p2_fun m ρ c]
  unfold EdgeValue.edgeAt Cert.Gcn.mlp Cert.Gcn.srow Cert.Gcn.drow
  simp only [gatherRows_at, wtop_at, wbot_at, brow_at, brow2_at, srcWords_at, dstWords_at]

end Cert.KernelIdeal.Chain

end
-- ==== Proof.LibFlatGather.lean ====
/-
  A gather of scalars read at an index: what `x[idx]` of a flat table `x : [N]` at a column of positions `idx : [E, 1]`
  is. Result entry `e` is the table's entry at the start index `idx[e, 0]`, read as a signed integer and clamped into
  `[0, N − 1]` (every start index of a gather is clamped so that the one-element slice fits).
-/
import Idealize.ShloMosaic.Lib.ValueIdx
import Idealize.ShloMosaic.Lib.Pipeline.Value

noncomputable section

namespace Cert.LibFlatGather

open Idealize.ShloMosaic Idealize.ShloMosaic.ValueIdx

variable {α : Type}

/-- The dimension numbers of a gather of single entries of a flat `[N]` table at a column `[E, 1]` of positions. -/
abbrev flatDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The position a start index selects: read signed, clamped into the table. -/
abbrev posOf {E w : Nat} (N : Nat) (hN : 0 < N) (idx : IVec ⟨2, ![E, 1]⟩ w) (e : Fin E) : Fin N :=
  ⟨min (idx (ix2 e (0 : Fin 1))).toInt.toNat (N - 1), by omega⟩

/-- THE FLAT GATHER READ AT `e`: the table at the selected position. The one operand axis is collapsed (no offset
    coordinate) and not a batching axis, so the operand index is the clamped start index alone. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatDims N E wf) x idx (ix1 e) = x (ix1 (posOf N hN idx e)) := by
  unfold Host.gather
  refine congrArg x ?_
  funext a
  refine Fin.ext ?_
  match a with
  | ⟨0, _⟩ =>
    show (flatDims N E wf).start (ix1 e) idx 0 + (flatDims N E wf).batchCoord (ix1 e) 0
      + (flatDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (flatDims N E wf).startIndexMap from List.mem_singleton.mpr rfl)]
    have hsi : (flatDims N E wf).siIdx (ix1 e) ⟨List.idxOf (0 : Fin 1) (flatDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Cert.LibFlatGather

end
-- ==== Proof.RefValueDeg.lean ====
/-
  The reference program's index, degree and factor stages, read at an index.

  The 850000 joined messages are the 800000 edges followed by the 50000 self loops: message `j` has the source / target
  word of edge `j` below 800000 and the node number `j − 800000` from there on (`srcJ`, `dstJ`). A gather shifts a
  negative word once by the node count (`wrapIdx`) and clamps it into the table (`rowAt`); a scatter reads the word signed
  and drops it outside the table (`landing`). The degree of node `i` is zero plus the word of 1.0 for every message whose
  target word lands on `i` (`degJ`), `dinvJ` its guarded inverse square root, and message `j`'s factor the product of
  `dinvJ` at its two normalised endpoint words. The program spells these stages once per round; both spellings are read.
-/
import proofs.«173198_j90718299226435_2_alg».proof.Proof.RefRead
import proofs.«173198_j90718299226435_2_alg».proof.Proof.Spec
import proofs.«173198_j90718299226435_2_alg».proof.Proof.LibScatterRows
import proofs.«173198_j90718299226435_2_alg».proof.Proof.LibFlatGather

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

open Cert.Gcn

/-- The words of the edge list: row 0 holds the sources, row 1 the targets. -/
abbrev srcW (x9 : (⟨S2x800000, .i32⟩ : BufTy).Contents (Elt Ideal)) : Fin 800000 → BitVec 32 := fun e => x9 (ix2 (0 : Fin 2) e)
abbrev dstW (x9 : (⟨S2x800000, .i32⟩ : BufTy).Contents (Elt Ideal)) : Fin 800000 → BitVec 32 := fun e => x9 (ix2 (1 : Fin 2) e)

/-! ### The printed dimension records are the general ones at the literal extents -/

theorem scatterFlat_eq : scatter_S50000_S850000x1_S850000_n_0_0_1
    = Cert.LibScatterRows.flatDims 50000 850000 Facts₀.scatter_S50000_S850000x1_S850000_n_0_0_1_wf := rfl

theorem gatherFlat_eq : gather_S50000_S850000x1_S850000_n_0_n_n_0_1_1
    = Cert.LibFlatGather.flatDims 50000 850000 Facts₀.gather_S50000_S850000x1_S850000_n_0_n_n_0_1_1_wf := rfl

/-- Edge words followed by the node numbers `0 … 49999`, read at message `j`: an edge's word below 800000, the self
    loop's node number from there on. -/
theorem concat_words_at (y : (⟨S800000, .i32⟩ : BufTy).Contents (Elt Ideal)) (n : (⟨S50000, .i32⟩ : BufTy).Contents (Elt Ideal))
    (hn : ∀ l : Fin 50000, n (ix1 l) = BitVec.ofNat 32 l.val) (j : Fin 850000) :
    concatenate S850000 0 [⟨S800000, y⟩, ⟨S50000, n⟩] concatenates_S800000_S50000_S850000_d0 (ix1 j)
      = if h : j.val < 800000 then y (ix1 ⟨j.val, h⟩) else BitVec.ofNat 32 (j.val - 800000) := by
  by_cases h : j.val < 800000
  · rw [dif_pos h]
    refine concatenate_pair_apply_left _ y n concatenates_S800000_S50000_S850000_d0 (ix1 j) rfl (ix1 ⟨j.val, h⟩) ?_
    intro b
    match b with
    | ⟨0, _⟩ => rfl
  · rw [dif_neg h]
    refine (concatenate_pair_apply_right _ y n concatenates_S800000_S50000_S850000_d0 (ix1 j) rfl rfl
      (ix1 (⟨j.val - 800000, by have := j.isLt; omega⟩ : Fin 50000)) ?_ ?_).trans (hn _)
    · intro b hb
      match b with
      | ⟨0, _⟩ => exact absurd rfl hb
    · show (j.val - 800000) + 800000 = j.val
      omega

variable (x9 : (⟨S2x800000, .i32⟩ : BufTy).Contents (Elt Ideal))

/-- The source word of edge `e`: row 0 of the edge list, sliced and flattened. -/
theorem v1_at (e : Fin 800000) : val_main_v1 (F := Ideal) x9 (ix1 e) = srcW x9 e := by
  rw [val_main_v1_apply, val_main_v0_apply]
  refine congrArg x9 ?_
  funext a; refine Fin.ext ?_
  match a with
  | ⟨0, _⟩ => rfl
  | ⟨1, _⟩ => exact Nat.mod_eq_of_lt e.isLt

/-- The target word of edge `e`: row 1 of the edge list. -/
theorem v3_at (e : Fin 800000) : val_main_v3 (F := Ideal) x9 (ix1 e) = dstW x9 e := by
  rw [val_main_v3_apply, val_main_v2_apply]
  refine congrArg x9 ?_
  funext a; refine Fin.ext ?_
  match a with
  | ⟨0, _⟩ => rfl
  | ⟨1, _⟩ => exact Nat.mod_eq_of_lt e.isLt

/-! ## The index, degree and factor stages of the first round -/

/-- The joined source words: the edges' sources, then the node numbers. -/
theorem v6_at (j : Fin 850000) : val_main_v6 (F := Ideal) x9 (ix1 j) = srcJ (srcW x9) j := by
  unfold val_main_v6 srcJ
  rw [concat_words_at _ _ (fun _ => rfl)]
  by_cases h : j.val < 800000
  · rw [dif_pos h, dif_pos h, v1_at]
  · rw [dif_neg h, dif_neg h]

/-- The joined target words. -/
theorem v7_at (j : Fin 850000) : val_main_v7 (F := Ideal) x9 (ix1 j) = dstJ (dstW x9) j := by
  unfold val_main_v7 dstJ
  rw [concat_words_at _ _ (fun _ => rfl)]
  by_cases h : j.val < 800000
  · rw [dif_pos h, dif_pos h, v3_at]
  · rw [dif_neg h, dif_neg h]

theorem v20_at (j : Fin 850000) : val_main_v20 (F := Ideal) x9 (ix1 j) = wrapIdx (srcJ (srcW x9) j) := by
  rw [val_main_v20_apply, val_main_v17_apply, val_main_v19_apply, val_main_v16_apply, val_main_v18_apply,
    val_main_c_apply, val_main_c_3_apply, v6_at]
  rfl

theorem v27_at (j : Fin 850000) : val_main_v27 (F := Ideal) x9 (ix1 j) = wrapIdx (dstJ (dstW x9) j) := by
  rw [val_main_v27_apply, val_main_v24_apply, val_main_v26_apply, val_main_v23_apply, val_main_v25_apply,
    val_main_c_4_apply, val_main_c_5_apply, v7_at]
  rfl

theorem v35_at (j : Fin 850000) : val_main_v35 (F := Ideal) x9 (ix1 j) = wrapIdx (srcJ (srcW x9) j) := by
  rw [val_main_v35_apply, val_main_v32_apply, val_main_v34_apply, val_main_v31_apply, val_main_v33_apply,
    val_main_c_6_apply, val_main_c_7_apply, v6_at]
  rfl

theorem v10_at (j : Fin 850000) (u : Fin 1) : val_main_v10 (F := Ideal) x9 (ix2 j u) = dstJ (dstW x9) j := by
  rw [val_main_v10_apply, show idx_main_v10 (ix2 j u) = ix1 j from funext fun a => match a with | ⟨0, _⟩ => rfl]
  exact v7_at x9 j

theorem v42_at (j : Fin 850000) (u : Fin 1) : val_main_v42 (F := Ideal) x9 (ix2 j u) = dstJ (dstW x9) j := by
  rw [val_main_v42_apply, show idx_main_v42 (ix2 j u) = ix1 j from funext fun a => match a with | ⟨0, _⟩ => rfl]
  exact v7_at x9 j

theorem v21_at (j : Fin 850000) (u : Fin 1) : val_main_v21 (F := Ideal) x9 (ix2 j u) = wrapIdx (srcJ (srcW x9) j) := by
  rw [val_main_v21_apply, show idx_main_v21 (ix2 j u) = ix1 j from funext fun a => match a with | ⟨0, _⟩ => rfl]
  exact v20_at x9 j

theorem v28_at (j : Fin 850000) (u : Fin 1) : val_main_v28 (F := Ideal) x9 (ix2 j u) = wrapIdx (dstJ (dstW x9) j) := by
  rw [val_main_v28_apply, show idx_main_v28 (ix2 j u) = ix1 j from funext fun a => match a with | ⟨0, _⟩ => rfl]
  exact v27_at x9 j

theorem v36_at (j : Fin 850000) (u : Fin 1) : val_main_v36 (F := Ideal) x9 (ix2 j u) = wrapIdx (srcJ (srcW x9) j) := by
  rw [val_main_v36_apply, show idx_main_v36 (ix2 j u) = ix1 j from funext fun a => match a with | ⟨0, _⟩ => rfl]
  exact v35_at x9 j

/-- The degree: zeros, plus the word of 1.0 for every joined message whose target word lands on `i`. -/
theorem v11_at (i : Fin 50000) : val_main_v11 (F := Ideal) x9 (ix1 i) = degJ (dstW x9) i := by
  unfold val_main_v11
  rw [scatterFlat_eq, Cert.LibScatterRows.scatterAdd_flat_apply]
  unfold degJ hitJ
  simp only [v10_at, val_main_v9_apply, val_main_cst_0_apply, val_main_v8_apply, val_main_cst_apply,
    Ideal.ofBits_def, Ideal.ofBits_zero_f32]

/-- The guarded inverse square root of the degree. -/
theorem v15_at (i : Fin 50000) : val_main_v15 (F := Ideal) x9 (ix1 i) = dinvJ (dstW x9) i := by
  rw [val_main_v15_apply, val_main_v13_apply, val_main_v14_apply, val_main_call0_v1_apply, val_main_call0_v0_apply,
    val_main_cst_2_apply, val_main_v12_apply, val_main_cst_1_apply, v11_at]
  simp only [Ideal.ofBits_def, Ideal.ofBits_zero_f32, Ideal.cmpf_def, Ideal.hostUnary_rsqrt_def]
  rfl

theorem v22_at (j : Fin 850000) : val_main_v22 (F := Ideal) x9 (ix1 j) = dinvJ (dstW x9) (rowAt (wrapIdx (srcJ (srcW x9) j))) := by
  unfold val_main_v22
  rw [gatherFlat_eq, Cert.LibFlatGather.gather_flat_apply (by decide : 0 < 50000),
    show Cert.LibFlatGather.posOf 50000 (by decide) (val_main_v21 (F := Ideal) x9) j
      = rowAt (val_main_v21 (F := Ideal) x9 (ix2 j (0 : Fin 1))) from rfl, v21_at, v15_at]

theorem v29_at (j : Fin 850000) : val_main_v29 (F := Ideal) x9 (ix1 j) = dinvJ (dstW x9) (rowAt (wrapIdx (dstJ (dstW x9) j))) := by
  unfold val_main_v29
  rw [gatherFlat_eq, Cert.LibFlatGather.gather_flat_apply (by decide : 0 < 50000),
    show Cert.LibFlatGather.posOf 50000 (by decide) (val_main_v28 (F := Ideal) x9) j
      = rowAt (val_main_v28 (F := Ideal) x9 (ix2 j (0 : Fin 1))) from rfl, v28_at, v15_at]

/-- The per-message factor: the product of the two endpoints' factors. -/
theorem v30_at (j : Fin 850000) : val_main_v30 (F := Ideal) x9 (ix1 j)
    = dinvJ (dstW x9) (rowAt (wrapIdx (srcJ (srcW x9) j))) * dinvJ (dstW x9) (rowAt (wrapIdx (dstJ (dstW x9) j))) := by
  rw [val_main_v30_apply, v22_at, v29_at]
  rfl

/-- The factor broadcast along the 128 features. -/
theorem v39_at (j : Fin 850000) (c : Fin 128) : val_main_v39 (F := Ideal) x9 (ix2 j c)
    = dinvJ (dstW x9) (rowAt (wrapIdx (srcJ (srcW x9) j))) * dinvJ (dstW x9) (rowAt (wrapIdx (dstJ (dstW x9) j))) := by
  rw [val_main_v39_apply, val_main_v38_apply,
    show idx_main_v38 (idx_main_v39 (ix2 j c)) = ix1 j from funext fun a => match a with | ⟨0, _⟩ => rfl]
  exact v30_at x9 j

/-- The scatter's operand of zeros, and the zero the result is clipped at. -/
theorem v41_at (i : Fin 50000) (c : Fin 128) : val_main_v41 (F := Ideal) (ix2 i c) = (0 : EReal) := by
  rw [val_main_v41_apply, val_main_cst_8_apply]
  exact Ideal.ofBits_zero_f32

theorem call1_v0_at (i : Fin 50000) (c : Fin 128) : val_main_call1_v0 (F := Ideal) (ix2 i c) = (0 : EReal) := by
  rw [val_main_call1_v0_apply, val_main_call1_cst_apply]
  exact Ideal.ofBits_zero_f32

/-- The bias broadcast down the rows. -/
theorem v45_at (b : (⟨S128, .f32⟩ : BufTy).Contents (Elt Ideal)) (i : Fin 50000) (c : Fin 128) :
    val_main_v45 (F := Ideal) b (ix2 i c) = b (ix1 c) := by
  rw [val_main_v45_apply, val_main_v44_apply]
  exact congrArg b (funext fun a => match a with | ⟨0, _⟩ => rfl)

/-! ## The same stages as the second round spells them again -/

/-- The joined source words: the edges' sources, then the node numbers. -/
theorem v50_at (j : Fin 850000) : val_main_v50 (F := Ideal) x9 (ix1 j) = srcJ (srcW x9) j := by
  unfold val_main_v50 srcJ
  rw [concat_words_at _ _ (fun _ => rfl)]
  by_cases h : j.val < 800000
  · rw [dif_pos h, dif_pos h, v1_at]
  · rw [dif_neg h, dif_neg h]

/-- The joined target words. -/
theorem v51_at (j : Fin 850000) : val_main_v51 (F := Ideal) x9 (ix1 j) = dstJ (dstW x9) j := by
  unfold val_main_v51 dstJ
  rw [concat_words_at _ _ (fun _ => rfl)]
  by_cases h : j.val < 800000
  · rw [dif_pos h, dif_pos h, v3_at]
  · rw [dif_neg h, dif_neg h]

theorem v64_at (j : Fin 850000) : val_main_v64 (F := Ideal) x9 (ix1 j) = wrapIdx (srcJ (srcW x9) j) := by
  rw [val_main_v64_apply, val_main_v61_apply, val_main_v63_apply, val_main_v60_apply, val_main_v62_apply,
    val_main_c_13_apply, val_main_c_14_apply, v50_at]
  rfl

theorem v71_at (j : Fin 850000) : val_main_v71 (F := Ideal) x9 (ix1 j) = wrapIdx (dstJ (dstW x9) j) := by
  rw [val_main_v71_apply, val_main_v68_apply, val_main_v70_apply, val_main_v67_apply, val_main_v69_apply,
    val_main_c_15_apply, val_main_c_16_apply, v51_at]
  rfl

theorem v79_at (j : Fin 850000) : val_main_v79 (F := Ideal) x9 (ix1 j) = wrapIdx (srcJ (srcW x9) j) := by
  rw [val_main_v79_apply, val_main_v76_apply, val_main_v78_apply, val_main_v75_apply, val_main_v77_apply,
    val_main_c_17_apply, val_main_c_18_apply, v50_at]
  rfl

theorem v54_at (j : Fin 850000) (u : Fin 1) : val_main_v54 (F := Ideal) x9 (ix2 j u) = dstJ (dstW x9) j := by
  rw [val_main_v54_apply, show idx_main_v54 (ix2 j u) = ix1 j from funext fun a => match a with | ⟨0, _⟩ => rfl]
  exact v51_at x9 j

theorem v86_at (j : Fin 850000) (u : Fin 1) : val_main_v86 (F := Ideal) x9 (ix2 j u) = dstJ (dstW x9) j := by
  rw [val_main_v86_apply, show idx_main_v86 (ix2 j u) = ix1 j from funext fun a => match a with | ⟨0, _⟩ => rfl]
  exact v51_at x9 j

theorem v65_at (j : Fin 850000) (u : Fin 1) : val_main_v65 (F := Ideal) x9 (ix2 j u) = wrapIdx (srcJ (srcW x9) j) := by
  rw [val_main_v65_apply, show idx_main_v65 (ix2 j u) = ix1 j from funext fun a => match a with | ⟨0, _⟩ => rfl]
  exact v64_at x9 j

theorem v72_at (j : Fin 850000) (u : Fin 1) : val_main_v72 (F := Ideal) x9 (ix2 j u) = wrapIdx (dstJ (dstW x9) j) := by
  rw [val_main_v72_apply, show idx_main_v72 (ix2 j u) = ix1 j from funext fun a => match a with | ⟨0, _⟩ => rfl]
  exact v71_at x9 j

theorem v80_at (j : Fin 850000) (u : Fin 1) : val_main_v80 (F := Ideal) x9 (ix2 j u) = wrapIdx (srcJ (srcW x9) j) := by
  rw [val_main_v80_apply, show idx_main_v80 (ix2 j u) = ix1 j from funext fun a => match a with | ⟨0, _⟩ => rfl]
  exact v79_at x9 j

/-- The degree: zeros, plus the word of 1.0 for every joined message whose target word lands on `i`. -/
theorem v55_at (i : Fin 50000) : val_main_v55 (F := Ideal) x9 (ix1 i) = degJ (dstW x9) i := by
  unfold val_main_v55
  rw [scatterFlat_eq, Cert.LibScatterRows.scatterAdd_flat_apply]
  unfold degJ hitJ
  simp only [v54_at, val_main_v53_apply, val_main_cst_10_apply, val_main_v52_apply, val_main_cst_9_apply,
    Ideal.ofBits_def, Ideal.ofBits_zero_f32]

/-- The guarded inverse square root of the degree. -/
theorem v59_at (i : Fin 50000) : val_main_v59 (F := Ideal) x9 (ix1 i) = dinvJ (dstW x9) i := by
  rw [val_main_v59_apply, val_main_v57_apply, val_main_v58_apply, val_main_call2_v1_apply, val_main_call2_v0_apply,
    val_main_cst_12_apply, val_main_v56_apply, val_main_cst_11_apply, v55_at]
  simp only [Ideal.ofBits_def, Ideal.ofBits_zero_f32, Ideal.cmpf_def, Ideal.hostUnary_rsqrt_def]
  rfl

theorem v66_at (j : Fin 850000) : val_main_v66 (F := Ideal) x9 (ix1 j) = dinvJ (dstW x9) (rowAt (wrapIdx (srcJ (srcW x9) j))) := by
  unfold val_main_v66
  rw [gatherFlat_eq, Cert.LibFlatGather.gather_flat_apply (by decide : 0 < 50000),
    show Cert.LibFlatGather.posOf 50000 (by decide) (val_main_v65 (F := Ideal) x9) j
      = rowAt (val_main_v65 (F := Ideal) x9 (ix2 j (0 : Fin 1))) from rfl, v65_at, v59_at]

theorem v73_at (j : Fin 850000) : val_main_v73 (F := Ideal) x9 (ix1 j) = dinvJ (dstW x9) (rowAt (wrapIdx (dstJ (dstW x9) j))) := by
  unfold val_main_v73
  rw [gatherFlat_eq, Cert.LibFlatGather.gather_flat_apply (by decide : 0 < 50000),
    show Cert.LibFlatGather.posOf 50000 (by decide) (val_main_v72 (F := Ideal) x9) j
      = rowAt (val_main_v72 (F := Ideal) x9 (ix2 j (0 : Fin 1))) from rfl, v72_at, v59_at]

/-- The per-message factor: the product of the two endpoints' factors. -/
theorem v74_at (j : Fin 850000) : val_main_v74 (F := Ideal) x9 (ix1 j)
    = dinvJ (dstW x9) (rowAt (wrapIdx (srcJ (srcW x9) j))) * dinvJ (dstW x9) (rowAt (wrapIdx (dstJ (dstW x9) j))) := by
  rw [val_main_v74_apply, v66_at, v73_at]
  rfl

/-- The factor broadcast along the 128 features. -/
theorem v83_at (j : Fin 850000) (c : Fin 128) : val_main_v83 (F := Ideal) x9 (ix2 j c)
    = dinvJ (dstW x9) (rowAt (wrapIdx (srcJ (srcW x9) j))) * dinvJ (dstW x9) (rowAt (wrapIdx (dstJ (dstW x9) j))) := by
  rw [val_main_v83_apply, val_main_v82_apply,
    show idx_main_v82 (idx_main_v83 (ix2 j c)) = ix1 j from funext fun a => match a with | ⟨0, _⟩ => rfl]
  exact v74_at x9 j

/-- The scatter's operand of zeros, and the zero the result is clipped at. -/
theorem v85_at (i : Fin 50000) (c : Fin 128) : val_main_v85 (F := Ideal) (ix2 i c) = (0 : EReal) := by
  rw [val_main_v85_apply, val_main_cst_19_apply]
  exact Ideal.ofBits_zero_f32

theorem call3_v0_at (i : Fin 50000) (c : Fin 128) : val_main_call3_v0 (F := Ideal) (ix2 i c) = (0 : EReal) := by
  rw [val_main_call3_v0_apply, val_main_call3_cst_apply]
  exact Ideal.ofBits_zero_f32

/-- The bias broadcast down the rows. -/
theorem v89_at (b : (⟨S128, .f32⟩ : BufTy).Contents (Elt Ideal)) (i : Fin 50000) (c : Fin 128) :
    val_main_v89 (F := Ideal) b (ix2 i c) = b (ix1 c) := by
  rw [val_main_v89_apply, val_main_v88_apply]
  exact congrArg b (funext fun a => match a with | ⟨0, _⟩ => rfl)

end Cert.ReferenceIdeal.RefValue

end
-- ==== Proof.RefValueLayer.lean ====
/-
  One aggregation round of the reference, read at an index, over an arbitrary table of node features.

  Entry `(i, c)` of a round is the sum, over the joined messages whose target word lands on `i`, of the table's row at
  the message's normalised source word, column `c`, times the message's factor; plus the bias at `c`; clipped at zero:
  `layerJoined`. Laws used: the row scatter-add read at an index, the row gather read at an index.
-/
import proofs.«173198_j90718299226435_2_alg».proof.Proof.RefRead
import proofs.«173198_j90718299226435_2_alg».proof.Proof.Spec
import proofs.«173198_j90718299226435_2_alg».proof.Proof.LibScatterRows
import proofs.«173198_j90718299226435_2_alg».proof.Proof.LibRowGather
import proofs.«173198_j90718299226435_2_alg».proof.Proof.RefValueDeg

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

open Cert.Gcn

/-! ### The printed dimension records are the general ones at the literal extents -/

theorem scatterRows_eq : scatter_S50000x128_S850000x1_S850000x128_1_0_0_1
    = Cert.LibScatterRows.rowsDims 50000 128 850000 Facts₀.scatter_S50000x128_S850000x1_S850000x128_1_0_0_1_wf := rfl

theorem gatherRows_eq : gather_S50000x128_S850000x1_S850000x128_1_0_n_n_0_1_1128
    = Cert.LibRowGather.rowsDims 50000 128 850000 Facts₀.gather_S50000x128_S850000x1_S850000x128_1_0_n_n_0_1_1128_wf := rfl

/-- ONE AGGREGATION ROUND over an arbitrary table `h`: the rows of `h` gathered at the messages' normalised source words,
    each scaled by its message's factor, scatter-added into zeros at the messages' target words, plus the bias, clipped
    at zero. The operand stages enter through what they are at an index, so both rounds of the program are instances.
    Entry `(i, c)` depends on the rows of `h` selected by the messages that land on `i`. -/
theorem round_at
    (z : FVec Ideal S50000x128 .f32)
    (col gcol : IVec S850000x1 32)
    (nrm : FVec Ideal S850000x128 .f32)
    (bb zz h : FVec Ideal S50000x128 .f32)
    (b : FVec Ideal S128 .f32)
    (sW dW : Fin 800000 → BitVec 32)
    (hz : ∀ (i : Fin 50000) (c : Fin 128), z (ix2 i c) = (0 : EReal))
    (hcol : ∀ j : Fin 850000, col (ix2 j (0 : Fin 1)) = dstJ dW j)
    (hg : ∀ j : Fin 850000, gcol (ix2 j (0 : Fin 1)) = wrapIdx (srcJ sW j))
    (hn : ∀ (j : Fin 850000) (c : Fin 128), nrm (ix2 j c)
      = dinvJ dW (rowAt (wrapIdx (srcJ sW j))) * dinvJ dW (rowAt (wrapIdx (dstJ dW j))))
    (hb : ∀ (i : Fin 50000) (c : Fin 128), bb (ix2 i c) = b (ix1 c))
    (hzz : ∀ (i : Fin 50000) (c : Fin 128), zz (ix2 i c) = (0 : EReal))
    (i : Fin 50000) (c : Fin 128) :
    maximumf (F := Ideal) (addf (F := Ideal) (Host.scatterAdd (F := Ideal) scatter_S50000x128_S850000x1_S850000x128_1_0_0_1 z col
        (mulf (F := Ideal) (Host.gather gather_S50000x128_S850000x1_S850000x128_1_0_n_n_0_1_1128 h gcol) nrm)) bb) zz (ix2 i c)
      = layerJoined sW dW (fun i c => h (ix2 i c)) (fun c => b (ix1 c)) i c := by
  show max (Host.scatterAdd (F := Ideal) scatter_S50000x128_S850000x1_S850000x128_1_0_0_1 z col
        (mulf (F := Ideal) (Host.gather gather_S50000x128_S850000x1_S850000x128_1_0_n_n_0_1_1128 h gcol) nrm) (ix2 i c)
      + bb (ix2 i c)) (zz (ix2 i c)) = _
  have helem : ∀ e : Fin 850000,
      mulf (F := Ideal) (Host.gather gather_S50000x128_S850000x1_S850000x128_1_0_n_n_0_1_1128 h gcol) nrm (ix2 e c)
        = h (ix2 (rowAt (wrapIdx (srcJ sW e))) c)
          * (dinvJ dW (rowAt (wrapIdx (srcJ sW e))) * dinvJ dW (rowAt (wrapIdx (dstJ dW e)))) := by
    intro e
    show Host.gather gather_S50000x128_S850000x1_S850000x128_1_0_n_n_0_1_1128 h gcol (ix2 e c) * nrm (ix2 e c) = _
    rw [gatherRows_eq, Cert.LibRowGather.gather_rows_apply (by decide : 0 < 50000), hn,
      show Cert.LibRowGather.rowOf 50000 (by decide) gcol e = rowAt (gcol (ix2 e (0 : Fin 1))) from rfl, hg]
  have hset : (Finset.univ.filter fun e : Fin 850000 =>
      Cert.LibScatterRows.landing 50000 (col (ix2 e (0 : Fin 1))) = some i) = hitJ dW i := by
    unfold hitJ
    exact Finset.filter_congr fun e _ => by rw [hcol e]
  rw [scatterRows_eq, Cert.LibScatterRows.scatterAdd_rows_apply, hset, hz, hb, hzz,
    Finset.sum_congr rfl fun e _ => helem e]
  rfl

end Cert.ReferenceIdeal.RefValue

end
-- ==== Proof.RefValueMlp.lean ====
/-
  The edge perceptron of the reference, read at an index.

  Edge `e` gathers the rows of the node features at its normalised source and target words and joins them into one row
  of 256 features (the first 128 the source's, the last 128 the target's); two linear maps with biases, each clipped at
  zero, follow: `mlpJoined`.
-/
import proofs.«173198_j90718299226435_2_alg».proof.Proof.RefRead
import proofs.«173198_j90718299226435_2_alg».proof.Proof.Spec
import proofs.«173198_j90718299226435_2_alg».proof.Proof.LibRowGather
import proofs.«173198_j90718299226435_2_alg».proof.Proof.RefValueDeg

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

open Cert.Gcn

/-! ### The endpoint words of an edge, normalised for a gather -/

section words
variable (x9 : (⟨S2x800000, .i32⟩ : BufTy).Contents (Elt Ideal))

theorem v96_at (e : Fin 800000) : val_main_v96 (F := Ideal) x9 (ix1 e) = wrapIdx (srcW x9 e) := by
  rw [val_main_v96_apply, val_main_v93_apply, val_main_v95_apply, val_main_v92_apply, val_main_v94_apply,
    val_main_c_20_apply, val_main_c_21_apply, v1_at]
  rfl

theorem v103_at (e : Fin 800000) : val_main_v103 (F := Ideal) x9 (ix1 e) = wrapIdx (dstW x9 e) := by
  rw [val_main_v103_apply, val_main_v100_apply, val_main_v102_apply, val_main_v99_apply, val_main_v101_apply,
    val_main_c_22_apply, val_main_c_23_apply, v3_at]
  rfl

theorem v97_at (e : Fin 800000) (u : Fin 1) : val_main_v97 (F := Ideal) x9 (ix2 e u) = wrapIdx (srcW x9 e) := by
  rw [val_main_v97_apply, show idx_main_v97 (ix2 e u) = ix1 e from funext fun a => match a with | ⟨0, _⟩ => rfl]
  exact v96_at x9 e

theorem v104_at (e : Fin 800000) (u : Fin 1) : val_main_v104 (F := Ideal) x9 (ix2 e u) = wrapIdx (dstW x9 e) := by
  rw [val_main_v104_apply, show idx_main_v104 (ix2 e u) = ix1 e from funext fun a => match a with | ⟨0, _⟩ => rfl]
  exact v103_at x9 e

end words

theorem gatherRows8_eq : gather_S50000x128_S800000x1_S800000x128_1_0_n_n_0_1_1128
    = Cert.LibRowGather.rowsDims 50000 128 800000 Facts₀.gather_S50000x128_S800000x1_S800000x128_1_0_n_n_0_1_1128_wf := rfl

/-- Two `[800000, 128]` pieces joined along the feature axis, read at `(e, r)`: the first piece below 128, the second,
    128 less, from there on. -/
theorem concat_rows_at (y1 y2 : (⟨S800000x128, .f32⟩ : BufTy).Contents (Elt Ideal)) (e : Fin 800000) (r : Fin 256) :
    concatenate S800000x256 1 [⟨S800000x128, y1⟩, ⟨S800000x128, y2⟩] concatenates_S800000x128_S800000x128_S800000x256_d1 (ix2 e r)
      = if h : r.val < 128 then y1 (ix2 e ⟨r.val, h⟩) else y2 (ix2 e ⟨r.val - 128, by have := r.isLt; omega⟩) := by
  by_cases h : r.val < 128
  · rw [dif_pos h]
    refine concatenate_pair_apply_left _ y1 y2 concatenates_S800000x128_S800000x128_S800000x256_d1 (ix2 e r) rfl
      (ix2 e (⟨r.val, h⟩ : Fin 128)) ?_
    intro b
    match b with
    | ⟨0, _⟩ => rfl
    | ⟨1, _⟩ => rfl
  · rw [dif_neg h]
    refine concatenate_pair_apply_right _ y1 y2 concatenates_S800000x128_S800000x128_S800000x256_d1 (ix2 e r) rfl rfl
      (ix2 e (⟨r.val - 128, by have := r.isLt; omega⟩ : Fin 128)) ?_ ?_
    · intro b hb
      match b with
      | ⟨0, _⟩ => rfl
      | ⟨1, _⟩ => exact absurd rfl hb
    · show (r.val - 128) + 128 = r.val
      omega

section mlp
variable (x0 : (⟨S50000x8, .f32⟩ : BufTy).Contents (Elt Ideal)) (x1 : (⟨S8x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S256x128, .f32⟩ : BufTy).Contents (Elt Ideal)) (x6 : (⟨S128, .f32⟩ : BufTy).Contents (Elt Ideal)) (x7 : (⟨S128x2, .f32⟩ : BufTy).Contents (Elt Ideal)) (x8 : (⟨S2, .f32⟩ : BufTy).Contents (Elt Ideal)) (x9 : (⟨S2x800000, .i32⟩ : BufTy).Contents (Elt Ideal))

/-- The source endpoint's row of the second round's result. -/
theorem v98_at (e : Fin 800000) (k : Fin 128) : val_main_v98 (F := Ideal) x0 x1 x2 x3 x4 x9 (ix2 e k)
    = val_main_v91 (F := Ideal) x0 x1 x2 x3 x4 x9 (ix2 (srow (srcW x9) e) k) := by
  unfold val_main_v98
  rw [gatherRows8_eq, Cert.LibRowGather.gather_rows_apply (by decide : 0 < 50000),
    show Cert.LibRowGather.rowOf 50000 (by decide) (val_main_v97 (F := Ideal) x9) e
      = rowAt (val_main_v97 (F := Ideal) x9 (ix2 e (0 : Fin 1))) from rfl, v97_at]
  rfl

/-- The target endpoint's row. -/
theorem v105_at (e : Fin 800000) (k : Fin 128) : val_main_v105 (F := Ideal) x0 x1 x2 x3 x4 x9 (ix2 e k)
    = val_main_v91 (F := Ideal) x0 x1 x2 x3 x4 x9 (ix2 (drow (dstW x9) e) k) := by
  unfold val_main_v105
  rw [gatherRows8_eq, Cert.LibRowGather.gather_rows_apply (by decide : 0 < 50000),
    show Cert.LibRowGather.rowOf 50000 (by decide) (val_main_v104 (F := Ideal) x9) e
      = rowAt (val_main_v104 (F := Ideal) x9 (ix2 e (0 : Fin 1))) from rfl, v104_at]
  rfl

/-- The joined row of 256 features of edge `e`. -/
theorem v106_at (e : Fin 800000) (r : Fin 256) : val_main_v106 (F := Ideal) x0 x1 x2 x3 x4 x9 (ix2 e r)
    = if h : r.val < 128 then val_main_v91 (F := Ideal) x0 x1 x2 x3 x4 x9 (ix2 (srow (srcW x9) e) ⟨r.val, h⟩)
      else val_main_v91 (F := Ideal) x0 x1 x2 x3 x4 x9 (ix2 (drow (dstW x9) e) ⟨r.val - 128, by have := r.isLt; omega⟩) := by
  unfold val_main_v106
  rw [concat_rows_at]
  by_cases h : r.val < 128
  · rw [dif_pos h, dif_pos h, v98_at]
  · rw [dif_neg h, dif_neg h, v105_at]

/-- The hidden layer of the perceptron at `(e, q)`. -/
theorem v111_at (e : Fin 800000) (q : Fin 128) : val_main_v111 (F := Ideal) x0 x1 x2 x3 x4 x5 x6 x9 (ix2 e q)
    = max ((∑ r : Fin 256, (if h : r.val < 128 then val_main_v91 (F := Ideal) x0 x1 x2 x3 x4 x9 (ix2 (srow (srcW x9) e) ⟨r.val, h⟩)
        else val_main_v91 (F := Ideal) x0 x1 x2 x3 x4 x9 (ix2 (drow (dstW x9) e) ⟨r.val - 128, by have := r.isLt; omega⟩)) * x5 (ix2 r q)) + x6 (ix1 q)) 0 := by
  rw [val_main_v111_apply, val_main_v110_apply, val_main_v107_apply, val_main_v109_apply, val_main_v108_apply,
    val_main_call4_v0_apply, val_main_call4_cst_apply]
  simp only [show ∀ k : Fin 256, lidx_main_v107 (ix2 e q) k = ix2 e k from
      fun k => funext fun a => match a with | ⟨0, _⟩ => rfl | ⟨1, _⟩ => rfl,
    show ∀ k : Fin 256, ridx_main_v107 (ix2 e q) k = ix2 k q from
      fun k => funext fun a => match a with | ⟨0, _⟩ => rfl | ⟨1, _⟩ => rfl,
    show idx_main_v108 (idx_main_v109 (ix2 e q)) = ix1 q from funext fun a => match a with | ⟨0, _⟩ => rfl,
    v106_at, Ideal.ofBits_def, Ideal.ofBits_zero_f32, Ideal.maximumf_def, Ideal.addf_def]

/-- THE PERCEPTRON: the program's last stage at `(e, j)` is the two-layer perceptron over the joined row of the two
    endpoint rows of the second round's result. -/
theorem v116_at (e : Fin 800000) (j : Fin 2) :
    val_main_v116 (F := Ideal) x0 x1 x2 x3 x4 x5 x6 x7 x8 x9 (ix2 e j)
      = mlpJoined (srcW x9) (dstW x9) (fun i c => val_main_v91 (F := Ideal) x0 x1 x2 x3 x4 x9 (ix2 i c)) x5 (fun c => x6 (ix1 c)) x7 (fun c => x8 (ix1 c)) e j := by
  rw [val_main_v116_apply, val_main_v115_apply, val_main_v112_apply, val_main_v114_apply, val_main_v113_apply,
    val_main_call5_v0_apply, val_main_call5_cst_apply]
  simp only [show ∀ k : Fin 128, lidx_main_v112 (ix2 e j) k = ix2 e k from
      fun k => funext fun a => match a with | ⟨0, _⟩ => rfl | ⟨1, _⟩ => rfl,
    show ∀ k : Fin 128, ridx_main_v112 (ix2 e j) k = ix2 k j from
      fun k => funext fun a => match a with | ⟨0, _⟩ => rfl | ⟨1, _⟩ => rfl,
    show idx_main_v113 (idx_main_v114 (ix2 e j)) = ix1 j from funext fun a => match a with | ⟨0, _⟩ => rfl,
    v111_at, Ideal.ofBits_def, Ideal.ofBits_zero_f32, Ideal.maximumf_def, Ideal.addf_def]
  rfl

end mlp

end Cert.ReferenceIdeal.RefValue

end
-- ==== Proof.RefValue.lean ====
/-
  The reference's result at `(e, j)` is `Cert.Gcn.outJoined` of the argument arrays: the perceptron over the second
  aggregation round of the first round of `x · W1`, each round in the arrangement that scales every joined message by
  both endpoints' factors.
-/
import proofs.«173198_j90718299226435_2_alg».proof.Proof.RefRead
import proofs.«173198_j90718299226435_2_alg».proof.Proof.Spec
import proofs.«173198_j90718299226435_2_alg».proof.Proof.RefValueDeg
import proofs.«173198_j90718299226435_2_alg».proof.Proof.RefValueLayer
import proofs.«173198_j90718299226435_2_alg».proof.Proof.RefValueMlp

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

open Cert.Gcn

variable (x0 : (⟨S50000x8, .f32⟩ : BufTy).Contents (Elt Ideal)) (x1 : (⟨S8x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S256x128, .f32⟩ : BufTy).Contents (Elt Ideal)) (x6 : (⟨S128, .f32⟩ : BufTy).Contents (Elt Ideal)) (x7 : (⟨S128x2, .f32⟩ : BufTy).Contents (Elt Ideal)) (x8 : (⟨S2, .f32⟩ : BufTy).Contents (Elt Ideal)) (x9 : (⟨S2x800000, .i32⟩ : BufTy).Contents (Elt Ideal))

/-- The first round's linear map at `(i, c)`. -/
theorem v4_at (i : Fin 50000) (c : Fin 128) :
    val_main_v4 (F := Ideal) x0 x1 (ix2 i c) = ∑ q : Fin 8, x0 (ix2 i q) * x1 (ix2 q c) := by
  rw [val_main_v4_apply]
  refine Finset.sum_congr rfl fun k _ => ?_
  rw [show lidx_main_v4 (ix2 i c) k = ix2 i k from funext fun a => match a with | ⟨0, _⟩ => rfl | ⟨1, _⟩ => rfl,
    show ridx_main_v4 (ix2 i c) k = ix2 k c from funext fun a => match a with | ⟨0, _⟩ => rfl | ⟨1, _⟩ => rfl]

/-- THE FIRST ROUND: the stage after the first clipping is the joined arrangement of the round over `x · W1`. -/
theorem v47_at (i : Fin 50000) (c : Fin 128) : val_main_v47 (F := Ideal) x0 x1 x2 x9 (ix2 i c) = layerJoined (srcW x9) (dstW x9) (fun i c => ∑ q : Fin 8, x0 (ix2 i q) * x1 (ix2 q c)) (fun c => x2 (ix1 c)) i c := by
  have h := round_at (val_main_v41 (F := Ideal)) (val_main_v42 (F := Ideal) x9) (val_main_v36 (F := Ideal) x9)
    (val_main_v39 (F := Ideal) x9) (val_main_v45 (F := Ideal) x2) (val_main_call1_v0 (F := Ideal))
    (val_main_v4 (F := Ideal) x0 x1) x2 (srcW x9) (dstW x9)
    v41_at (fun j => v42_at x9 j 0) (fun j => v36_at x9 j 0) (v39_at x9) (v45_at x2) call1_v0_at i c
  rw [show (fun i c => val_main_v4 (F := Ideal) x0 x1 (ix2 i c)) = (fun i c => ∑ q : Fin 8, x0 (ix2 i q) * x1 (ix2 q c)) from
    funext fun i => funext fun c => v4_at x0 x1 i c] at h
  unfold val_main_v47 val_main_v46 val_main_v43 val_main_v40 val_main_v37
  exact h

/-- The second round's linear map at `(i, c)`. -/
theorem v48_at (i : Fin 50000) (c : Fin 128) : val_main_v48 (F := Ideal) x0 x1 x2 x3 x9 (ix2 i c)
    = ∑ q : Fin 128, layerJoined (srcW x9) (dstW x9) (fun i c => ∑ q : Fin 8, x0 (ix2 i q) * x1 (ix2 q c)) (fun c => x2 (ix1 c)) i q * x3 (ix2 q c) := by
  rw [val_main_v48_apply]
  refine Finset.sum_congr rfl fun k _ => ?_
  rw [show lidx_main_v48 (ix2 i c) k = ix2 i k from funext fun a => match a with | ⟨0, _⟩ => rfl | ⟨1, _⟩ => rfl,
    show ridx_main_v48 (ix2 i c) k = ix2 k c from funext fun a => match a with | ⟨0, _⟩ => rfl | ⟨1, _⟩ => rfl, v47_at]

/-- THE SECOND ROUND: the same arrangement over the first round's result times `W2`. -/
theorem v91_at (i : Fin 50000) (c : Fin 128) : val_main_v91 (F := Ideal) x0 x1 x2 x3 x4 x9 (ix2 i c) = layerJoined (srcW x9) (dstW x9) (fun i c => ∑ q : Fin 128, layerJoined (srcW x9) (dstW x9) (fun i c => ∑ q : Fin 8, x0 (ix2 i q) * x1 (ix2 q c)) (fun c => x2 (ix1 c)) i q * x3 (ix2 q c)) (fun c => x4 (ix1 c)) i c := by
  have h := round_at (val_main_v85 (F := Ideal)) (val_main_v86 (F := Ideal) x9) (val_main_v80 (F := Ideal) x9)
    (val_main_v83 (F := Ideal) x9) (val_main_v89 (F := Ideal) x4) (val_main_call3_v0 (F := Ideal))
    (val_main_v48 (F := Ideal) x0 x1 x2 x3 x9) x4 (srcW x9) (dstW x9)
    v85_at (fun j => v86_at x9 j 0) (fun j => v80_at x9 j 0) (v83_at x9) (v89_at x4) call3_v0_at i c
  rw [show (fun i c => val_main_v48 (F := Ideal) x0 x1 x2 x3 x9 (ix2 i c)) = (fun i c => ∑ q : Fin 128, layerJoined (srcW x9) (dstW x9) (fun i c => ∑ q : Fin 8, x0 (ix2 i q) * x1 (ix2 q c)) (fun c => x2 (ix1 c)) i q * x3 (ix2 q c)) from
    funext fun i => funext fun c => v48_at x0 x1 x2 x3 x9 i c] at h
  unfold val_main_v91 val_main_v90 val_main_v87 val_main_v84 val_main_v81
  exact h

/-- THE REFERENCE READ AT AN INDEX: its last stage at `(e, j)` is the joined arrangement of the whole computation, over
    the argument arrays. -/
theorem ref_at (e : Fin 800000) (j : Fin 2) :
    Cert.ReferenceIdeal.Read.val_main_v116 (F := Ideal) x0 x1 x2 x3 x4 x5 x6 x7 x8 x9 (ix2 e j)
      = Cert.Gcn.outJoined (fun e => x9 (ix2 (0 : Fin 2) e)) (fun e => x9 (ix2 (1 : Fin 2) e))
          x0 x1 (fun c => x2 (ix1 c)) x3 (fun c => x4 (ix1 c)) x5 (fun c => x6 (ix1 c)) x7 (fun c => x8 (ix1 c)) e j := by
  rw [v116_at, show (fun i c => val_main_v91 (F := Ideal) x0 x1 x2 x3 x4 x9 (ix2 i c)) = layerJoined (srcW x9) (dstW x9) (fun i c => ∑ q : Fin 128, layerJoined (srcW x9) (dstW x9) (fun i c => ∑ q : Fin 8, x0 (ix2 i q) * x1 (ix2 q c)) (fun c => x2 (ix1 c)) i q * x3 (ix2 q c)) (fun c => x4 (ix1 c)) from
    funext fun i => funext fun c => v91_at x0 x1 x2 x3 x4 x9 i c]
  rfl

end Cert.ReferenceIdeal.RefValue

end
-- ==== Proof.Algebra.lean ====
/-
  The two arrangements of the computation stated in `Spec.lean` are the same function.

  Three facts carry it, none of them needing any input to be finite:

  * The guarded inverse square root `dinvOf d` is a nonnegative extended real other than `⊤` for every `d`: it is
    `0` unless `0 < d`, it is `0` at `d = ⊤`, and at a positive real `r` it is the coercion of `(√r)⁻¹ ≥ 0`.
    Multiplication by such a factor distributes over a sum of extended reals whatever the summands
    (`EReal.left_distrib_of_nonneg_of_ne_top`), hence over a finite sum by induction on the index set.
  * The 850000 joined messages are the 800000 edges followed by the 50000 self loops. The word of self loop `l` is the
    node number `l < 50000`, which reads back signed as `l`: it lands on node `i` exactly when `l = i`, and a gather
    selects row `l` from it. An edge whose target word lands on `i` selects row `i` in a gather too. So a sum over the
    messages landing on `i` is the sum over the edges landing on `i` plus the term of the self loop of `i`.
  * A sum over `Fin (p + q)` is the sum over the first `p` positions plus the sum over the last `q` (used at
    `800000 + 50000` for the messages and at `128 + 128` for the joined feature row).

  With these, the joined degree is the degree, the joined factors are the factors, one joined aggregation round is
  one factored round (distributivity, then commutativity and associativity of the product), the joined perceptron is
  the perceptron, and the two whole computations agree.
-/
import proofs.«173198_j90718299226435_2_alg».proof.Proof.Spec

noncomputable section

namespace Cert.Gcn

open Idealize.ShloMosaic Idealize.ShloMosaic.ValueIdx Cert.LibScatterRows

/-! ### The guarded inverse square root -/

/-- The guarded inverse square root is `0` off the positive degrees, `0` at `⊤`, and the coercion of a
    nonnegative real at a positive real degree: always nonnegative, never `⊤`. -/
theorem dinvOf_nonneg_ne_top (d : EReal) : 0 ≤ dinvOf d ∧ dinvOf d ≠ ⊤ := by
  unfold dinvOf Scalar.select Ideal.cmp
  by_cases h : (0 : EReal) < d
  · have hc : BitVec.ofBool (decide ((0 : EReal) < d)) = 1 := by simp [h]
    simp only [hc, if_true]
    induction d using EReal.rec with
    | bot => exact absurd h (by simp)
    | top => simp
    | coe r =>
      have hr : 0 < r := by exact_mod_cast h
      rw [Ideal.rsqrt_coe, if_neg (not_lt.mpr hr.le), if_neg hr.ne']
      exact ⟨by exact_mod_cast (inv_nonneg.mpr (Real.sqrt_nonneg r)), EReal.coe_ne_top _⟩
  · have hc : ¬ BitVec.ofBool (decide ((0 : EReal) < d)) = 1 := by simp [h]
    simp only [hc, if_false]
    exact ⟨le_refl _, EReal.zero_ne_top⟩

theorem dinvOf_nonneg (d : EReal) : 0 ≤ dinvOf d := (dinvOf_nonneg_ne_top d).1
theorem dinvOf_ne_top (d : EReal) : dinvOf d ≠ ⊤ := (dinvOf_nonneg_ne_top d).2

/-! ### Endpoint words -/

/-- A node number below the node count, written as a 32-bit word, reads back signed as itself. -/
theorem toInt_ofNat_node (l : Nat) (hl : l < 50000) : (BitVec.ofNat 32 l).toInt = (l : Int) := by
  have hm : l % 2 ^ 32 = l := Nat.mod_eq_of_lt (by omega)
  rw [BitVec.toInt_eq_toNat_cond, BitVec.toNat_ofNat, hm]
  split <;> omega

/-- A gather leaves a non-negative word alone: only a negative word is shifted. -/
theorem wrapIdx_of_nonneg (w : BitVec 32) (h : 0 ≤ w.toInt) : wrapIdx w = w := by
  unfold wrapIdx Scalar.select IntOp.cmpi
  have hs : w.slt 0#32 = false := by
    rw [BitVec.slt_eq_decide, BitVec.toInt_zero]
    exact decide_eq_false (by omega)
  simp only [hs]
  rfl

/-- A word that lands on node `i` in a scatter selects row `i` in a gather: in range the two readings agree. -/
theorem rowAt_wrapIdx_of_landing (w : BitVec 32) (i : Fin 50000) (h : landing 50000 w = some i) :
    rowAt (wrapIdx w) = i := by
  unfold landing at h
  by_cases hb : 0 ≤ w.toInt ∧ w.toInt < ((50000 : Nat) : Int)
  · rw [dif_pos hb] at h
    have hv := congrArg Fin.val (Option.some.inj h)
    change w.toInt.toNat = i.val at hv
    rw [wrapIdx_of_nonneg w hb.1]
    refine Fin.ext ?_
    show min w.toInt.toNat (50000 - 1) = i.val
    have := i.isLt
    omega
  · rw [dif_neg hb] at h
    cases h

/-- The word of self loop `l` lands on node `i` exactly when `l = i`. -/
theorem landing_node_iff (l i : Fin 50000) : landing 50000 (BitVec.ofNat 32 l.val) = some i ↔ l = i := by
  have ht := toInt_ofNat_node l.val l.isLt
  have hl := l.isLt
  have hb : 0 ≤ (BitVec.ofNat 32 l.val).toInt ∧ (BitVec.ofNat 32 l.val).toInt < ((50000 : Nat) : Int) := by
    rw [ht]; omega
  unfold landing
  rw [dif_pos hb]
  constructor
  · intro h
    have hv := congrArg Fin.val (Option.some.inj h)
    change (BitVec.ofNat 32 l.val).toInt.toNat = i.val at hv
    rw [ht] at hv
    exact Fin.ext (by omega)
  · rintro rfl
    refine congrArg some (Fin.ext ?_)
    show (BitVec.ofNat 32 l.val).toInt.toNat = l.val
    rw [ht]; omega

/-- The word of self loop `i` selects row `i` in a gather. -/
theorem rowAt_wrapIdx_node (i : Fin 50000) : rowAt (wrapIdx (BitVec.ofNat 32 i.val)) = i :=
  rowAt_wrapIdx_of_landing _ i ((landing_node_iff i i).mpr rfl)

/-! ### The words of the joined messages -/

section words
variable (srcW dstW : Fin 800000 → BitVec 32)

theorem srcJ_edge (e : Fin 800000) (h : e.val < 850000) : srcJ srcW ⟨e.val, h⟩ = srcW e := by
  unfold srcJ; rw [dif_pos e.isLt]

theorem dstJ_edge (e : Fin 800000) (h : e.val < 850000) : dstJ dstW ⟨e.val, h⟩ = dstW e := by
  unfold dstJ; rw [dif_pos e.isLt]

theorem srcJ_loop (l : Fin 50000) (h : 800000 + l.val < 850000) :
    srcJ srcW ⟨800000 + l.val, h⟩ = BitVec.ofNat 32 l.val := by
  unfold srcJ
  rw [dif_neg (show ¬ 800000 + l.val < 800000 by omega)]
  show BitVec.ofNat 32 (800000 + l.val - 800000) = BitVec.ofNat 32 l.val
  rw [Nat.add_sub_cancel_left]

theorem dstJ_loop (l : Fin 50000) (h : 800000 + l.val < 850000) :
    dstJ dstW ⟨800000 + l.val, h⟩ = BitVec.ofNat 32 l.val := by
  unfold dstJ
  rw [dif_neg (show ¬ 800000 + l.val < 800000 by omega)]
  show BitVec.ofNat 32 (800000 + l.val - 800000) = BitVec.ofNat 32 l.val
  rw [Nat.add_sub_cancel_left]

end words

/-! ### Splitting sums -/

/-- A sum over `n = p + q` positions is the sum over the first `p` plus the sum over the last `q`. -/
theorem sum_fin_split {M : Type*} [AddCommMonoid M] {n : Nat} (p q : Nat) (hn : n = p + q) (g : Fin n → M) :
    ∑ j, g j = (∑ a : Fin p, g ⟨a.val, by omega⟩) + ∑ l : Fin q, g ⟨p + l.val, by omega⟩ := by
  subst hn
  rw [Fin.sum_univ_add]
  rfl

/-- Multiplication by a nonnegative factor other than `⊤` distributes over a finite sum of extended reals,
    whatever the summands: the two-term law, by induction on the index set. -/
theorem mul_sum_of_nonneg_of_ne_top {ι : Type*} (s : Finset ι) (x : EReal) (hx : 0 ≤ x) (hx' : x ≠ ⊤) (f : ι → EReal) :
    x * ∑ a ∈ s, f a = ∑ a ∈ s, x * f a := by
  classical
  refine Finset.induction_on s ?_ ?_
  · simp
  · intro a s ha ih
    rw [Finset.sum_insert ha, Finset.sum_insert ha, EReal.left_distrib_of_nonneg_of_ne_top hx hx', ih]

section joined
variable (dstW : Fin 800000 → BitVec 32)

/-- The messages landing on node `i` are the edges landing on `i` and, among the self loops, the one of `i`. -/
theorem sum_hitJ (i : Fin 50000) (f : Fin 850000 → EReal) :
    ∑ j ∈ hitJ dstW i, f j
      = (∑ e ∈ hit dstW i, f ⟨e.val, by omega⟩) + f ⟨800000 + i.val, by omega⟩ := by
  unfold hitJ hit
  rw [Finset.sum_filter, Finset.sum_filter]
  refine (sum_fin_split 800000 50000 rfl _).trans (congrArg₂ (· + ·) ?_ ?_)
  · refine Finset.sum_congr rfl fun e _ => ?_
    rw [dstJ_edge]
  · have hstep : ∀ l : Fin 50000,
        (if landing 50000 (dstJ dstW ⟨800000 + l.val, by omega⟩) = some i then f ⟨800000 + l.val, by omega⟩ else 0)
          = if i = l then f ⟨800000 + l.val, by omega⟩ else 0 := by
      intro l
      rw [dstJ_loop]
      by_cases hli : l = i
      · rw [if_pos ((landing_node_iff l i).mpr hli), if_pos hli.symm]
      · rw [if_neg (fun hl => hli ((landing_node_iff l i).mp hl)), if_neg (fun h => hli h.symm)]
    refine (Finset.sum_congr rfl fun l _ => hstep l).trans ?_
    rw [Finset.sum_ite_eq Finset.univ i (fun l : Fin 50000 => f ⟨800000 + l.val, by omega⟩)]
    rw [if_pos (Finset.mem_univ i)]

end joined

/-! ### Degrees and one aggregation round -/

section layers
variable (srcW dstW : Fin 800000 → BitVec 32)

/-- The joined count of messages is the edge count plus the one self loop. -/
theorem degJ_eq (i : Fin 50000) : degJ dstW i = deg dstW i := by
  unfold degJ deg
  rw [sum_hitJ dstW i (fun _ => oneW), zero_add, zero_add]

theorem dinvJ_eq : dinvJ dstW = dinv dstW := by
  funext i
  unfold dinvJ dinv
  rw [degJ_eq]

theorem dinv_nonneg (i : Fin 50000) : 0 ≤ dinv dstW i := dinvOf_nonneg _
theorem dinv_ne_top (i : Fin 50000) : dinv dstW i ≠ ⊤ := dinvOf_ne_top _

/-- Scaling every message by both endpoints' factors, or scaling the sum once by the target's factor: the
    target's factor is nonnegative and not `⊤`, so it distributes over the sum of the messages whatever their
    values; the rest is commutativity and associativity of the product. -/
theorem layerJoined_eq (h : Fin 50000 → Fin 128 → EReal) (b : Fin 128 → EReal) (i : Fin 50000) (c : Fin 128) :
    layerJoined srcW dstW h b i c = layer srcW dstW h b i c := by
  have hD0 := dinv_nonneg dstW i
  have hDt := dinv_ne_top dstW i
  unfold layerJoined layer
  rw [dinvJ_eq, sum_hitJ, srcJ_loop, dstJ_loop, rowAt_wrapIdx_node]
  refine congrArg (fun z => max (z + b c) 0) ?_
  rw [zero_add, zero_add, EReal.left_distrib_of_nonneg_of_ne_top hD0 hDt,
    mul_sum_of_nonneg_of_ne_top _ _ hD0 hDt]
  refine congrArg₂ (· + ·) ?_ ?_
  · refine Finset.sum_congr rfl fun e he => ?_
    rw [srcJ_edge, dstJ_edge, rowAt_wrapIdx_of_landing (dstW e) i (Finset.mem_filter.mp he).2]
    unfold srow
    rw [mul_comm (dinv dstW i), mul_assoc]
  · rw [mul_comm (dinv dstW i) (h i c * dinv dstW i), mul_assoc]

end layers

/-! ### The perceptron and the whole computation -/

section whole
variable (srcW dstW : Fin 800000 → BitVec 32)

/-- One joined row of 256 features against `Wl1` is the source row against its first 128 rows plus the
    target row against its last 128 rows. -/
theorem joinedRow_eq (p : Fin 50000 → Fin 128 → EReal) (Wl1 : A2 256 128) (e : Fin 800000) (q : Fin 128) :
    (∑ r : Fin 256, (if h : r.val < 128 then p (srow srcW e) ⟨r.val, h⟩ else p (drow dstW e) ⟨r.val - 128, by omega⟩)
        * Wl1 (ix2 r q))
      = (∑ r : Fin 128, p (srow srcW e) r * Wl1 (ix2 (⟨r.val, by omega⟩ : Fin 256) q))
        + (∑ r : Fin 128, p (drow dstW e) r * Wl1 (ix2 (⟨128 + r.val, by omega⟩ : Fin 256) q)) := by
  refine (sum_fin_split 128 128 rfl _).trans (congrArg₂ (· + ·) ?_ ?_)
  · refine Finset.sum_congr rfl fun r _ => ?_
    dsimp only
    rw [dif_pos r.isLt]
  · refine Finset.sum_congr rfl fun r _ => ?_
    dsimp only
    rw [dif_neg (show ¬ 128 + r.val < 128 by omega)]
    have hr : (⟨128 + r.val - 128, by omega⟩ : Fin 128) = r := Fin.ext (show 128 + r.val - 128 = r.val by omega)
    rw [hr]

theorem mlpJoined_eq (p : Fin 50000 → Fin 128 → EReal) (Wl1 : A2 256 128) (bl1 : Fin 128 → EReal) (Wl2 : A2 128 2)
    (bl2 : Fin 2 → EReal) (e : Fin 800000) (j : Fin 2) :
    mlpJoined srcW dstW p Wl1 bl1 Wl2 bl2 e j = mlp srcW dstW p Wl1 bl1 Wl2 bl2 e j := by
  unfold mlpJoined mlp
  simp only [joinedRow_eq]

theorem layerJoined_eq_layer : layerJoined srcW dstW = layer srcW dstW := by
  funext h b i c
  exact layerJoined_eq srcW dstW h b i c

/-- The two arrangements of the whole computation agree at every edge and class. -/
theorem outJoined_eq (srcW dstW : Fin 800000 → BitVec 32) (x : A2 50000 8) (W1 : A2 8 128) (b1 : Fin 128 → EReal) (W2 : A2 128 128) (b2 : Fin 128 → EReal)
    (Wl1 : A2 256 128) (bl1 : Fin 128 → EReal) (Wl2 : A2 128 2) (bl2 : Fin 2 → EReal) (e : Fin 800000) (j : Fin 2) :
    outJoined srcW dstW x W1 b1 W2 b2 Wl1 bl1 Wl2 bl2 e j = out srcW dstW x W1 b1 W2 b2 Wl1 bl1 Wl2 bl2 e j := by
  unfold outJoined out
  rw [layerJoined_eq_layer, mlpJoined_eq]

end whole

end Cert.Gcn

end
-- ==== Proof.lean ====
/-
  The certificate of a two-round graph convolution followed by an edge perceptron, computed by five pipelined kernel
  regions with host gathers and segment sums between them, against its plain array reference.

  Both programs compute, at edge `e` and class `j`, the function `Cert.Gcn.out` of the argument arrays (Proof/Spec.lean).
  The kernel program's result buffer is read back region by region and stretch by stretch (Proof/Chain*.lean over the
  five regions' closed forms); the reference's result is its last host stage read at an index (Proof/RefValue*.lean),
  which is the same computation arranged over the 850000 joined messages; Proof/Algebra.lean joins the two
  arrangements: a degree factor is a nonnegative extended real that is never +∞, so it distributes over a sum of
  arbitrary extended reals, and no finiteness of the inputs is needed. The idealization rewrote nothing, so
  `preserves` is trivial; the three frames are the generated ones (the reference's from its run).
-/
import proofs.«173198_j90718299226435_2_alg».proof.Defs
import proofs.«173198_j90718299226435_2_alg».proof.Proof.Gen.Kernel
import proofs.«173198_j90718299226435_2_alg».proof.Proof.Gen.Kernel.Frame
import proofs.«173198_j90718299226435_2_alg».proof.Proof.Gen.KernelIdeal
import proofs.«173198_j90718299226435_2_alg».proof.Proof.Gen.KernelIdeal.Frame
import proofs.«173198_j90718299226435_2_alg».proof.Proof.Gen.ReferenceIdeal
import proofs.«173198_j90718299226435_2_alg».proof.Proof.Gen.Pre_finite_inputs
import proofs.«173198_j90718299226435_2_alg».proof.Proof.KernelRun
import proofs.«173198_j90718299226435_2_alg».proof.Proof.ChainMlp
import proofs.«173198_j90718299226435_2_alg».proof.Proof.RefRead
import proofs.«173198_j90718299226435_2_alg».proof.Proof.RefValue
import proofs.«173198_j90718299226435_2_alg».proof.Proof.Algebra

noncomputable section

namespace Cert.Proof

open Idealize.ShloMosaic Idealize.ShloMosaic.TcCoe Idealize.SL.Sem Idealize.ShloMosaic.ValueIdx

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- The reference's result array is the kernel program's, when the two launch memories agree on the arguments: entry
    by entry both are `Cert.Gcn.out` of the arguments. -/
theorem result_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_v116 (F := Ideal) m' c = Cert.KernelIdeal.Chain.resArr m ρ c := by
  rw [Cert.ReferenceIdeal.Read.val_main_v116_eq, h0, h1, h2, h3, h4, h5, h6, h7, h8, h9]
  funext i
  obtain ⟨e, j, rfl⟩ : ∃ (e : Fin 800000) (j : Fin 2), i = ix2 e j := ⟨i 0, i 1, eq_ix2 i⟩
  refine (Cert.ReferenceIdeal.RefValue.ref_at _ _ _ _ _ _ _ _ _ _ e j).trans ?_
  refine (Cert.Gcn.outJoined_eq _ _ _ _ _ _ _ _ _ _ _ e j).trans ?_
  exact (Cert.KernelIdeal.Chain.resArr_at m ρ c e j).symm

theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Gen.W12 m ρ c (Proc.devRef .tc Cert.KernelIdeal.main_v68),
    Cert.KernelIdeal.ResultRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  exact result_eq m ρ m' c h0 h1 h2 h3 h4 h5 h6 h7 h8 h9

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
